-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v310)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v310) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24 : Shape := ⟨1, ![24]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : FVec F S24 .f32) (main_arg1 : FVec F S24 .f32) : IVec S_ 1 :=
  let main_v0 : FVec F S24 .f32 := Host.absf main_arg0
  let main_cst : FVec F S_ .f32 := constant S_ .f32 0x7F800000#32
  let main_v1 : FVec F S24 .f32 := broadcastInDim S24 ![] bcast_S_S24 main_cst
  let main_v2 : IVec S24 1 := cmpf .olt main_v0 main_v1
  let main_c : IVec S_ 1 := constantI S_ 1 1#1
  let main_v3 : IVec S_ 1 := (fun x v => Host.reduce IntOp.andi x v reducesTo_S24_S_d0 h_S_) main_v2 main_c
  let main_v4 : FVec F S24 .f32 := Host.absf main_arg1
  let main_cst_0 : FVec F S_ .f32 := constant S_ .f32 0x7F800000#32
  let main_v5 : FVec F S24 .f32 := broadcastInDim S24 ![] bcast_S_S24 main_cst_0
  let main_v6 : IVec S24 1 := cmpf .olt main_v4 main_v5
  let main_c_1 : IVec S_ 1 := constantI S_ 1 1#1
  let main_v7 : IVec S_ 1 := (fun x v => Host.reduce IntOp.andi x v reducesTo_S24_S_d0 h_S_) main_v6 main_c_1
  let main_v8 : IVec S_ 1 := andi main_v3 main_v7
  main_v8
-- ==== Kernel.lean ====
abbrev S24 : Shape := ⟨1, ![24]⟩
abbrev S12 : Shape := ⟨1, ![12]⟩
abbrev S_ : Shape := ⟨0, ![]⟩
abbrev S4096 : Shape := ⟨1, ![4096]⟩
abbrev S1 : Shape := ⟨1, ![1]⟩
abbrev S4096x1 : Shape := ⟨2, ![4096, 1]⟩
abbrev S1x4096 : Shape := ⟨2, ![1, 4096]⟩
abbrev S4096x4096 : Shape := ⟨2, ![4096, 4096]⟩
abbrev S512x1 : Shape := ⟨2, ![512, 1]⟩
abbrev S512x4096 : Shape := ⟨2, ![512, 4096]⟩
abbrev S16777216 : Shape := ⟨1, ![16777216]⟩

abbrev nBuf : Space → Nat
  | .hbm => 437
  | .vmem => 5
  | .smem => 0
  | _ => 0

abbrev hbmTy0_0 (i : Nat) : BufTy := match i % 128 with
  | 0 => ⟨S24, .f32⟩
  | 1 => ⟨S24, .f32⟩
  | 2 => ⟨S24, .f32⟩
  | 3 => ⟨S12, .f32⟩
  | 4 => ⟨S_, .f32⟩
  | 5 => ⟨S12, .f32⟩
  | 6 => ⟨S12, .f32⟩
  | 7 => ⟨S12, .f32⟩
  | 8 => ⟨S12, .f32⟩
  | 9 => ⟨S12, .f32⟩
  | 10 => ⟨S12, .f32⟩
  | 11 => ⟨S4096, .i32⟩
  | 12 => ⟨S_, .f32⟩
  | 13 => ⟨S4096, .f32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S1, .f32⟩
  | 24 => ⟨S_, .f32⟩
  | 25 => ⟨S1, .f32⟩
  | 26 => ⟨S_, .f32⟩
  | 27 => ⟨S4096, .f32⟩
  | 28 => ⟨S4096, .f32⟩
  | 29 => ⟨S4096, .f32⟩
  | 30 => ⟨S4096, .f32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S1, .f32⟩
  | 41 => ⟨S_, .f32⟩
  | 42 => ⟨S1, .f32⟩
  | 43 => ⟨S_, .f32⟩
  | 44 => ⟨S4096, .f32⟩
  | 45 => ⟨S4096, .f32⟩
  | 46 => ⟨S4096, .f32⟩
  | 47 => ⟨S4096, .f32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i1⟩
  | 57 => ⟨S1, .f32⟩
  | 58 => ⟨S_, .f32⟩
  | 59 => ⟨S1, .f32⟩
  | 60 => ⟨S_, .f32⟩
  | 61 => ⟨S4096, .f32⟩
  | 62 => ⟨S4096, .f32⟩
  | 63 => ⟨S4096, .f32⟩
  | 64 => ⟨S4096, .f32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S1, .f32⟩
  | 75 => ⟨S_, .f32⟩
  | 76 => ⟨S1, .f32⟩
  | 77 => ⟨S_, .f32⟩
  | 78 => ⟨S4096, .f32⟩
  | 79 => ⟨S4096, .f32⟩
  | 80 => ⟨S4096, .f32⟩
  | 81 => ⟨S4096, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i1⟩
  | 91 => ⟨S1, .f32⟩
  | 92 => ⟨S_, .f32⟩
  | 93 => ⟨S1, .f32⟩
  | 94 => ⟨S_, .f32⟩
  | 95 => ⟨S4096, .f32⟩
  | 96 => ⟨S4096, .f32⟩
  | 97 => ⟨S4096, .f32⟩
  | 98 => ⟨S4096, .f32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i1⟩
  | 108 => ⟨S1, .f32⟩
  | 109 => ⟨S_, .f32⟩
  | 110 => ⟨S1, .f32⟩
  | 111 => ⟨S_, .f32⟩
  | 112 => ⟨S4096, .f32⟩
  | 113 => ⟨S4096, .f32⟩
  | 114 => ⟨S4096, .f32⟩
  | 115 => ⟨S4096, .f32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i1⟩
  | 125 => ⟨S1, .f32⟩
  | 126 => ⟨S_, .f32⟩
  | 127 => ⟨S1, .f32⟩
  | _ => ⟨S24, .f32⟩

abbrev hbmTy0_1 (i : Nat) : BufTy := match i % 128 with
  | 0 => ⟨S_, .f32⟩
  | 1 => ⟨S4096, .f32⟩
  | 2 => ⟨S4096, .f32⟩
  | 3 => ⟨S4096, .f32⟩
  | 4 => ⟨S4096, .f32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i1⟩
  | 14 => ⟨S1, .f32⟩
  | 15 => ⟨S_, .f32⟩
  | 16 => ⟨S1, .f32⟩
  | 17 => ⟨S_, .f32⟩
  | 18 => ⟨S4096, .f32⟩
  | 19 => ⟨S4096, .f32⟩
  | 20 => ⟨S4096, .f32⟩
  | 21 => ⟨S4096, .f32⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S1, .f32⟩
  | 32 => ⟨S_, .f32⟩
  | 33 => ⟨S1, .f32⟩
  | 34 => ⟨S_, .f32⟩
  | 35 => ⟨S4096, .f32⟩
  | 36 => ⟨S4096, .f32⟩
  | 37 => ⟨S4096, .f32⟩
  | 38 => ⟨S4096, .f32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S1, .f32⟩
  | 49 => ⟨S_, .f32⟩
  | 50 => ⟨S1, .f32⟩
  | 51 => ⟨S_, .f32⟩
  | 52 => ⟨S4096, .f32⟩
  | 53 => ⟨S4096, .f32⟩
  | 54 => ⟨S4096, .f32⟩
  | 55 => ⟨S4096, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S1, .f32⟩
  | 66 => ⟨S_, .f32⟩
  | 67 => ⟨S1, .f32⟩
  | 68 => ⟨S_, .f32⟩
  | 69 => ⟨S4096, .f32⟩
  | 70 => ⟨S4096, .f32⟩
  | 71 => ⟨S4096, .f32⟩
  | 72 => ⟨S4096, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i1⟩
  | 82 => ⟨S1, .f32⟩
  | 83 => ⟨S_, .f32⟩
  | 84 => ⟨S1, .f32⟩
  | 85 => ⟨S_, .f32⟩
  | 86 => ⟨S4096, .f32⟩
  | 87 => ⟨S4096, .f32⟩
  | 88 => ⟨S4096, .f32⟩
  | 89 => ⟨S4096, .f32⟩
  | 90 => ⟨S4096x1, .f32⟩
  | 91 => ⟨S12, .f32⟩
  | 92 => ⟨S_, .f32⟩
  | 93 => ⟨S12, .f32⟩
  | 94 => ⟨S12, .f32⟩
  | 95 => ⟨S12, .f32⟩
  | 96 => ⟨S12, .f32⟩
  | 97 => ⟨S12, .f32⟩
  | 98 => ⟨S12, .f32⟩
  | 99 => ⟨S4096, .i32⟩
  | 100 => ⟨S_, .f32⟩
  | 101 => ⟨S4096, .f32⟩
  | 102 => ⟨S_, .i32⟩
  | 103 => ⟨S4096, .i32⟩
  | 104 => ⟨S4096, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i1⟩
  | 111 => ⟨S1, .f32⟩
  | 112 => ⟨S_, .f32⟩
  | 113 => ⟨S1, .f32⟩
  | 114 => ⟨S_, .f32⟩
  | 115 => ⟨S4096, .f32⟩
  | 116 => ⟨S4096, .f32⟩
  | 117 => ⟨S4096, .f32⟩
  | 118 => ⟨S4096, .f32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i1⟩
  | _ => ⟨S24, .f32⟩

abbrev hbmTy0_2 (i : Nat) : BufTy := match i % 128 with
  | 0 => ⟨S1, .f32⟩
  | 1 => ⟨S_, .f32⟩
  | 2 => ⟨S1, .f32⟩
  | 3 => ⟨S_, .f32⟩
  | 4 => ⟨S4096, .f32⟩
  | 5 => ⟨S4096, .f32⟩
  | 6 => ⟨S4096, .f32⟩
  | 7 => ⟨S4096, .f32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i1⟩
  | 17 => ⟨S1, .f32⟩
  | 18 => ⟨S_, .f32⟩
  | 19 => ⟨S1, .f32⟩
  | 20 => ⟨S_, .f32⟩
  | 21 => ⟨S4096, .f32⟩
  | 22 => ⟨S4096, .f32⟩
  | 23 => ⟨S4096, .f32⟩
  | 24 => ⟨S4096, .f32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i1⟩
  | 34 => ⟨S1, .f32⟩
  | 35 => ⟨S_, .f32⟩
  | 36 => ⟨S1, .f32⟩
  | 37 => ⟨S_, .f32⟩
  | 38 => ⟨S4096, .f32⟩
  | 39 => ⟨S4096, .f32⟩
  | 40 => ⟨S4096, .f32⟩
  | 41 => ⟨S4096, .f32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i1⟩
  | 51 => ⟨S1, .f32⟩
  | 52 => ⟨S_, .f32⟩
  | 53 => ⟨S1, .f32⟩
  | 54 => ⟨S_, .f32⟩
  | 55 => ⟨S4096, .f32⟩
  | 56 => ⟨S4096, .f32⟩
  | 57 => ⟨S4096, .f32⟩
  | 58 => ⟨S4096, .f32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i1⟩
  | 68 => ⟨S1, .f32⟩
  | 69 => ⟨S_, .f32⟩
  | 70 => ⟨S1, .f32⟩
  | 71 => ⟨S_, .f32⟩
  | 72 => ⟨S4096, .f32⟩
  | 73 => ⟨S4096, .f32⟩
  | 74 => ⟨S4096, .f32⟩
  | 75 => ⟨S4096, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i1⟩
  | 85 => ⟨S1, .f32⟩
  | 86 => ⟨S_, .f32⟩
  | 87 => ⟨S1, .f32⟩
  | 88 => ⟨S_, .f32⟩
  | 89 => ⟨S4096, .f32⟩
  | 90 => ⟨S4096, .f32⟩
  | 91 => ⟨S4096, .f32⟩
  | 92 => ⟨S4096, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S_, .i32⟩
  | 100 => ⟨S4096, .i32⟩
  | 101 => ⟨S4096, .i1⟩
  | 102 => ⟨S1, .f32⟩
  | 103 => ⟨S_, .f32⟩
  | 104 => ⟨S1, .f32⟩
  | 105 => ⟨S_, .f32⟩
  | 106 => ⟨S4096, .f32⟩
  | 107 => ⟨S4096, .f32⟩
  | 108 => ⟨S4096, .f32⟩
  | 109 => ⟨S4096, .f32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S1, .f32⟩
  | 120 => ⟨S_, .f32⟩
  | 121 => ⟨S1, .f32⟩
  | 122 => ⟨S_, .f32⟩
  | 123 => ⟨S4096, .f32⟩
  | 124 => ⟨S4096, .f32⟩
  | 125 => ⟨S4096, .f32⟩
  | 126 => ⟨S4096, .f32⟩
  | 127 => ⟨S_, .i32⟩
  | _ => ⟨S24, .f32⟩

abbrev hbmTy0_3 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i1⟩
  | 8 => ⟨S1, .f32⟩
  | 9 => ⟨S_, .f32⟩
  | 10 => ⟨S1, .f32⟩
  | 11 => ⟨S_, .f32⟩
  | 12 => ⟨S4096, .f32⟩
  | 13 => ⟨S4096, .f32⟩
  | 14 => ⟨S4096, .f32⟩
  | 15 => ⟨S4096, .f32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i1⟩
  | 25 => ⟨S1, .f32⟩
  | 26 => ⟨S_, .f32⟩
  | 27 => ⟨S1, .f32⟩
  | 28 => ⟨S_, .f32⟩
  | 29 => ⟨S4096, .f32⟩
  | 30 => ⟨S4096, .f32⟩
  | 31 => ⟨S4096, .f32⟩
  | 32 => ⟨S4096, .f32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i1⟩
  | 42 => ⟨S1, .f32⟩
  | 43 => ⟨S_, .f32⟩
  | 44 => ⟨S1, .f32⟩
  | 45 => ⟨S_, .f32⟩
  | 46 => ⟨S4096, .f32⟩
  | 47 => ⟨S4096, .f32⟩
  | 48 => ⟨S4096, .f32⟩
  | 49 => ⟨S4096, .f32⟩
  | 50 => ⟨S1x4096, .f32⟩
  | 51 => ⟨S4096x4096, .f32⟩
  | 52 => ⟨S16777216, .f32⟩
  | _ => ⟨S24, .f32⟩

abbrev hbmTy (i : Nat) : BufTy := match i / 128 with
  | 0 => hbmTy0_0 i
  | 1 => hbmTy0_1 i
  | 2 => hbmTy0_2 i
  | 3 => hbmTy0_3 i
  | _ => ⟨S24, .f32⟩

abbrev bufTy : (tb : Table) → Fin (tcTables nBuf tb) → BufTy
  | .hbm, ⟨i, _⟩ => hbmTy i
  | .local _ .vmem, ⟨0, _⟩ => ⟨S512x1, .f32⟩
  | .local _ .vmem, ⟨1, _⟩ => ⟨S512x1, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call2_v0 : Ref sig .tc := ⟨.hbm, 61, rfl⟩
abbrev main_call2_v1 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call3_v0 : Ref sig .tc := ⟨.hbm, 78, rfl⟩
abbrev main_call3_v1 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call4_v0 : Ref sig .tc := ⟨.hbm, 95, rfl⟩
abbrev main_call4_v1 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call5_v0 : Ref sig .tc := ⟨.hbm, 112, rfl⟩
abbrev main_call5_v1 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_c_19 : Ref sig .tc := ⟨.hbm, 119, rfl⟩
abbrev main_v84 : Ref sig .tc := ⟨.hbm, 120, rfl⟩
abbrev main_v85 : Ref sig .tc := ⟨.hbm, 121, rfl⟩
abbrev main_c_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call6_v0 : Ref sig .tc := ⟨.hbm, 129, rfl⟩
abbrev main_call6_v1 : Ref sig .tc := ⟨.hbm, 130, rfl⟩
abbrev main_v92 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_c_23 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_call7_v0 : Ref sig .tc := ⟨.hbm, 146, rfl⟩
abbrev main_call7_v1 : Ref sig .tc := ⟨.hbm, 147, rfl⟩
abbrev main_v104 : Ref sig .tc := ⟨.hbm, 148, rfl⟩
abbrev main_v105 : Ref sig .tc := ⟨.hbm, 149, rfl⟩
abbrev main_c_24 : Ref sig .tc := ⟨.hbm, 150, rfl⟩
abbrev main_v106 : Ref sig .tc := ⟨.hbm, 151, rfl⟩
abbrev main_v107 : Ref sig .tc := ⟨.hbm, 152, rfl⟩
abbrev main_c_25 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call8_v0 : Ref sig .tc := ⟨.hbm, 163, rfl⟩
abbrev main_call8_v1 : Ref sig .tc := ⟨.hbm, 164, rfl⟩
abbrev main_v116 : Ref sig .tc := ⟨.hbm, 165, rfl⟩
abbrev main_v117 : Ref sig .tc := ⟨.hbm, 166, rfl⟩
abbrev main_c_27 : Ref sig .tc := ⟨.hbm, 167, rfl⟩
abbrev main_v118 : Ref sig .tc := ⟨.hbm, 168, rfl⟩
abbrev main_v119 : Ref sig .tc := ⟨.hbm, 169, rfl⟩
abbrev main_c_28 : Ref sig .tc := ⟨.hbm, 170, rfl⟩
abbrev main_v120 : Ref sig .tc := ⟨.hbm, 171, rfl⟩
abbrev main_v121 : Ref sig .tc := ⟨.hbm, 172, rfl⟩
abbrev main_c_29 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_call9_v0 : Ref sig .tc := ⟨.hbm, 180, rfl⟩
abbrev main_call9_v1 : Ref sig .tc := ⟨.hbm, 181, rfl⟩
abbrev main_v128 : Ref sig .tc := ⟨.hbm, 182, rfl⟩
abbrev main_v129 : Ref sig .tc := ⟨.hbm, 183, rfl⟩
abbrev main_c_30 : Ref sig .tc := ⟨.hbm, 184, rfl⟩
abbrev main_v130 : Ref sig .tc := ⟨.hbm, 185, rfl⟩
abbrev main_v131 : Ref sig .tc := ⟨.hbm, 186, rfl⟩
abbrev main_c_31 : Ref sig .tc := ⟨.hbm, 187, rfl⟩
abbrev main_v132 : Ref sig .tc := ⟨.hbm, 188, rfl⟩
abbrev main_v133 : Ref sig .tc := ⟨.hbm, 189, rfl⟩
abbrev main_c_32 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_call10_v0 : Ref sig .tc := ⟨.hbm, 197, rfl⟩
abbrev main_call10_v1 : Ref sig .tc := ⟨.hbm, 198, rfl⟩
abbrev main_v140 : Ref sig .tc := ⟨.hbm, 199, rfl⟩
abbrev main_v141 : Ref sig .tc := ⟨.hbm, 200, rfl⟩
abbrev main_c_33 : Ref sig .tc := ⟨.hbm, 201, rfl⟩
abbrev main_v142 : Ref sig .tc := ⟨.hbm, 202, rfl⟩
abbrev main_v143 : Ref sig .tc := ⟨.hbm, 203, rfl⟩
abbrev main_c_34 : Ref sig .tc := ⟨.hbm, 204, rfl⟩
abbrev main_v144 : Ref sig .tc := ⟨.hbm, 205, rfl⟩
abbrev main_v145 : Ref sig .tc := ⟨.hbm, 206, rfl⟩
abbrev main_c_35 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call11_v0 : Ref sig .tc := ⟨.hbm, 214, rfl⟩
abbrev main_call11_v1 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_36 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_37 : Ref sig .tc := ⟨.hbm, 228, rfl⟩
abbrev main_v163 : Ref sig .tc := ⟨.hbm, 229, rfl⟩
abbrev main_c_38 : Ref sig .tc := ⟨.hbm, 230, rfl⟩
abbrev main_v164 : Ref sig .tc := ⟨.hbm, 231, rfl⟩
abbrev main_v165 : Ref sig .tc := ⟨.hbm, 232, rfl⟩
abbrev main_c_39 : Ref sig .tc := ⟨.hbm, 233, rfl⟩
abbrev main_v166 : Ref sig .tc := ⟨.hbm, 234, rfl⟩
abbrev main_v167 : Ref sig .tc := ⟨.hbm, 235, rfl⟩
abbrev main_c_40 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_call12_v0 : Ref sig .tc := ⟨.hbm, 243, rfl⟩
abbrev main_call12_v1 : Ref sig .tc := ⟨.hbm, 244, rfl⟩
abbrev main_v174 : Ref sig .tc := ⟨.hbm, 245, rfl⟩
abbrev main_v175 : Ref sig .tc := ⟨.hbm, 246, rfl⟩
abbrev main_c_41 : Ref sig .tc := ⟨.hbm, 247, rfl⟩
abbrev main_v176 : Ref sig .tc := ⟨.hbm, 248, rfl⟩
abbrev main_v177 : Ref sig .tc := ⟨.hbm, 249, rfl⟩
abbrev main_c_42 : Ref sig .tc := ⟨.hbm, 250, rfl⟩
abbrev main_v178 : Ref sig .tc := ⟨.hbm, 251, rfl⟩
abbrev main_v179 : Ref sig .tc := ⟨.hbm, 252, rfl⟩
abbrev main_c_43 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_call13_v0 : Ref sig .tc := ⟨.hbm, 260, rfl⟩
abbrev main_call13_v1 : Ref sig .tc := ⟨.hbm, 261, rfl⟩
abbrev main_v186 : Ref sig .tc := ⟨.hbm, 262, rfl⟩
abbrev main_v187 : Ref sig .tc := ⟨.hbm, 263, rfl⟩
abbrev main_c_44 : Ref sig .tc := ⟨.hbm, 264, rfl⟩
abbrev main_v188 : Ref sig .tc := ⟨.hbm, 265, rfl⟩
abbrev main_v189 : Ref sig .tc := ⟨.hbm, 266, rfl⟩
abbrev main_c_45 : Ref sig .tc := ⟨.hbm, 267, rfl⟩
abbrev main_v190 : Ref sig .tc := ⟨.hbm, 268, rfl⟩
abbrev main_v191 : Ref sig .tc := ⟨.hbm, 269, rfl⟩
abbrev main_c_46 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_call14_v0 : Ref sig .tc := ⟨.hbm, 277, rfl⟩
abbrev main_call14_v1 : Ref sig .tc := ⟨.hbm, 278, rfl⟩
abbrev main_v198 : Ref sig .tc := ⟨.hbm, 279, rfl⟩
abbrev main_v199 : Ref sig .tc := ⟨.hbm, 280, rfl⟩
abbrev main_c_47 : Ref sig .tc := ⟨.hbm, 281, rfl⟩
abbrev main_v200 : Ref sig .tc := ⟨.hbm, 282, rfl⟩
abbrev main_v201 : Ref sig .tc := ⟨.hbm, 283, rfl⟩
abbrev main_c_48 : Ref sig .tc := ⟨.hbm, 284, rfl⟩
abbrev main_v202 : Ref sig .tc := ⟨.hbm, 285, rfl⟩
abbrev main_v203 : Ref sig .tc := ⟨.hbm, 286, rfl⟩
abbrev main_c_49 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_call15_v0 : Ref sig .tc := ⟨.hbm, 294, rfl⟩
abbrev main_call15_v1 : Ref sig .tc := ⟨.hbm, 295, rfl⟩
abbrev main_v210 : Ref sig .tc := ⟨.hbm, 296, rfl⟩
abbrev main_v211 : Ref sig .tc := ⟨.hbm, 297, rfl⟩
abbrev main_c_50 : Ref sig .tc := ⟨.hbm, 298, rfl⟩
abbrev main_v212 : Ref sig .tc := ⟨.hbm, 299, rfl⟩
abbrev main_v213 : Ref sig .tc := ⟨.hbm, 300, rfl⟩
abbrev main_c_51 : Ref sig .tc := ⟨.hbm, 301, rfl⟩
abbrev main_v214 : Ref sig .tc := ⟨.hbm, 302, rfl⟩
abbrev main_v215 : Ref sig .tc := ⟨.hbm, 303, rfl⟩
abbrev main_c_52 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_call16_v0 : Ref sig .tc := ⟨.hbm, 311, rfl⟩
abbrev main_call16_v1 : Ref sig .tc := ⟨.hbm, 312, rfl⟩
abbrev main_v222 : Ref sig .tc := ⟨.hbm, 313, rfl⟩
abbrev main_v223 : Ref sig .tc := ⟨.hbm, 314, rfl⟩
abbrev main_c_53 : Ref sig .tc := ⟨.hbm, 315, rfl⟩
abbrev main_v224 : Ref sig .tc := ⟨.hbm, 316, rfl⟩
abbrev main_v225 : Ref sig .tc := ⟨.hbm, 317, rfl⟩
abbrev main_c_54 : Ref sig .tc := ⟨.hbm, 318, rfl⟩
abbrev main_v226 : Ref sig .tc := ⟨.hbm, 319, rfl⟩
abbrev main_v227 : Ref sig .tc := ⟨.hbm, 320, rfl⟩
abbrev main_c_55 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_call17_v0 : Ref sig .tc := ⟨.hbm, 328, rfl⟩
abbrev main_call17_v1 : Ref sig .tc := ⟨.hbm, 329, rfl⟩
abbrev main_v234 : Ref sig .tc := ⟨.hbm, 330, rfl⟩
abbrev main_v235 : Ref sig .tc := ⟨.hbm, 331, rfl⟩
abbrev main_c_56 : Ref sig .tc := ⟨.hbm, 332, rfl⟩
abbrev main_v236 : Ref sig .tc := ⟨.hbm, 333, rfl⟩
abbrev main_v237 : Ref sig .tc := ⟨.hbm, 334, rfl⟩
abbrev main_c_57 : Ref sig .tc := ⟨.hbm, 335, rfl⟩
abbrev main_v238 : Ref sig .tc := ⟨.hbm, 336, rfl⟩
abbrev main_v239 : Ref sig .tc := ⟨.hbm, 337, rfl⟩
abbrev main_c_58 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_call18_v0 : Ref sig .tc := ⟨.hbm, 345, rfl⟩
abbrev main_call18_v1 : Ref sig .tc := ⟨.hbm, 346, rfl⟩
abbrev main_v246 : Ref sig .tc := ⟨.hbm, 347, rfl⟩
abbrev main_v247 : Ref sig .tc := ⟨.hbm, 348, rfl⟩
abbrev main_c_59 : Ref sig .tc := ⟨.hbm, 349, rfl⟩
abbrev main_v248 : Ref sig .tc := ⟨.hbm, 350, rfl⟩
abbrev main_v249 : Ref sig .tc := ⟨.hbm, 351, rfl⟩
abbrev main_c_60 : Ref sig .tc := ⟨.hbm, 352, rfl⟩
abbrev main_v250 : Ref sig .tc := ⟨.hbm, 353, rfl⟩
abbrev main_v251 : Ref sig .tc := ⟨.hbm, 354, rfl⟩
abbrev main_c_61 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_call19_v0 : Ref sig .tc := ⟨.hbm, 362, rfl⟩
abbrev main_call19_v1 : Ref sig .tc := ⟨.hbm, 363, rfl⟩
abbrev main_v258 : Ref sig .tc := ⟨.hbm, 364, rfl⟩
abbrev main_v259 : Ref sig .tc := ⟨.hbm, 365, rfl⟩
abbrev main_c_62 : Ref sig .tc := ⟨.hbm, 366, rfl⟩
abbrev main_v260 : Ref sig .tc := ⟨.hbm, 367, rfl⟩
abbrev main_v261 : Ref sig .tc := ⟨.hbm, 368, rfl⟩
abbrev main_c_63 : Ref sig .tc := ⟨.hbm, 369, rfl⟩
abbrev main_v262 : Ref sig .tc := ⟨.hbm, 370, rfl⟩
abbrev main_v263 : Ref sig .tc := ⟨.hbm, 371, rfl⟩
abbrev main_c_64 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_v268 : Ref sig .tc := ⟨.hbm, 377, rfl⟩
abbrev main_v269 : Ref sig .tc := ⟨.hbm, 378, rfl⟩
abbrev main_call20_v0 : Ref sig .tc := ⟨.hbm, 379, rfl⟩
abbrev main_call20_v1 : Ref sig .tc := ⟨.hbm, 380, rfl⟩
abbrev main_v270 : Ref sig .tc := ⟨.hbm, 381, rfl⟩
abbrev main_v271 : Ref sig .tc := ⟨.hbm, 382, rfl⟩
abbrev main_c_65 : Ref sig .tc := ⟨.hbm, 383, rfl⟩
abbrev main_v272 : Ref sig .tc := ⟨.hbm, 384, rfl⟩
abbrev main_v273 : Ref sig .tc := ⟨.hbm, 385, rfl⟩
abbrev main_c_66 : Ref sig .tc := ⟨.hbm, 386, rfl⟩
abbrev main_v274 : Ref sig .tc := ⟨.hbm, 387, rfl⟩
abbrev main_v275 : Ref sig .tc := ⟨.hbm, 388, rfl⟩
abbrev main_c_67 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_call21_v0 : Ref sig .tc := ⟨.hbm, 396, rfl⟩
abbrev main_call21_v1 : Ref sig .tc := ⟨.hbm, 397, rfl⟩
abbrev main_v282 : Ref sig .tc := ⟨.hbm, 398, rfl⟩
abbrev main_v283 : Ref sig .tc := ⟨.hbm, 399, rfl⟩
abbrev main_c_68 : Ref sig .tc := ⟨.hbm, 400, rfl⟩
abbrev main_v284 : Ref sig .tc := ⟨.hbm, 401, rfl⟩
abbrev main_v285 : Ref sig .tc := ⟨.hbm, 402, rfl⟩
abbrev main_c_69 : Ref sig .tc := ⟨.hbm, 403, rfl⟩
abbrev main_v286 : Ref sig .tc := ⟨.hbm, 404, rfl⟩
abbrev main_v287 : Ref sig .tc := ⟨.hbm, 405, rfl⟩
abbrev main_c_70 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_call22_v0 : Ref sig .tc := ⟨.hbm, 413, rfl⟩
abbrev main_call22_v1 : Ref sig .tc := ⟨.hbm, 414, rfl⟩
abbrev main_v294 : Ref sig .tc := ⟨.hbm, 415, rfl⟩
abbrev main_v295 : Ref sig .tc := ⟨.hbm, 416, rfl⟩
abbrev main_c_71 : Ref sig .tc := ⟨.hbm, 417, rfl⟩
abbrev main_v296 : Ref sig .tc := ⟨.hbm, 418, rfl⟩
abbrev main_v297 : Ref sig .tc := ⟨.hbm, 419, rfl⟩
abbrev main_c_72 : Ref sig .tc := ⟨.hbm, 420, rfl⟩
abbrev main_v298 : Ref sig .tc := ⟨.hbm, 421, rfl⟩
abbrev main_v299 : Ref sig .tc := ⟨.hbm, 422, rfl⟩
abbrev main_c_73 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_v303 : Ref sig .tc := ⟨.hbm, 427, rfl⟩
abbrev main_v304 : Ref sig .tc := ⟨.hbm, 428, rfl⟩
abbrev main_v305 : Ref sig .tc := ⟨.hbm, 429, rfl⟩
abbrev main_call23_v0 : Ref sig .tc := ⟨.hbm, 430, rfl⟩
abbrev main_call23_v1 : Ref sig .tc := ⟨.hbm, 431, rfl⟩
abbrev main_v306 : Ref sig .tc := ⟨.hbm, 432, rfl⟩
abbrev main_v307 : Ref sig .tc := ⟨.hbm, 433, rfl⟩
abbrev main_v308 : Ref sig .tc := ⟨.hbm, 434, rfl⟩
abbrev main_v309 : Ref sig .tc := ⟨.hbm, 435, rfl⟩
abbrev main_v310 : Ref sig .tc := ⟨.hbm, 436, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S24_S12_0 : S24.Slices ![0] S12
  bcast_S_S12 : S_.BroadcastsInDim S12 (![] : Fin 0 → Fin S12.rank)
  bcast_S_S4096 : S_.BroadcastsInDim S4096 (![] : Fin 0 → Fin S4096.rank)
  slices_S12_S1_0 : S12.Slices ![0] S1
  shapeCasts_S1_S_ : S1.ShapeCasts S_
  slices_S12_S1_1 : S12.Slices ![1] S1
  slices_S12_S1_2 : S12.Slices ![2] S1
  slices_S12_S1_3 : S12.Slices ![3] S1
  slices_S12_S1_4 : S12.Slices ![4] S1
  slices_S12_S1_5 : S12.Slices ![5] S1
  slices_S12_S1_6 : S12.Slices ![6] S1
  slices_S12_S1_7 : S12.Slices ![7] S1
  slices_S12_S1_8 : S12.Slices ![8] S1
  slices_S12_S1_9 : S12.Slices ![9] S1
  slices_S12_S1_10 : S12.Slices ![10] S1
  slices_S12_S1_11 : S12.Slices ![11] S1
  shapeCasts_S4096_S4096x1 : S4096.ShapeCasts S4096x1
  slices_S24_S12_12 : S24.Slices ![12] S12
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S4096x4096_S16777216 : S4096x4096.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)

variable [Facts₀]

abbrev win0_0 : Pipeline.Window sig grid0 :=
  Pipeline.Window.ofSpec (Memref.whole main_v154) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v308) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v309) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S24 : Shape := ⟨1, ![24]⟩
abbrev S_ : Shape := ⟨0, ![]⟩
abbrev S1 : Shape := ⟨1, ![1]⟩
abbrev S2 : Shape := ⟨1, ![2]⟩
abbrev S1x1 : Shape := ⟨2, ![1, 1]⟩
abbrev S1x2 : Shape := ⟨2, ![1, 2]⟩
abbrev S2x1 : Shape := ⟨2, ![2, 1]⟩
abbrev S2x2 : Shape := ⟨2, ![2, 2]⟩
abbrev S4 : Shape := ⟨1, ![4]⟩
abbrev S4x1 : Shape := ⟨2, ![4, 1]⟩
abbrev S4x2 : Shape := ⟨2, ![4, 2]⟩
abbrev S8 : Shape := ⟨1, ![8]⟩
abbrev S8x1 : Shape := ⟨2, ![8, 1]⟩
abbrev S8x2 : Shape := ⟨2, ![8, 2]⟩
abbrev S16 : Shape := ⟨1, ![16]⟩
abbrev S16x1 : Shape := ⟨2, ![16, 1]⟩
abbrev S16x2 : Shape := ⟨2, ![16, 2]⟩
abbrev S32 : Shape := ⟨1, ![32]⟩
abbrev S32x1 : Shape := ⟨2, ![32, 1]⟩
abbrev S32x2 : Shape := ⟨2, ![32, 2]⟩
abbrev S64 : Shape := ⟨1, ![64]⟩
abbrev S64x1 : Shape := ⟨2, ![64, 1]⟩
abbrev S64x2 : Shape := ⟨2, ![64, 2]⟩
abbrev S128 : Shape := ⟨1, ![128]⟩
abbrev S128x1 : Shape := ⟨2, ![128, 1]⟩
abbrev S128x2 : Shape := ⟨2, ![128, 2]⟩
abbrev S256 : Shape := ⟨1, ![256]⟩
abbrev S256x1 : Shape := ⟨2, ![256, 1]⟩
abbrev S256x2 : Shape := ⟨2, ![256, 2]⟩
abbrev S512 : Shape := ⟨1, ![512]⟩
abbrev S512x1 : Shape := ⟨2, ![512, 1]⟩
abbrev S512x2 : Shape := ⟨2, ![512, 2]⟩
abbrev S1024 : Shape := ⟨1, ![1024]⟩
abbrev S1024x1 : Shape := ⟨2, ![1024, 1]⟩
abbrev S1024x2 : Shape := ⟨2, ![1024, 2]⟩
abbrev S2048 : Shape := ⟨1, ![2048]⟩
abbrev S2048x1 : Shape := ⟨2, ![2048, 1]⟩
abbrev S2048x2 : Shape := ⟨2, ![2048, 2]⟩
abbrev S4096 : Shape := ⟨1, ![4096]⟩
abbrev S4096x1 : Shape := ⟨2, ![4096, 1]⟩
abbrev S4096x2 : Shape := ⟨2, ![4096, 2]⟩
abbrev S8192 : Shape := ⟨1, ![8192]⟩
abbrev S8192x1 : Shape := ⟨2, ![8192, 1]⟩
abbrev S8192x2 : Shape := ⟨2, ![8192, 2]⟩
abbrev S16384 : Shape := ⟨1, ![16384]⟩
abbrev S16384x1 : Shape := ⟨2, ![16384, 1]⟩
abbrev S16384x2 : Shape := ⟨2, ![16384, 2]⟩
abbrev S32768 : Shape := ⟨1, ![32768]⟩
abbrev S32768x1 : Shape := ⟨2, ![32768, 1]⟩
abbrev S32768x2 : Shape := ⟨2, ![32768, 2]⟩
abbrev S65536 : Shape := ⟨1, ![65536]⟩
abbrev S65536x1 : Shape := ⟨2, ![65536, 1]⟩
abbrev S65536x2 : Shape := ⟨2, ![65536, 2]⟩
abbrev S131072 : Shape := ⟨1, ![131072]⟩
abbrev S131072x1 : Shape := ⟨2, ![131072, 1]⟩
abbrev S131072x2 : Shape := ⟨2, ![131072, 2]⟩
abbrev S262144 : Shape := ⟨1, ![262144]⟩
abbrev S262144x1 : Shape := ⟨2, ![262144, 1]⟩
abbrev S262144x2 : Shape := ⟨2, ![262144, 2]⟩
abbrev S524288 : Shape := ⟨1, ![524288]⟩
abbrev S524288x1 : Shape := ⟨2, ![524288, 1]⟩
abbrev S524288x2 : Shape := ⟨2, ![524288, 2]⟩
abbrev S1048576 : Shape := ⟨1, ![1048576]⟩
abbrev S1048576x1 : Shape := ⟨2, ![1048576, 1]⟩
abbrev S1048576x2 : Shape := ⟨2, ![1048576, 2]⟩
abbrev S2097152 : Shape := ⟨1, ![2097152]⟩
abbrev S2097152x1 : Shape := ⟨2, ![2097152, 1]⟩
abbrev S2097152x2 : Shape := ⟨2, ![2097152, 2]⟩
abbrev S4194304 : Shape := ⟨1, ![4194304]⟩
abbrev S4194304x1 : Shape := ⟨2, ![4194304, 1]⟩
abbrev S4194304x2 : Shape := ⟨2, ![4194304, 2]⟩
abbrev S8388608 : Shape := ⟨1, ![8388608]⟩
abbrev S8388608x1 : Shape := ⟨2, ![8388608, 1]⟩
abbrev S8388608x2 : Shape := ⟨2, ![8388608, 2]⟩
abbrev S16777216 : Shape := ⟨1, ![16777216]⟩

abbrev nBuf : Space → Nat
  | .hbm => 322
  | .vmem => 0
  | .smem => 0
  | _ => 0

abbrev hbmTy0_0 (i : Nat) : BufTy := match i % 128 with
  | 0 => ⟨S24, .f32⟩
  | 1 => ⟨S24, .f32⟩
  | 2 => ⟨S24, .f32⟩
  | 3 => ⟨S_, .f32⟩
  | 4 => ⟨S24, .f32⟩
  | 5 => ⟨S24, .f32⟩
  | 6 => ⟨S24, .f32⟩
  | 7 => ⟨S24, .f32⟩
  | 8 => ⟨S_, .f32⟩
  | 9 => ⟨S1, .f32⟩
  | 10 => ⟨S1, .f32⟩
  | 11 => ⟨S_, .f32⟩
  | 12 => ⟨S1, .f32⟩
  | 13 => ⟨S_, .f32⟩
  | 14 => ⟨S1, .f32⟩
  | 15 => ⟨S1, .f32⟩
  | 16 => ⟨S2, .f32⟩
  | 17 => ⟨S1x1, .f32⟩
  | 18 => ⟨S1x2, .f32⟩
  | 19 => ⟨S1x2, .f32⟩
  | 20 => ⟨S1x2, .f32⟩
  | 21 => ⟨S2, .f32⟩
  | 22 => ⟨S1, .f32⟩
  | 23 => ⟨S_, .f32⟩
  | 24 => ⟨S1, .f32⟩
  | 25 => ⟨S_, .f32⟩
  | 26 => ⟨S1, .f32⟩
  | 27 => ⟨S1, .f32⟩
  | 28 => ⟨S2, .f32⟩
  | 29 => ⟨S2x1, .f32⟩
  | 30 => ⟨S1x2, .f32⟩
  | 31 => ⟨S2x2, .f32⟩
  | 32 => ⟨S2x2, .f32⟩
  | 33 => ⟨S2x2, .f32⟩
  | 34 => ⟨S4, .f32⟩
  | 35 => ⟨S1, .f32⟩
  | 36 => ⟨S_, .f32⟩
  | 37 => ⟨S1, .f32⟩
  | 38 => ⟨S_, .f32⟩
  | 39 => ⟨S1, .f32⟩
  | 40 => ⟨S1, .f32⟩
  | 41 => ⟨S2, .f32⟩
  | 42 => ⟨S4x1, .f32⟩
  | 43 => ⟨S1x2, .f32⟩
  | 44 => ⟨S4x2, .f32⟩
  | 45 => ⟨S4x2, .f32⟩
  | 46 => ⟨S4x2, .f32⟩
  | 47 => ⟨S8, .f32⟩
  | 48 => ⟨S1, .f32⟩
  | 49 => ⟨S_, .f32⟩
  | 50 => ⟨S1, .f32⟩
  | 51 => ⟨S_, .f32⟩
  | 52 => ⟨S1, .f32⟩
  | 53 => ⟨S1, .f32⟩
  | 54 => ⟨S2, .f32⟩
  | 55 => ⟨S8x1, .f32⟩
  | 56 => ⟨S1x2, .f32⟩
  | 57 => ⟨S8x2, .f32⟩
  | 58 => ⟨S8x2, .f32⟩
  | 59 => ⟨S8x2, .f32⟩
  | 60 => ⟨S16, .f32⟩
  | 61 => ⟨S1, .f32⟩
  | 62 => ⟨S_, .f32⟩
  | 63 => ⟨S1, .f32⟩
  | 64 => ⟨S_, .f32⟩
  | 65 => ⟨S1, .f32⟩
  | 66 => ⟨S1, .f32⟩
  | 67 => ⟨S2, .f32⟩
  | 68 => ⟨S16x1, .f32⟩
  | 69 => ⟨S1x2, .f32⟩
  | 70 => ⟨S16x2, .f32⟩
  | 71 => ⟨S16x2, .f32⟩
  | 72 => ⟨S16x2, .f32⟩
  | 73 => ⟨S32, .f32⟩
  | 74 => ⟨S1, .f32⟩
  | 75 => ⟨S_, .f32⟩
  | 76 => ⟨S1, .f32⟩
  | 77 => ⟨S_, .f32⟩
  | 78 => ⟨S1, .f32⟩
  | 79 => ⟨S1, .f32⟩
  | 80 => ⟨S2, .f32⟩
  | 81 => ⟨S32x1, .f32⟩
  | 82 => ⟨S1x2, .f32⟩
  | 83 => ⟨S32x2, .f32⟩
  | 84 => ⟨S32x2, .f32⟩
  | 85 => ⟨S32x2, .f32⟩
  | 86 => ⟨S64, .f32⟩
  | 87 => ⟨S1, .f32⟩
  | 88 => ⟨S_, .f32⟩
  | 89 => ⟨S1, .f32⟩
  | 90 => ⟨S_, .f32⟩
  | 91 => ⟨S1, .f32⟩
  | 92 => ⟨S1, .f32⟩
  | 93 => ⟨S2, .f32⟩
  | 94 => ⟨S64x1, .f32⟩
  | 95 => ⟨S1x2, .f32⟩
  | 96 => ⟨S64x2, .f32⟩
  | 97 => ⟨S64x2, .f32⟩
  | 98 => ⟨S64x2, .f32⟩
  | 99 => ⟨S128, .f32⟩
  | 100 => ⟨S1, .f32⟩
  | 101 => ⟨S_, .f32⟩
  | 102 => ⟨S1, .f32⟩
  | 103 => ⟨S_, .f32⟩
  | 104 => ⟨S1, .f32⟩
  | 105 => ⟨S1, .f32⟩
  | 106 => ⟨S2, .f32⟩
  | 107 => ⟨S128x1, .f32⟩
  | 108 => ⟨S1x2, .f32⟩
  | 109 => ⟨S128x2, .f32⟩
  | 110 => ⟨S128x2, .f32⟩
  | 111 => ⟨S128x2, .f32⟩
  | 112 => ⟨S256, .f32⟩
  | 113 => ⟨S1, .f32⟩
  | 114 => ⟨S_, .f32⟩
  | 115 => ⟨S1, .f32⟩
  | 116 => ⟨S_, .f32⟩
  | 117 => ⟨S1, .f32⟩
  | 118 => ⟨S1, .f32⟩
  | 119 => ⟨S2, .f32⟩
  | 120 => ⟨S256x1, .f32⟩
  | 121 => ⟨S1x2, .f32⟩
  | 122 => ⟨S256x2, .f32⟩
  | 123 => ⟨S256x2, .f32⟩
  | 124 => ⟨S256x2, .f32⟩
  | 125 => ⟨S512, .f32⟩
  | 126 => ⟨S1, .f32⟩
  | 127 => ⟨S_, .f32⟩
  | _ => ⟨S24, .f32⟩

abbrev hbmTy0_1 (i : Nat) : BufTy := match i % 128 with
  | 0 => ⟨S1, .f32⟩
  | 1 => ⟨S_, .f32⟩
  | 2 => ⟨S1, .f32⟩
  | 3 => ⟨S1, .f32⟩
  | 4 => ⟨S2, .f32⟩
  | 5 => ⟨S512x1, .f32⟩
  | 6 => ⟨S1x2, .f32⟩
  | 7 => ⟨S512x2, .f32⟩
  | 8 => ⟨S512x2, .f32⟩
  | 9 => ⟨S512x2, .f32⟩
  | 10 => ⟨S1024, .f32⟩
  | 11 => ⟨S1, .f32⟩
  | 12 => ⟨S_, .f32⟩
  | 13 => ⟨S1, .f32⟩
  | 14 => ⟨S_, .f32⟩
  | 15 => ⟨S1, .f32⟩
  | 16 => ⟨S1, .f32⟩
  | 17 => ⟨S2, .f32⟩
  | 18 => ⟨S1024x1, .f32⟩
  | 19 => ⟨S1x2, .f32⟩
  | 20 => ⟨S1024x2, .f32⟩
  | 21 => ⟨S1024x2, .f32⟩
  | 22 => ⟨S1024x2, .f32⟩
  | 23 => ⟨S2048, .f32⟩
  | 24 => ⟨S1, .f32⟩
  | 25 => ⟨S_, .f32⟩
  | 26 => ⟨S1, .f32⟩
  | 27 => ⟨S_, .f32⟩
  | 28 => ⟨S1, .f32⟩
  | 29 => ⟨S1, .f32⟩
  | 30 => ⟨S2, .f32⟩
  | 31 => ⟨S2048x1, .f32⟩
  | 32 => ⟨S1x2, .f32⟩
  | 33 => ⟨S2048x2, .f32⟩
  | 34 => ⟨S2048x2, .f32⟩
  | 35 => ⟨S2048x2, .f32⟩
  | 36 => ⟨S4096, .f32⟩
  | 37 => ⟨S1, .f32⟩
  | 38 => ⟨S_, .f32⟩
  | 39 => ⟨S1, .f32⟩
  | 40 => ⟨S_, .f32⟩
  | 41 => ⟨S1, .f32⟩
  | 42 => ⟨S1, .f32⟩
  | 43 => ⟨S2, .f32⟩
  | 44 => ⟨S4096x1, .f32⟩
  | 45 => ⟨S1x2, .f32⟩
  | 46 => ⟨S4096x2, .f32⟩
  | 47 => ⟨S4096x2, .f32⟩
  | 48 => ⟨S4096x2, .f32⟩
  | 49 => ⟨S8192, .f32⟩
  | 50 => ⟨S1, .f32⟩
  | 51 => ⟨S_, .f32⟩
  | 52 => ⟨S1, .f32⟩
  | 53 => ⟨S_, .f32⟩
  | 54 => ⟨S1, .f32⟩
  | 55 => ⟨S1, .f32⟩
  | 56 => ⟨S2, .f32⟩
  | 57 => ⟨S8192x1, .f32⟩
  | 58 => ⟨S1x2, .f32⟩
  | 59 => ⟨S8192x2, .f32⟩
  | 60 => ⟨S8192x2, .f32⟩
  | 61 => ⟨S8192x2, .f32⟩
  | 62 => ⟨S16384, .f32⟩
  | 63 => ⟨S1, .f32⟩
  | 64 => ⟨S_, .f32⟩
  | 65 => ⟨S1, .f32⟩
  | 66 => ⟨S_, .f32⟩
  | 67 => ⟨S1, .f32⟩
  | 68 => ⟨S1, .f32⟩
  | 69 => ⟨S2, .f32⟩
  | 70 => ⟨S16384x1, .f32⟩
  | 71 => ⟨S1x2, .f32⟩
  | 72 => ⟨S16384x2, .f32⟩
  | 73 => ⟨S16384x2, .f32⟩
  | 74 => ⟨S16384x2, .f32⟩
  | 75 => ⟨S32768, .f32⟩
  | 76 => ⟨S1, .f32⟩
  | 77 => ⟨S_, .f32⟩
  | 78 => ⟨S1, .f32⟩
  | 79 => ⟨S_, .f32⟩
  | 80 => ⟨S1, .f32⟩
  | 81 => ⟨S1, .f32⟩
  | 82 => ⟨S2, .f32⟩
  | 83 => ⟨S32768x1, .f32⟩
  | 84 => ⟨S1x2, .f32⟩
  | 85 => ⟨S32768x2, .f32⟩
  | 86 => ⟨S32768x2, .f32⟩
  | 87 => ⟨S32768x2, .f32⟩
  | 88 => ⟨S65536, .f32⟩
  | 89 => ⟨S1, .f32⟩
  | 90 => ⟨S_, .f32⟩
  | 91 => ⟨S1, .f32⟩
  | 92 => ⟨S_, .f32⟩
  | 93 => ⟨S1, .f32⟩
  | 94 => ⟨S1, .f32⟩
  | 95 => ⟨S2, .f32⟩
  | 96 => ⟨S65536x1, .f32⟩
  | 97 => ⟨S1x2, .f32⟩
  | 98 => ⟨S65536x2, .f32⟩
  | 99 => ⟨S65536x2, .f32⟩
  | 100 => ⟨S65536x2, .f32⟩
  | 101 => ⟨S131072, .f32⟩
  | 102 => ⟨S1, .f32⟩
  | 103 => ⟨S_, .f32⟩
  | 104 => ⟨S1, .f32⟩
  | 105 => ⟨S_, .f32⟩
  | 106 => ⟨S1, .f32⟩
  | 107 => ⟨S1, .f32⟩
  | 108 => ⟨S2, .f32⟩
  | 109 => ⟨S131072x1, .f32⟩
  | 110 => ⟨S1x2, .f32⟩
  | 111 => ⟨S131072x2, .f32⟩
  | 112 => ⟨S131072x2, .f32⟩
  | 113 => ⟨S131072x2, .f32⟩
  | 114 => ⟨S262144, .f32⟩
  | 115 => ⟨S1, .f32⟩
  | 116 => ⟨S_, .f32⟩
  | 117 => ⟨S1, .f32⟩
  | 118 => ⟨S_, .f32⟩
  | 119 => ⟨S1, .f32⟩
  | 120 => ⟨S1, .f32⟩
  | 121 => ⟨S2, .f32⟩
  | 122 => ⟨S262144x1, .f32⟩
  | 123 => ⟨S1x2, .f32⟩
  | 124 => ⟨S262144x2, .f32⟩
  | 125 => ⟨S262144x2, .f32⟩
  | 126 => ⟨S262144x2, .f32⟩
  | 127 => ⟨S524288, .f32⟩
  | _ => ⟨S24, .f32⟩

abbrev hbmTy0_2 (i : Nat) : BufTy := match i % 128 with
  | 0 => ⟨S1, .f32⟩
  | 1 => ⟨S_, .f32⟩
  | 2 => ⟨S1, .f32⟩
  | 3 => ⟨S_, .f32⟩
  | 4 => ⟨S1, .f32⟩
  | 5 => ⟨S1, .f32⟩
  | 6 => ⟨S2, .f32⟩
  | 7 => ⟨S524288x1, .f32⟩
  | 8 => ⟨S1x2, .f32⟩
  | 9 => ⟨S524288x2, .f32⟩
  | 10 => ⟨S524288x2, .f32⟩
  | 11 => ⟨S524288x2, .f32⟩
  | 12 => ⟨S1048576, .f32⟩
  | 13 => ⟨S1, .f32⟩
  | 14 => ⟨S_, .f32⟩
  | 15 => ⟨S1, .f32⟩
  | 16 => ⟨S_, .f32⟩
  | 17 => ⟨S1, .f32⟩
  | 18 => ⟨S1, .f32⟩
  | 19 => ⟨S2, .f32⟩
  | 20 => ⟨S1048576x1, .f32⟩
  | 21 => ⟨S1x2, .f32⟩
  | 22 => ⟨S1048576x2, .f32⟩
  | 23 => ⟨S1048576x2, .f32⟩
  | 24 => ⟨S1048576x2, .f32⟩
  | 25 => ⟨S2097152, .f32⟩
  | 26 => ⟨S1, .f32⟩
  | 27 => ⟨S_, .f32⟩
  | 28 => ⟨S1, .f32⟩
  | 29 => ⟨S_, .f32⟩
  | 30 => ⟨S1, .f32⟩
  | 31 => ⟨S1, .f32⟩
  | 32 => ⟨S2, .f32⟩
  | 33 => ⟨S2097152x1, .f32⟩
  | 34 => ⟨S1x2, .f32⟩
  | 35 => ⟨S2097152x2, .f32⟩
  | 36 => ⟨S2097152x2, .f32⟩
  | 37 => ⟨S2097152x2, .f32⟩
  | 38 => ⟨S4194304, .f32⟩
  | 39 => ⟨S1, .f32⟩
  | 40 => ⟨S_, .f32⟩
  | 41 => ⟨S1, .f32⟩
  | 42 => ⟨S_, .f32⟩
  | 43 => ⟨S1, .f32⟩
  | 44 => ⟨S1, .f32⟩
  | 45 => ⟨S2, .f32⟩
  | 46 => ⟨S4194304x1, .f32⟩
  | 47 => ⟨S1x2, .f32⟩
  | 48 => ⟨S4194304x2, .f32⟩
  | 49 => ⟨S4194304x2, .f32⟩
  | 50 => ⟨S4194304x2, .f32⟩
  | 51 => ⟨S8388608, .f32⟩
  | 52 => ⟨S1, .f32⟩
  | 53 => ⟨S_, .f32⟩
  | 54 => ⟨S1, .f32⟩
  | 55 => ⟨S_, .f32⟩
  | 56 => ⟨S1, .f32⟩
  | 57 => ⟨S1, .f32⟩
  | 58 => ⟨S2, .f32⟩
  | 59 => ⟨S8388608x1, .f32⟩
  | 60 => ⟨S1x2, .f32⟩
  | 61 => ⟨S8388608x2, .f32⟩
  | 62 => ⟨S8388608x2, .f32⟩
  | 63 => ⟨S8388608x2, .f32⟩
  | 64 => ⟨S16777216, .f32⟩
  | 65 => ⟨S16777216, .f32⟩
  | _ => ⟨S24, .f32⟩

abbrev hbmTy (i : Nat) : BufTy := match i / 128 with
  | 0 => hbmTy0_0 i
  | 1 => hbmTy0_1 i
  | 2 => hbmTy0_2 i
  | _ => ⟨S24, .f32⟩

abbrev bufTy : (tb : Table) → Fin (tcTables nBuf tb) → BufTy
  | .hbm, ⟨i, _⟩ => hbmTy i
  | _, _ => ⟨S24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call8_v0 : Ref sig .tc := ⟨.hbm, 120, rfl⟩
abbrev main_call8_v1 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call9_v0 : Ref sig .tc := ⟨.hbm, 133, rfl⟩
abbrev main_call9_v1 : Ref sig .tc := ⟨.hbm, 134, rfl⟩
abbrev main_call9_v2 : Ref sig .tc := ⟨.hbm, 135, rfl⟩
abbrev main_call9_v3 : Ref sig .tc := ⟨.hbm, 136, rfl⟩
abbrev main_call9_v4 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_call10_v0 : Ref sig .tc := ⟨.hbm, 146, rfl⟩
abbrev main_call10_v1 : Ref sig .tc := ⟨.hbm, 147, rfl⟩
abbrev main_call10_v2 : Ref sig .tc := ⟨.hbm, 148, rfl⟩
abbrev main_call10_v3 : Ref sig .tc := ⟨.hbm, 149, rfl⟩
abbrev main_call10_v4 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call11_v0 : Ref sig .tc := ⟨.hbm, 159, rfl⟩
abbrev main_call11_v1 : Ref sig .tc := ⟨.hbm, 160, rfl⟩
abbrev main_call11_v2 : Ref sig .tc := ⟨.hbm, 161, rfl⟩
abbrev main_call11_v3 : Ref sig .tc := ⟨.hbm, 162, rfl⟩
abbrev main_call11_v4 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_call12_v0 : Ref sig .tc := ⟨.hbm, 172, rfl⟩
abbrev main_call12_v1 : Ref sig .tc := ⟨.hbm, 173, rfl⟩
abbrev main_call12_v2 : Ref sig .tc := ⟨.hbm, 174, rfl⟩
abbrev main_call12_v3 : Ref sig .tc := ⟨.hbm, 175, rfl⟩
abbrev main_call12_v4 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_call13_v0 : Ref sig .tc := ⟨.hbm, 185, rfl⟩
abbrev main_call13_v1 : Ref sig .tc := ⟨.hbm, 186, rfl⟩
abbrev main_call13_v2 : Ref sig .tc := ⟨.hbm, 187, rfl⟩
abbrev main_call13_v3 : Ref sig .tc := ⟨.hbm, 188, rfl⟩
abbrev main_call13_v4 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_call14_v0 : Ref sig .tc := ⟨.hbm, 198, rfl⟩
abbrev main_call14_v1 : Ref sig .tc := ⟨.hbm, 199, rfl⟩
abbrev main_call14_v2 : Ref sig .tc := ⟨.hbm, 200, rfl⟩
abbrev main_call14_v3 : Ref sig .tc := ⟨.hbm, 201, rfl⟩
abbrev main_call14_v4 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_call15_v0 : Ref sig .tc := ⟨.hbm, 211, rfl⟩
abbrev main_call15_v1 : Ref sig .tc := ⟨.hbm, 212, rfl⟩
abbrev main_call15_v2 : Ref sig .tc := ⟨.hbm, 213, rfl⟩
abbrev main_call15_v3 : Ref sig .tc := ⟨.hbm, 214, rfl⟩
abbrev main_call15_v4 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_call16_v0 : Ref sig .tc := ⟨.hbm, 224, rfl⟩
abbrev main_call16_v1 : Ref sig .tc := ⟨.hbm, 225, rfl⟩
abbrev main_call16_v2 : Ref sig .tc := ⟨.hbm, 226, rfl⟩
abbrev main_call16_v3 : Ref sig .tc := ⟨.hbm, 227, rfl⟩
abbrev main_call16_v4 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_call17_v0 : Ref sig .tc := ⟨.hbm, 237, rfl⟩
abbrev main_call17_v1 : Ref sig .tc := ⟨.hbm, 238, rfl⟩
abbrev main_call17_v2 : Ref sig .tc := ⟨.hbm, 239, rfl⟩
abbrev main_call17_v3 : Ref sig .tc := ⟨.hbm, 240, rfl⟩
abbrev main_call17_v4 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_call18_v0 : Ref sig .tc := ⟨.hbm, 250, rfl⟩
abbrev main_call18_v1 : Ref sig .tc := ⟨.hbm, 251, rfl⟩
abbrev main_call18_v2 : Ref sig .tc := ⟨.hbm, 252, rfl⟩
abbrev main_call18_v3 : Ref sig .tc := ⟨.hbm, 253, rfl⟩
abbrev main_call18_v4 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_call19_v0 : Ref sig .tc := ⟨.hbm, 263, rfl⟩
abbrev main_call19_v1 : Ref sig .tc := ⟨.hbm, 264, rfl⟩
abbrev main_call19_v2 : Ref sig .tc := ⟨.hbm, 265, rfl⟩
abbrev main_call19_v3 : Ref sig .tc := ⟨.hbm, 266, rfl⟩
abbrev main_call19_v4 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_call20_v0 : Ref sig .tc := ⟨.hbm, 276, rfl⟩
abbrev main_call20_v1 : Ref sig .tc := ⟨.hbm, 277, rfl⟩
abbrev main_call20_v2 : Ref sig .tc := ⟨.hbm, 278, rfl⟩
abbrev main_call20_v3 : Ref sig .tc := ⟨.hbm, 279, rfl⟩
abbrev main_call20_v4 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_call21_v0 : Ref sig .tc := ⟨.hbm, 289, rfl⟩
abbrev main_call21_v1 : Ref sig .tc := ⟨.hbm, 290, rfl⟩
abbrev main_call21_v2 : Ref sig .tc := ⟨.hbm, 291, rfl⟩
abbrev main_call21_v3 : Ref sig .tc := ⟨.hbm, 292, rfl⟩
abbrev main_call21_v4 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_call22_v0 : Ref sig .tc := ⟨.hbm, 302, rfl⟩
abbrev main_call22_v1 : Ref sig .tc := ⟨.hbm, 303, rfl⟩
abbrev main_call22_v2 : Ref sig .tc := ⟨.hbm, 304, rfl⟩
abbrev main_call22_v3 : Ref sig .tc := ⟨.hbm, 305, rfl⟩
abbrev main_call22_v4 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_call23_v0 : Ref sig .tc := ⟨.hbm, 315, rfl⟩
abbrev main_call23_v1 : Ref sig .tc := ⟨.hbm, 316, rfl⟩
abbrev main_call23_v2 : Ref sig .tc := ⟨.hbm, 317, rfl⟩
abbrev main_call23_v3 : Ref sig .tc := ⟨.hbm, 318, rfl⟩
abbrev main_call23_v4 : Ref sig .tc := ⟨.hbm, 319, rfl⟩
abbrev main_v197 : Ref sig .tc := ⟨.hbm, 320, rfl⟩
abbrev main_v198 : Ref sig .tc := ⟨.hbm, 321, rfl⟩

abbrev nD : Nat := 1
abbrev τ : Topo := Topo.v7x

variable {F : FTy → Type} [FloatOps F]

class Facts₀ : Prop where
  bcast_S_S24 : S_.BroadcastsInDim S24 (![] : Fin 0 → Fin S24.rank)
  bcast_S_S1 : S_.BroadcastsInDim S1 (![] : Fin 0 → Fin S1.rank)
  slices_S24_S1_0 : S24.Slices ![0] S1
  shapeCasts_S1_S_ : S1.ShapeCasts S_
  concatenates_S1_S1_S2_d0 : Shape.Concatenates [S1, S1] S2 0
  bcast_S1_S1x1_0 : S1.BroadcastsInDim S1x1 (![0] : Fin 1 → Fin S1x1.rank)
  bcast_S2_S1x2_1 : S2.BroadcastsInDim S1x2 (![1] : Fin 1 → Fin S1x2.rank)
  bcast_S1x1_S1x2_0_1 : S1x1.BroadcastsInDim S1x2 (![0, 1] : Fin 2 → Fin S1x2.rank)
  shapeCasts_S1x2_S2 : S1x2.ShapeCasts S2
  slices_S24_S1_1 : S24.Slices ![1] S1
  bcast_S2_S2x1_0 : S2.BroadcastsInDim S2x1 (![0] : Fin 1 → Fin S2x1.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  shapeCasts_S2x2_S4 : S2x2.ShapeCasts S4
  slices_S24_S1_2 : S24.Slices ![2] S1
  bcast_S4_S4x1_0 : S4.BroadcastsInDim S4x1 (![0] : Fin 1 → Fin S4x1.rank)
  bcast_S4x1_S4x2_0_1 : S4x1.BroadcastsInDim S4x2 (![0, 1] : Fin 2 → Fin S4x2.rank)
  bcast_S1x2_S4x2_0_1 : S1x2.BroadcastsInDim S4x2 (![0, 1] : Fin 2 → Fin S4x2.rank)
  shapeCasts_S4x2_S8 : S4x2.ShapeCasts S8
  slices_S24_S1_3 : S24.Slices ![3] S1
  bcast_S8_S8x1_0 : S8.BroadcastsInDim S8x1 (![0] : Fin 1 → Fin S8x1.rank)
  bcast_S8x1_S8x2_0_1 : S8x1.BroadcastsInDim S8x2 (![0, 1] : Fin 2 → Fin S8x2.rank)
  bcast_S1x2_S8x2_0_1 : S1x2.BroadcastsInDim S8x2 (![0, 1] : Fin 2 → Fin S8x2.rank)
  shapeCasts_S8x2_S16 : S8x2.ShapeCasts S16
  slices_S24_S1_4 : S24.Slices ![4] S1
  bcast_S16_S16x1_0 : S16.BroadcastsInDim S16x1 (![0] : Fin 1 → Fin S16x1.rank)
  bcast_S16x1_S16x2_0_1 : S16x1.BroadcastsInDim S16x2 (![0, 1] : Fin 2 → Fin S16x2.rank)
  bcast_S1x2_S16x2_0_1 : S1x2.BroadcastsInDim S16x2 (![0, 1] : Fin 2 → Fin S16x2.rank)
  shapeCasts_S16x2_S32 : S16x2.ShapeCasts S32
  slices_S24_S1_5 : S24.Slices ![5] S1
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  bcast_S1x2_S32x2_0_1 : S1x2.BroadcastsInDim S32x2 (![0, 1] : Fin 2 → Fin S32x2.rank)
  shapeCasts_S32x2_S64 : S32x2.ShapeCasts S64
  slices_S24_S1_6 : S24.Slices ![6] S1
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  bcast_S1x2_S64x2_0_1 : S1x2.BroadcastsInDim S64x2 (![0, 1] : Fin 2 → Fin S64x2.rank)
  shapeCasts_S64x2_S128 : S64x2.ShapeCasts S128
  slices_S24_S1_7 : S24.Slices ![7] S1
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  bcast_S1x2_S128x2_0_1 : S1x2.BroadcastsInDim S128x2 (![0, 1] : Fin 2 → Fin S128x2.rank)
  shapeCasts_S128x2_S256 : S128x2.ShapeCasts S256
  slices_S24_S1_8 : S24.Slices ![8] S1
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  bcast_S1x2_S256x2_0_1 : S1x2.BroadcastsInDim S256x2 (![0, 1] : Fin 2 → Fin S256x2.rank)
  shapeCasts_S256x2_S512 : S256x2.ShapeCasts S512
  slices_S24_S1_9 : S24.Slices ![9] S1
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  bcast_S1x2_S512x2_0_1 : S1x2.BroadcastsInDim S512x2 (![0, 1] : Fin 2 → Fin S512x2.rank)
  shapeCasts_S512x2_S1024 : S512x2.ShapeCasts S1024
  slices_S24_S1_10 : S24.Slices ![10] S1
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  bcast_S1x2_S1024x2_0_1 : S1x2.BroadcastsInDim S1024x2 (![0, 1] : Fin 2 → Fin S1024x2.rank)
  shapeCasts_S1024x2_S2048 : S1024x2.ShapeCasts S2048
  slices_S24_S1_11 : S24.Slices ![11] S1
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  bcast_S1x2_S2048x2_0_1 : S1x2.BroadcastsInDim S2048x2 (![0, 1] : Fin 2 → Fin S2048x2.rank)
  shapeCasts_S2048x2_S4096 : S2048x2.ShapeCasts S4096
  slices_S24_S1_12 : S24.Slices ![12] S1
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  bcast_S1x2_S4096x2_0_1 : S1x2.BroadcastsInDim S4096x2 (![0, 1] : Fin 2 → Fin S4096x2.rank)
  shapeCasts_S4096x2_S8192 : S4096x2.ShapeCasts S8192
  slices_S24_S1_13 : S24.Slices ![13] S1
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S1x2_S8192x2_0_1 : S1x2.BroadcastsInDim S8192x2 (![0, 1] : Fin 2 → Fin S8192x2.rank)
  shapeCasts_S8192x2_S16384 : S8192x2.ShapeCasts S16384
  slices_S24_S1_14 : S24.Slices ![14] S1
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  bcast_S1x2_S16384x2_0_1 : S1x2.BroadcastsInDim S16384x2 (![0, 1] : Fin 2 → Fin S16384x2.rank)
  shapeCasts_S16384x2_S32768 : S16384x2.ShapeCasts S32768
  slices_S24_S1_15 : S24.Slices ![15] S1
  bcast_S32768_S32768x1_0 : S32768.BroadcastsInDim S32768x1 (![0] : Fin 1 → Fin S32768x1.rank)
  bcast_S32768x1_S32768x2_0_1 : S32768x1.BroadcastsInDim S32768x2 (![0, 1] : Fin 2 → Fin S32768x2.rank)
  bcast_S1x2_S32768x2_0_1 : S1x2.BroadcastsInDim S32768x2 (![0, 1] : Fin 2 → Fin S32768x2.rank)
  shapeCasts_S32768x2_S65536 : S32768x2.ShapeCasts S65536
  slices_S24_S1_16 : S24.Slices ![16] S1
  bcast_S65536_S65536x1_0 : S65536.BroadcastsInDim S65536x1 (![0] : Fin 1 → Fin S65536x1.rank)
  bcast_S65536x1_S65536x2_0_1 : S65536x1.BroadcastsInDim S65536x2 (![0, 1] : Fin 2 → Fin S65536x2.rank)
  bcast_S1x2_S65536x2_0_1 : S1x2.BroadcastsInDim S65536x2 (![0, 1] : Fin 2 → Fin S65536x2.rank)
  shapeCasts_S65536x2_S131072 : S65536x2.ShapeCasts S131072
  slices_S24_S1_17 : S24.Slices ![17] S1
  bcast_S131072_S131072x1_0 : S131072.BroadcastsInDim S131072x1 (![0] : Fin 1 → Fin S131072x1.rank)
  bcast_S131072x1_S131072x2_0_1 : S131072x1.BroadcastsInDim S131072x2 (![0, 1] : Fin 2 → Fin S131072x2.rank)
  bcast_S1x2_S131072x2_0_1 : S1x2.BroadcastsInDim S131072x2 (![0, 1] : Fin 2 → Fin S131072x2.rank)
  shapeCasts_S131072x2_S262144 : S131072x2.ShapeCasts S262144
  slices_S24_S1_18 : S24.Slices ![18] S1
  bcast_S262144_S262144x1_0 : S262144.BroadcastsInDim S262144x1 (![0] : Fin 1 → Fin S262144x1.rank)
  bcast_S262144x1_S262144x2_0_1 : S262144x1.BroadcastsInDim S262144x2 (![0, 1] : Fin 2 → Fin S262144x2.rank)
  bcast_S1x2_S262144x2_0_1 : S1x2.BroadcastsInDim S262144x2 (![0, 1] : Fin 2 → Fin S262144x2.rank)
  shapeCasts_S262144x2_S524288 : S262144x2.ShapeCasts S524288
  slices_S24_S1_19 : S24.Slices ![19] S1
  bcast_S524288_S524288x1_0 : S524288.BroadcastsInDim S524288x1 (![0] : Fin 1 → Fin S524288x1.rank)
  bcast_S524288x1_S524288x2_0_1 : S524288x1.BroadcastsInDim S524288x2 (![0, 1] : Fin 2 → Fin S524288x2.rank)
  bcast_S1x2_S524288x2_0_1 : S1x2.BroadcastsInDim S524288x2 (![0, 1] : Fin 2 → Fin S524288x2.rank)
  shapeCasts_S524288x2_S1048576 : S524288x2.ShapeCasts S1048576
  slices_S24_S1_20 : S24.Slices ![20] S1
  bcast_S1048576_S1048576x1_0 : S1048576.BroadcastsInDim S1048576x1 (![0] : Fin 1 → Fin S1048576x1.rank)
  bcast_S1048576x1_S1048576x2_0_1 : S1048576x1.BroadcastsInDim S1048576x2 (![0, 1] : Fin 2 → Fin S1048576x2.rank)
  bcast_S1x2_S1048576x2_0_1 : S1x2.BroadcastsInDim S1048576x2 (![0, 1] : Fin 2 → Fin S1048576x2.rank)
  shapeCasts_S1048576x2_S2097152 : S1048576x2.ShapeCasts S2097152
  slices_S24_S1_21 : S24.Slices ![21] S1
  bcast_S2097152_S2097152x1_0 : S2097152.BroadcastsInDim S2097152x1 (![0] : Fin 1 → Fin S2097152x1.rank)
  bcast_S2097152x1_S2097152x2_0_1 : S2097152x1.BroadcastsInDim S2097152x2 (![0, 1] : Fin 2 → Fin S2097152x2.rank)
  bcast_S1x2_S2097152x2_0_1 : S1x2.BroadcastsInDim S2097152x2 (![0, 1] : Fin 2 → Fin S2097152x2.rank)
  shapeCasts_S2097152x2_S4194304 : S2097152x2.ShapeCasts S4194304
  slices_S24_S1_22 : S24.Slices ![22] S1
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  bcast_S1x2_S4194304x2_0_1 : S1x2.BroadcastsInDim S4194304x2 (![0, 1] : Fin 2 → Fin S4194304x2.rank)
  shapeCasts_S4194304x2_S8388608 : S4194304x2.ShapeCasts S8388608
  slices_S24_S1_23 : S24.Slices ![23] S1
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  bcast_S1x2_S8388608x2_0_1 : S1x2.BroadcastsInDim S8388608x2 (![0, 1] : Fin 2 → Fin S8388608x2.rank)
  shapeCasts_S8388608x2_S16777216 : S8388608x2.ShapeCasts S16777216

variable [Facts₀]

class Facts : Prop extends Facts₀ where

variable [Facts]
-- ==== Proof.LibKronAbs.lean ====
/-
  The absolute value of a left-nested Kronecker product of two-vectors, on the extended reals.

  A Kronecker product of `n` two-vectors `(c k, s k)`, wire `0` most significant, holds at the flat index `i` the product
  over the wires of `c k` or `s k`, chosen by the bit of `i` at position `n - 1 - k`.  Built left-nested — one more wire
  at a time, `state' (2 p + q) = state p * (c, s) q` — that product is `kronP`; built as a running product over a FIXED
  index, each wire's factor chosen by a shifted bit of that index, it is `accP`.  The two agree (`accP_eq_kronP`); a
  product over `a + b` wires is the product over the first `a` at the high part of the index times the product over the
  last `b` at the low part (`kronP_add`); and since `|x y| = |x| |y|` for ALL extended reals (infinities and zero
  included: `absE_mul`), the absolute value of the whole product is the outer product of the two halves built from the
  absolute values (`abs_kron_split`).  No finiteness is used anywhere: only that the extended reals' product is
  commutative and associative with unit `1`, and `absE_mul`.

  Last, the word-level reading of "bit `sh` of `i` is zero" as a 32-bit shift, mask and compare (`bit_select`).
-/
import Idealize.ShloMosaic.PureOps.Ideal
import Mathlib.Data.EReal.Inv

noncomputable section

namespace KronAbs

open Idealize.ShloMosaic

/-! ## The absolute value on the extended reals -/

/-- `|x|` on the extended reals, as the larger of `x` and `-x`. -/
def absE (x : EReal) : EReal := max x (-x)

/-- It is Mathlib's `EReal.abs` (valued in `[0, ∞]`) read back as an extended real. -/
theorem absE_eq_coe_abs (x : EReal) : absE x = ((x.abs : ENNReal) : EReal) := by
  induction x using EReal.rec with
  | bot => simp [absE]
  | coe r =>
    rw [EReal.abs_def, EReal.coe_ennreal_ofReal, max_eq_left (abs_nonneg r), abs_eq_max_neg]
    simp only [absE, ← EReal.coe_neg]
    exact (EReal.coe_strictMono.monotone.map_max).symm
  | top => simp [absE]

/-- `|x y| = |x| |y|` for all extended reals. -/
theorem absE_mul (x y : EReal) : absE (x * y) = absE x * absE y := by
  rw [absE_eq_coe_abs, absE_eq_coe_abs, absE_eq_coe_abs, EReal.abs_mul, EReal.coe_ennreal_mul]

theorem absE_one : absE 1 = 1 := by
  rw [absE_eq_coe_abs, ← EReal.coe_one, EReal.abs_def]; simp

/-! ## The two ways of building the product -/

/-- Wire `k`'s two-vector at the bit `b`: `c k` at `0`, `s k` otherwise. -/
def sel (c s : ℕ → EReal) (k b : ℕ) : EReal := if b = 0 then c k else s k

/-- The left-nested Kronecker product of the first `n` two-vectors, at the flat index `i`. -/
def kronP (c s : ℕ → EReal) : ℕ → ℕ → EReal
  | 0, _ => 1
  | n + 1, i => kronP c s n (i / 2) * sel c s n (i % 2)

/-- The running product over the first `n` of `n0` wires at the FIXED index `i`: wire `k`'s factor is chosen by bit
    `n0 - 1 - k` of `i`. -/
def accP (c s : ℕ → EReal) (n0 : ℕ) : ℕ → ℕ → EReal
  | 0, _ => 1
  | n + 1, i => accP c s n0 n i * sel c s n ((i / 2 ^ (n0 - 1 - n)) % 2)

theorem kronP_zero (c s : ℕ → EReal) (i : ℕ) : kronP c s 0 i = 1 := rfl
theorem kronP_succ (c s : ℕ → EReal) (n i : ℕ) : kronP c s (n + 1) i = kronP c s n (i / 2) * sel c s n (i % 2) := rfl
theorem accP_zero (c s : ℕ → EReal) (n0 i : ℕ) : accP c s n0 0 i = 1 := rfl
theorem accP_succ (c s : ℕ → EReal) (n0 n i : ℕ) :
    accP c s n0 (n + 1) i = accP c s n0 n i * sel c s n ((i / 2 ^ (n0 - 1 - n)) % 2) := rfl

/-- The running product over the first `n` wires reads only those wires' entries. -/
theorem accP_congr (c s c' s' : ℕ → EReal) (n0 : ℕ) : ∀ (n i : ℕ), (∀ k, k < n → c k = c' k ∧ s k = s' k) →
    accP c s n0 n i = accP c' s' n0 n i
  | 0, _, _ => rfl
  | n + 1, i, h => by
    rw [accP_succ, accP_succ, accP_congr c s c' s' n0 n i (fun k hk => h k (by omega))]
    unfold sel
    rw [(h n (by omega)).1, (h n (by omega)).2]

/-- After `n` of `n0` steps the running product is the Kronecker product of the first `n` wires at the index's top
    part. -/
theorem accP_eq_kronP_div (c s : ℕ → EReal) (n0 : ℕ) : ∀ (n i : ℕ), n ≤ n0 → accP c s n0 n i = kronP c s n (i / 2 ^ (n0 - n))
  | 0, _, _ => rfl
  | n + 1, i, h => by
    rw [accP_succ, kronP_succ, accP_eq_kronP_div c s n0 n i (by omega), Nat.div_div_eq_div_mul, ← pow_succ,
      show n0 - (n + 1) + 1 = n0 - n by omega, show n0 - 1 - n = n0 - (n + 1) by omega]

/-- The running product over all the wires is the Kronecker product. -/
theorem accP_eq_kronP (c s : ℕ → EReal) (n i : ℕ) : accP c s n n i = kronP c s n i := by
  rw [accP_eq_kronP_div c s n n i le_rfl, Nat.sub_self, pow_zero, Nat.div_one]

/-- A Kronecker product over `a + b` wires factors: the first `a` wires at the high part of the index, the last `b` at
    the low part. -/
theorem kronP_add (c s : ℕ → EReal) (a : ℕ) : ∀ (b i : ℕ),
    kronP c s (a + b) i = kronP c s a (i / 2 ^ b) * kronP (fun k => c (a + k)) (fun k => s (a + k)) b (i % 2 ^ b)
  | 0, i => by rw [kronP_zero, pow_zero, Nat.div_one, mul_one, Nat.add_zero]
  | b + 1, i => by
    rw [← Nat.add_assoc, kronP_succ, kronP_add c s a b (i / 2), kronP_succ, Nat.div_div_eq_div_mul, ← pow_succ',
      pow_succ', Nat.mod_mul_right_div_self, Nat.mod_mod_of_dvd _ (Dvd.intro _ rfl), mul_assoc]
    rfl

/-- The absolute value goes inside the product, wire by wire. -/
theorem absE_kronP (c s : ℕ → EReal) : ∀ (n i : ℕ),
    absE (kronP c s n i) = kronP (fun k => absE (c k)) (fun k => absE (s k)) n i
  | 0, _ => absE_one
  | n + 1, i => by
    rw [kronP_succ, kronP_succ, absE_mul, absE_kronP c s n (i / 2)]
    congr 1
    unfold sel; split <;> rfl

/-- THE LAW: the absolute value of the Kronecker product over `a + b` wires is the outer product of the running
    products of the absolute values over the first `a` and over the last `b` wires. -/
theorem abs_kron_split (c s : ℕ → EReal) (a b i : ℕ) :
    absE (kronP c s (a + b) i)
      = accP (fun k => absE (c k)) (fun k => absE (s k)) a a (i / 2 ^ b)
        * accP (fun k => absE (c (a + k))) (fun k => absE (s (a + k))) b b (i % 2 ^ b) := by
  rw [absE_kronP, kronP_add, accP_eq_kronP, accP_eq_kronP]

/-! ## A bit of an index, at the word level -/

/-- For an index below `2^31` and a shift below the width: selecting on "`(i >> sh) & 1 == 0`" (arithmetic shift,
    32-bit words) is the `if` on bit `sh` of `i`. -/
theorem bit_select {α : Type} (i sh : ℕ) (hi : i < 2 ^ 31) (hs : sh < 32) (A B : α) :
    Scalar.select (IntOp.cmpi .eq (IntOp.andi (IntOp.shrsi .host (BitVec.ofNat 32 i) (BitVec.ofNat 32 sh)) 1#32) 0#32) A B
      = if (i / 2 ^ sh) % 2 = 0 then A else B := by
  have hi32 : i < 4294967296 := by omega
  have hmsb : (BitVec.ofNat 32 i).msb = false := by
    rw [BitVec.msb_eq_decide]; simp [Nat.mod_eq_of_lt hi32]; omega
  have hsh : (BitVec.ofNat 32 sh).toNat = sh := by simp; omega
  have key : ((BitVec.ofNat 32 i >>> sh) &&& 1#32 = 0#32) ↔ (i / 2 ^ sh) % 2 = 0 := by
    rw [← BitVec.toNat_inj]
    simp [BitVec.toNat_and, BitVec.toNat_ushiftRight, Nat.shiftRight_eq_div_pow, Nat.and_one_is_mod,
      Nat.mod_eq_of_lt hi32]
  unfold IntOp.shrsi
  rw [if_pos (by rw [hsh]; exact hs)]
  unfold BitVec.sshiftRight'
  rw [hsh, BitVec.sshiftRight_eq_of_msb_false hmsb]
  unfold Scalar.select IntOp.cmpi IntOp.andi
  by_cases h : (i / 2 ^ sh) % 2 = 0
  · have hb : (((BitVec.ofNat 32 i >>> sh) &&& 1#32) == 0#32) = true := beq_iff_eq.mpr (key.mpr h)
    rw [if_pos h]; dsimp only; rw [hb]; exact if_pos (by decide)
  · have hb : (((BitVec.ofNat 32 i >>> sh) &&& 1#32) == 0#32) = false :=
      beq_eq_false_iff_ne.mpr (fun e => h (key.mp e))
    rw [if_neg h]; dsimp only; rw [hb]; exact if_neg (by decide)

end KronAbs

end
-- ==== Proof.KronSpec.lean ====
/-
  The function both programs compute.

  From the 24 angles `y`: with `h k = (-y k) · ½`, `c k = cos (h k)`, `s k = sin (h k)`, the result at the flat index
  `I < 2^24` is `| ∏ₖ (c k or s k, by bit 23 - k of I) |`, the product taken as the left-nested Kronecker product
  `KronAbs.kronP`.
-/
import Idealize.ShloMosaic.Lib.ValueIdx
import proofs.«143588_j65481071403967_2_alg».proof.Proof.LibKronAbs

noncomputable section

namespace KronSpec

open Idealize.ShloMosaic Idealize.ShloMosaic.ValueIdx KronAbs

/-- Half of minus an angle: `(-y) · ½`, the ½ as the programs' own literal. -/
def halfNeg (y : EReal) : EReal :=
  FloatOps.mulf (F := Ideal) (φ := .f32) (FloatOps.hostNegf (F := Ideal) (φ := .f32) y) (FloatOps.ofBits (F := Ideal) .f32 0x3F000000#32)
/-- `cos` of it: the host's function at the ideal instance. -/
def cosH (y : EReal) : EReal := FloatOps.hostUnary (F := Ideal) (φ := .f32) .cos (halfNeg y)
/-- `sin` of it. -/
def sinH (y : EReal) : EReal := FloatOps.hostUnary (F := Ideal) (φ := .f32) .sin (halfNeg y)

/-- Entry `k` (read modulo 24) of a 24-vector. -/
def yAt (y : (⟨1, ![24]⟩ : Shape).Idx → EReal) (k : ℕ) : EReal := y (ix1 (⟨k % 24, Nat.mod_lt _ (by decide)⟩ : Fin 24))
/-- Wire `k`'s cosine and sine. -/
def cE (y : (⟨1, ![24]⟩ : Shape).Idx → EReal) (k : ℕ) : EReal := cosH (yAt y k)
def sE (y : (⟨1, ![24]⟩ : Shape).Idx → EReal) (k : ℕ) : EReal := sinH (yAt y k)

/-- The result at the flat index `I`. -/
def G (y : (⟨1, ![24]⟩ : Shape).Idx → EReal) (I : ℕ) : EReal := absE (kronP (cE y) (sE y) 24 I)

/-- The same as an outer product: the first twelve wires at `I / 4096`, the last twelve at `I % 4096`, each a running
    product of absolute values. -/
theorem G_eq_outer (y : (⟨1, ![24]⟩ : Shape).Idx → EReal) (I : ℕ) :
    G y I = accP (fun k => absE (cE y k)) (fun k => absE (sE y k)) 12 12 (I / 4096)
      * accP (fun k => absE (cE y (12 + k))) (fun k => absE (sE y (12 + k))) 12 12 (I % 4096) :=
  abs_kron_split (cE y) (sE y) 12 12 I

end KronSpec

end
-- ==== Proof.KerValue.lean ====
/-
  The kernel's result, as one function of the two operands.

  At grid point `t` the body multiplies, entry by entry, the column block (rows `512 t … 512 t + 511`) broadcast along
  the lanes with the whole row broadcast along the rows, and writes the 512 × 4096 block of rows `512 t …`.  The eight
  blocks tile the 4096 × 4096 array, which therefore ends holding the outer product `a p · b q`; the host then re-reads it
  flat, entry `I` being `(I / 4096, I % 4096)`.
-/
import proofs.«143588_j65481071403967_2_alg».proof.Proof.Gen.KernelIdeal.Frame
import proofs.«143588_j65481071403967_2_alg».proof.Proof.KronSpec
import Idealize.ShloMosaic.Lib.StableHlo.Run
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.StableHlo
open Idealize.ShloMosaic.ValueIdx KronAbs KronSpec

variable (m : (ℓ : Loc nD τ sig) → Buf (Elt Ideal) ℓ) (ρ : Dev nD → PrngReg)

/-- The outer product of a column and a row. -/
def outer (a : S4096x1.Idx → EReal) (b : S1x4096.Idx → EReal) : S4096x4096.Idx → EReal :=
  fun i => a (ix2 (n0 := 4096) (n1 := 1) (i 0) 0) * b (ix2 (n0 := 1) (n1 := 4096) 0 (i 1))

theorem hz : (![0, 0] : Fin 2 → Nat) = fun _ => 0 := funext fun a => by fin_cases a <;> rfl

/-- The body's product at an entry of the block: the column block's entry of that row times the row's entry of that
    lane. -/
theorem pay_apply (x0 : S512x1.Idx → EReal) (x1 : S1x4096.Idx → EReal) (j : S512x4096.Idx) :
    k0_pay1 (F := Ideal) x0 x1 j
      = x0 (ix2 (n0 := 512) (n1 := 1) (j 0) 0) * x1 (ix2 (n0 := 1) (n1 := 4096) 0 (j 1)) := by
  unfold k0_pay1
  simp only [shapeCast_self]
  rw [ValueIdx.mulf_apply]
  congr 1
  · exact broadcastTo_apply x0 _ j _ (fun a => match a with | ⟨0, _⟩ => rfl | ⟨1, _⟩ => rfl)
  · exact broadcastTo_apply x1 _ j _ (fun a => match a with | ⟨0, _⟩ => rfl | ⟨1, _⟩ => rfl)

/-- The index maps over the grid: the column's block moves with the output's, the row stays, and point `t` is block
    `t`. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every row block is some point's. -/
theorem idx_onto : ∀ q : Fin 8, ∃ t : Fin cfg0.N, win0_2.index t = ![q.val, 0] :=
  (by decide +kernel : ∀ q : Fin 8, ∃ t : Fin grid0.N, win0_2.index t = ![q.val, 0])

/-- What point `t` writes back is block `t` of the outer product of the operands as the call finds them. -/
theorem flushed_eq (c : Dev nD) (t : Fin cfg0.N) :
    (dats m 0 c).flushed 2 t
      = ((cfg0.win 2).blk t).view.read (Elt Ideal) (outer (V m c main_v154) (V m c main_v308)) := by
  show (cfg0.win 2).cut (grid0.coords t) ((dats m 0 c).after 2 t) = _
  rw [after0_2]
  unfold out0_2
  rw [View.canon_unit_zero hz]
  simp only [View.ld_unit_zero (S := S512x1) hz, View.ld_unit_zero (S := S1x4096) hz]
  obtain ⟨e0, e1, e2, e3, e4, e5⟩ := idx_facts t
  funext j
  show k0_pay1 (F := Ideal) (iblk m c 0 t) (iblk m c 1 t) j = outer (V m c main_v154) (V m c main_v308) (((cfg0.win 2).blk t).view.emb j)
  refine (pay_apply (iblk m c 0 t) (iblk m c 1 t) j).trans ?_
  have h0 : ((cfg0.win 0).blk t).view.emb (ix2 (n0 := 512) (n1 := 1) (j 0) 0)
      = ix2 (n0 := 4096) (n1 := 1) ((((cfg0.win 2).blk t).view.emb j) 0) 0 := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1 + 1 * 0 = 0; omega
  have h1 : ((cfg0.win 1).blk t).view.emb (ix2 (n0 := 1) (n1 := 4096) 0 (j 1))
      = ix2 (n0 := 1) (n1 := 4096) 0 ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  have hA : iblk m c 0 t (ix2 (n0 := 512) (n1 := 1) (j 0) 0)
      = V m c main_v154 (ix2 (n0 := 4096) (n1 := 1) ((((cfg0.win 2).blk t).view.emb j) 0) 0) := by
    show V m c main_v154 (((cfg0.win 0).blk t).view.emb (ix2 (n0 := 512) (n1 := 1) (j 0) 0)) = _
    rw [h0]
  have hB : iblk m c 1 t (ix2 (n0 := 1) (n1 := 4096) 0 (j 1))
      = V m c main_v308 (ix2 (n0 := 1) (n1 := 4096) 0 ((((cfg0.win 2).blk t).view.emb j) 1)) := by
    show V m c main_v308 (((cfg0.win 1).blk t).view.emb (ix2 (n0 := 1) (n1 := 4096) 0 (j 1))) = _
    rw [h1]
  rw [hA, hB]
  rfl

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v309).slice (win0_2.rect t)).set ↔ _
  rw [View.set_slice_whole, Rect.mem_set_unit]
  exact Iff.rfl

/-- The eight row blocks tile the array: row `r` is in block `r / 512`. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The array after the call: the outer product of the two operands. -/
theorem final (c : Dev nD) : (dats m 0 c).arrAt 2 cfg0.N = outer (V m c main_v154) (V m c main_v308) :=
  (dats m 0 c).arrAt_eq_of_cover 2 _ (fun t _ => flushed_eq m c t) (cover)

/-- The host's last line re-reads the array flat. -/
theorem tail_eq (c : Dev nD) :
    Pipeline.afterTail₀ cfgs (dats m) 0 (V0 m) [hostOps1] c main_v310
      = shapeCast S16777216 (outer (V m c main_v154) (V m c main_v308)) shapeCasts_S4096x4096_S16777216 := by
  unfold Pipeline.afterTail₀
  show StableHlo.after hostOps1 _ (Proc.devRef .tc main_v310) = _
  after_results
  rw [Pipeline.withArrays_arr spec0 launch0.win.arr_inj c _ _ 2, final]
  rfl

/-- The kernel's run: the result is the outer product of the operands re-read flat; the arguments are unchanged. -/
theorem run : θ_run defs (onTc (τ := τ) (main (F := Ideal))) ⟨m, fun _ => 0, ρ⟩ fun r => ∀ c : Dev nD,
      r.2.mem ((c : Thread nD τ).loc main_v310)
        = shapeCast S16777216 (outer (V m c main_v154) (V m c main_v308)) shapeCasts_S4096x4096_S16777216
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v310 (Pipeline.mem_restRefs_of main_v310 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.KronLayout.lean ====
/-
  Two layout operations read at an index, in the forms a Kronecker-product reference meets them:
  a one-element vector reshaped to a scalar, and two one-element vectors joined into a two-vector.
-/
import Idealize.ShloMosaic.Lib.Pipeline.Value
import Idealize.ShloMosaic.Lib.ValueIdx

noncomputable section

namespace KronLayout

open Idealize.ShloMosaic Idealize.ShloMosaic.ValueIdx

variable {α : Type}

/-- The one index of a one-element vector. -/
abbrev i10 : (⟨1, ![1]⟩ : Shape).Idx := ix1 (0 : Fin 1)

/-- A one-element vector viewed as a scalar holds the vector's one element. -/
theorem scalar_of_single (v : (⟨1, ![1]⟩ : Shape).Idx → α) (h : (⟨1, ![1]⟩ : Shape).ShapeCasts ⟨0, ![]⟩)
    (j : (⟨0, ![]⟩ : Shape).Idx) : shapeCast ⟨0, ![]⟩ v h j = v i10 := by
  refine (shapeCast_dropUnit_apply (n := 0) ![] v h j).trans (congrArg v ?_)
  funext a; match a with | ⟨0, _⟩ => rfl

/-- Two one-element vectors joined along their axis: entry `0` is the first's element, entry `1` the second's. -/
theorem pair_of_singles (x₁ x₂ : (⟨1, ![1]⟩ : Shape).Idx → α)
    (h : Shape.Concatenates [(⟨1, ![1]⟩ : Shape), (⟨1, ![1]⟩ : Shape)] (⟨1, ![2]⟩ : Shape) (0 : Fin 1))
    (j : (⟨1, ![2]⟩ : Shape).Idx) :
    concatenate (⟨1, ![2]⟩ : Shape) (0 : Fin 1) [⟨(⟨1, ![1]⟩ : Shape), x₁⟩, ⟨(⟨1, ![1]⟩ : Shape), x₂⟩] h j
      = if (j 0).val = 0 then x₁ i10 else x₂ i10 := by
  have hj : (j 0).val < 2 := (j 0).isLt
  by_cases h0 : (j 0).val = 0
  · rw [if_pos h0]
    refine concatenate_pair_apply_left (0 : Fin 1) x₁ x₂ h j rfl i10 ?_
    intro b; match b with | ⟨0, _⟩ => exact h0.symm
  · rw [if_neg h0]
    refine concatenate_pair_apply_right (0 : Fin 1) x₁ x₂ h j rfl rfl i10 ?_ ?_
    · intro b hb; match b with | ⟨0, _⟩ => exact absurd rfl hb
    · show 0 + 1 = (j 0).val; omega

end KronLayout

end
-- ==== Proof.KerHost.lean ====
/-
  The two factors the kernel multiplies, read index by index.

  Before the call the host builds two length-4096 vectors, one from the first twelve angles and one from the last
  twelve: starting from all ones, wire `k` multiplies entry `i` by `|cos|` or `|sin|` of wire `k`'s half angle,
  chosen by bit `11 - k` of `i` (a shift, a mask and a compare on the index's word).  So each vector at `i` is the
  running product `KronAbs.accP` of the absolute values over its twelve wires.
-/
import proofs.«143588_j65481071403967_2_alg».proof.Proof.Gen.KernelIdeal.Frame
import proofs.«143588_j65481071403967_2_alg».proof.Proof.KronSpec
import proofs.«143588_j65481071403967_2_alg».proof.Proof.KronLayout
import Idealize.ShloMosaic.Lib.StableHlo.Run
import Idealize.ShloMosaic.Lib.IdealHost
import Idealize.ShloMosaic.Lib.Pipeline.Value

noncomputable section

namespace Cert.KernelIdeal.KerHost

open Cert.KernelIdeal Cert.KernelIdeal.Gen
open Idealize.ShloMosaic Idealize.ShloMosaic.TcCoe Idealize.SL.Sem Idealize.ShloMosaic.StableHlo
open Idealize.ShloMosaic.ValueIdx KronAbs KronLayout KronSpec

/-! ## The host's operations, as one term -/

section Term

variable {F : FTy → Type} [FloatOps F]

/-- One wire's step: the running product times the wire's `|cos|` where bit `sh` of the index is `0`, its `|sin|`
    where it is `1`. -/
def stepF (cabs sabs : (⟨S12, .f32⟩ : BufTy).Contents (Elt F)) (acc : (⟨S4096, .f32⟩ : BufTy).Contents (Elt F))
    (sh : BitVec 32) (off : Fin S12.rank → Nat) (hs : S12.Slices off S1) : (⟨S4096, .f32⟩ : BufTy).Contents (Elt F) :=
  mulf acc
    (select
      (cmpi .eq
        (andi (Host.shrsi (iotaInDim S4096 32 0) (broadcastInDim S4096 ![] bcast_S_S4096 (constantI S_ 32 sh)))
          (broadcastInDim S4096 ![] bcast_S_S4096 (constantI S_ 32 1#32)))
        (broadcastInDim S4096 ![] bcast_S_S4096 (constantI S_ 32 0#32)))
      (broadcastInDim S4096 ![] bcast_S_S4096 (shapeCast S_ (extractStridedSlice S1 off cabs hs) shapeCasts_S1_S_))
      (broadcastInDim S4096 ![] bcast_S_S4096 (shapeCast S_ (extractStridedSlice S1 off sabs hs) shapeCasts_S1_S_)))

/-- The twelve half angles' `|cos|` and `|sin|`, from the (negated) angles. -/
def cabsF (z : (⟨S12, .f32⟩ : BufTy).Contents (Elt F)) : (⟨S12, .f32⟩ : BufTy).Contents (Elt F) :=
  Host.absf (Host.cos (mulf z (broadcastInDim S12 ![] bcast_S_S12 (constant S_ .f32 0x3F000000#32))))
def sabsF (z : (⟨S12, .f32⟩ : BufTy).Contents (Elt F)) : (⟨S12, .f32⟩ : BufTy).Contents (Elt F) :=
  Host.absf (Host.sin (mulf z (broadcastInDim S12 ![] bcast_S_S12 (constant S_ .f32 0x3F000000#32))))

/-- The vector built from twelve (negated) angles: all ones, then the twelve steps, wire `k` on bit `11 - k`. -/
def halfVecF (z : (⟨S12, .f32⟩ : BufTy).Contents (Elt F)) : (⟨S4096, .f32⟩ : BufTy).Contents (Elt F) :=
  (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (stepF (cabsF z) (sabsF z) (broadcastInDim S4096 ![] bcast_S_S4096 (constant S_ .f32 0x3F800000#32)) 11#32 ![0] slices_S12_S1_0) 10#32 ![1] slices_S12_S1_1) 9#32 ![2] slices_S12_S1_2) 8#32 ![3] slices_S12_S1_3) 7#32 ![4] slices_S12_S1_4) 6#32 ![5] slices_S12_S1_5) 5#32 ![6] slices_S12_S1_6) 4#32 ![7] slices_S12_S1_7) 3#32 ![8] slices_S12_S1_8) 2#32 ![9] slices_S12_S1_9) 1#32 ![10] slices_S12_S1_10) 0#32 ![11] slices_S12_S1_11)

end Term

/-! ## Read at an index, on the extended reals -/

section AtIdeal

/-- One step at an index. -/
theorem stepF_apply (cabs sabs : S12.Idx → EReal) (acc : S4096.Idx → EReal) (s k : ℕ) (hk : k < 12) (hs32 : s < 32)
    (hsl : S12.Slices ![k] S1) (i : S4096.Idx) :
    stepF (F := Ideal) cabs sabs acc (BitVec.ofNat 32 s) ![k] hsl i
      = acc i * (if ((i 0).val / 2 ^ s) % 2 = 0 then cabs (ix1 (⟨k, hk⟩ : Fin 12)) else sabs (ix1 (⟨k, hk⟩ : Fin 12))) := by
  have hi : (i 0).val < 2 ^ 31 := by
    have h : (i 0).val < 4096 := (i 0).isLt
    omega
  have eC : ∀ (v : S12.Idx → EReal) (j : S_.Idx),
      shapeCast S_ (extractStridedSlice S1 ![k] v hsl) shapeCasts_S1_S_ j = v (ix1 (⟨k, hk⟩ : Fin 12)) := by
    intro v j
    rw [scalar_of_single]
    exact extractStridedSlice_apply ![k] v hsl i10 (ix1 (⟨k, hk⟩ : Fin 12)) (fun a => match a with | ⟨0, _⟩ => rfl)
  unfold stepF
  rw [ValueIdx.mulf_apply, ValueIdx.select_apply]
  congr 1
  show Scalar.select (IntOp.cmpi .eq (IntOp.andi (IntOp.shrsi .host (BitVec.ofNat 32 (i 0).val) (BitVec.ofNat 32 s)) 1#32) 0#32)
      (shapeCast S_ (extractStridedSlice S1 ![k] cabs hsl) shapeCasts_S1_S_ _)
      (shapeCast S_ (extractStridedSlice S1 ![k] sabs hsl) shapeCasts_S1_S_ _) = _
  rw [eC, eC, bit_select _ _ hi hs32]

/-- `|cos|` and `|sin|` of the half angle of a NEGATED angle `z = -y`. -/
theorem cabsF_apply (z : S12.Idx → EReal) (j : S12.Idx) :
    cabsF (F := Ideal) z j = absE (FloatOps.hostUnary (F := Ideal) (φ := .f32) .cos
      (FloatOps.mulf (F := Ideal) (φ := .f32) (z j) (FloatOps.ofBits (F := Ideal) .f32 0x3F000000#32))) := rfl
theorem sabsF_apply (z : S12.Idx → EReal) (j : S12.Idx) :
    sabsF (F := Ideal) z j = absE (FloatOps.hostUnary (F := Ideal) (φ := .f32) .sin
      (FloatOps.mulf (F := Ideal) (φ := .f32) (z j) (FloatOps.ofBits (F := Ideal) .f32 0x3F000000#32))) := rfl

/-- Entry `k` (read modulo 12) of a 12-vector. -/
def zAt (z : S12.Idx → EReal) (k : ℕ) : EReal := z (ix1 (⟨k % 12, Nat.mod_lt _ (by decide)⟩ : Fin 12))

/-- The vector of twelve angles at an index: the running product over its twelve wires. -/
theorem halfVecF_apply (z : S12.Idx → EReal) (i : S4096.Idx) :
    halfVecF (F := Ideal) z i
      = accP (fun k => cabsF (F := Ideal) z (ix1 (⟨k % 12, Nat.mod_lt _ (by decide)⟩ : Fin 12)))
          (fun k => sabsF (F := Ideal) z (ix1 (⟨k % 12, Nat.mod_lt _ (by decide)⟩ : Fin 12))) 12 12 (i 0).val := by
  have h1 : (broadcastInDim S4096 ![] bcast_S_S4096 (constant (F := Ideal) S_ .f32 0x3F800000#32) : S4096.Idx → EReal) i = 1 :=
    Ideal.ofBits_one_f32
  unfold halfVecF
  rw [stepF_apply _ _ _ 0 11 (by decide) (by decide),
    stepF_apply _ _ _ 1 10 (by decide) (by decide),
    stepF_apply _ _ _ 2 9 (by decide) (by decide),
    stepF_apply _ _ _ 3 8 (by decide) (by decide),
    stepF_apply _ _ _ 4 7 (by decide) (by decide),
    stepF_apply _ _ _ 5 6 (by decide) (by decide),
    stepF_apply _ _ _ 6 5 (by decide) (by decide),
    stepF_apply _ _ _ 7 4 (by decide) (by decide),
    stepF_apply _ _ _ 8 3 (by decide) (by decide),
    stepF_apply _ _ _ 9 2 (by decide) (by decide),
    stepF_apply _ _ _ 10 1 (by decide) (by decide),
    stepF_apply _ _ _ 11 0 (by decide) (by decide), h1]
  simp only [accP_succ, accP_zero, sel]

end AtIdeal

/-! ## The two operands from the angles -/

section Operands

/-- A slice of the negated angles at entry `k` of twelve, from offset `off`. -/
theorem slice_neg_at (y : S24.Idx → EReal) (off : ℕ) (hs : S24.Slices ![off] S12) (k : ℕ) (hk : k < 12) (ho : off + 12 ≤ 24) :
    extractStridedSlice S12 ![off] (Host.negf (F := Ideal) (φ := .f32) y) hs (ix1 (⟨k % 12, Nat.mod_lt _ (by decide)⟩ : Fin 12))
      = FloatOps.hostNegf (F := Ideal) (φ := .f32) (yAt y (off + k)) := by
  unfold yAt
  exact extractStridedSlice_apply ![off] (Host.negf (F := Ideal) (φ := .f32) y) hs _
    (ix1 (⟨(off + k) % 24, Nat.mod_lt _ (by decide)⟩ : Fin 24))
    (fun a => match a with | ⟨0, _⟩ => by show (off + k) % 24 = off + k % 12; omega)

/-- The vector built from the twelve angles at offset `off`, at an index: the running product of the absolute values
    of those wires' cosines and sines. -/
theorem halfVec_of_angles (y : S24.Idx → EReal) (off : ℕ) (hs : S24.Slices ![off] S12) (ho : off + 12 ≤ 24) (i : S4096.Idx) :
    halfVecF (F := Ideal) (extractStridedSlice S12 ![off] (Host.negf (F := Ideal) (φ := .f32) y) hs) i
      = accP (fun k => absE (cE y (off + k))) (fun k => absE (sE y (off + k))) 12 12 (i 0).val := by
  rw [halfVecF_apply]
  refine accP_congr _ _ _ _ 12 12 _ (fun k hk => ⟨?_, ?_⟩)
  · show cabsF (F := Ideal) _ _ = _
    rw [cabsF_apply, slice_neg_at y off hs k hk ho]; rfl
  · show sabsF (F := Ideal) _ _ = _
    rw [sabsF_apply, slice_neg_at y off hs k hk ho]; rfl

end Operands

end Cert.KernelIdeal.KerHost

end
-- ==== Proof.KerHostV.lean ====
/-
  The two operands as the call finds them: the host's operations before the call, composed.

  Reading the column operand's buffer back through the host's operations gives the vector of the first twelve angles as
  a column; reading the row operand's gives the vector of the last twelve angles as a row (`KerHost.halfVecF` of the
  corresponding slice of the negated angles).  The host's line is read in two pieces: the operations that build the
  column (none of the later ones writes it), and the operations that build the row from the negated angles, which the
  first operation of the line computed and no later one writes.
-/
import proofs.«143588_j65481071403967_2_alg».proof.Proof.KerHost
import Idealize.ShloMosaic.Lib.StableHlo.Run

set_option maxRecDepth 16384

noncomputable section

namespace Cert.KernelIdeal.KerHost

open Cert.KernelIdeal Cert.KernelIdeal.Gen
open Idealize.ShloMosaic Idealize.ShloMosaic.TcCoe Idealize.SL.Sem Idealize.ShloMosaic.StableHlo

variable {F : FTy → Type} [FloatOps F]

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt F) ℓ)

/-- The operations up to the column's, and the rest. -/
theorem host_split_col :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (HloOp τ sig (Elt F)))
      = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] ++ List.flatten [hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  rw [← List.flatten_append]; rfl

/-- The operations before the row's own, and the row's. -/
theorem host_split_row :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] : List (HloOp τ sig (Elt F)))
      = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23] ++ List.flatten [hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] := by
  rw [← List.flatten_append]; rfl

set_option maxHeartbeats 64000000 in
/-- The column operand as the call finds it: the vector of the first twelve angles, as a column. -/
theorem V_col (c : Dev nD) :
    Gen.V m c main_v154
      = shapeCast S4096x1 (halfVecF (extractStridedSlice S12 ![0] (Host.negf (m ((c : Thread nD τ).loc main_arg1))) slices_S24_S12_0))
          shapeCasts_S4096_S4096x1 := by
  dsimp only [Gen.V, Gen.V0]
  rw [host_split_col, after_append]
  rw [after_of_forall_not_mem (b := Proc.devRef .tc main_v154) _ _ (List.forall_iff_forall_mem.mp (by
    simp only [hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

set_option maxHeartbeats 64000000 in
/-- The negated angles are still in place when the row's operations start. -/
theorem neg_kept (c : Dev nD) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b)) (Proc.devRef .tc main_v0)
      = Host.negf (m ((c : Thread nD τ).loc main_arg1)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp

set_option maxHeartbeats 64000000 in
/-- The row's operations, from any contents `W` of the buffers before them. -/
theorem row_from (W : Valuation τ sig (Elt F)) :
    after (List.flatten [hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]) W (Proc.devRef .tc main_v308)
      = shapeCast S1x4096 (halfVecF (extractStridedSlice S12 ![12] (W (Proc.devRef .tc main_v0)) slices_S24_S12_12))
          shapeCasts_S4096_S1x4096 := by
  simp only [hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append, List.nil_append]
  after_results_simp
  rfl

/-- The row operand as the call finds it: the vector of the last twelve angles, as a row. -/
theorem V_row (c : Dev nD) :
    Gen.V m c main_v308
      = shapeCast S1x4096 (halfVecF (extractStridedSlice S12 ![12] (Host.negf (m ((c : Thread nD τ).loc main_arg1))) slices_S24_S12_12))
          shapeCasts_S4096_S1x4096 := by
  dsimp only [Gen.V, Gen.V0]
  rw [host_split_row, after_append, row_from, neg_kept]

end Cert.KernelIdeal.KerHost

end
-- ==== Proof.RefRun.lean ====
/-
  The reference program's run.

  @main is a straight line of 320 host operations (a called Kronecker-product function's operations standing in its
  call's place): eight that compute the cosines, the sines and the one-element state, then one short line per wire, then
  the absolute value.  The short lines are listed here one by one (`segPre`, `seg0` … `seg23`, `segAbs`; wires 6 and
  21 are cut in two where @main's printed windows cut them), `ops` is their concatenation, each printed window of @main
  is the concatenation of its own lines run in order (`main_partK_eq`, by unfolding), hence `main = seq ops`, and
  Lib/StableHlo/Run.lean's `run_seq` gives the run: every weakly fair execution terminates with each buffer at the fold
  `after ops` of the operations over the launch contents.
-/
import proofs.«143588_j65481071403967_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, line by line -/

abbrev segPre : List (HloOp τ sig (Elt F)) :=
  [ unary main_arg1 main_v0 (Host.negf : (⟨S24, .f32⟩ : BufTy).Contents (Elt F) → (⟨S24, .f32⟩ : BufTy).Contents (Elt F)),
    nullary main_cst (constant S_ .f32 0x3F000000#32),
    unary main_cst main_v1 (broadcastInDim S24 ![] bcast_S_S24 : (⟨S_, .f32⟩ : BufTy).Contents (Elt F) → (⟨S24, .f32⟩ : BufTy).Contents (Elt F)),
    binary main_v0 main_v1 main_v2 (mulf : (⟨S24, .f32⟩ : BufTy).Contents (Elt F) → (⟨S24, .f32⟩ : BufTy).Contents (Elt F) → (⟨S24, .f32⟩ : BufTy).Contents (Elt F)),
    unary main_v2 main_v3 (Host.cos : (⟨S24, .f32⟩ : BufTy).Contents (Elt F) → (⟨S24, .f32⟩ : BufTy).Contents (Elt F)),
    unary main_v2 main_v4 (Host.sin : (⟨S24, .f32⟩ : BufTy).Contents (Elt F) → (⟨S24, .f32⟩ : BufTy).Contents (Elt F)),
    nullary main_cst_0 (constant S_ .f32 0x3F800000#32),
    unary main_cst_0 main_v5 (broadcastInDim S1 ![] bcast_S_S1 : (⟨S_, .f32⟩ : BufTy).Contents (Elt F) → (⟨S1, .f32⟩ : BufTy).Contents (Elt F)) ]
theorem segPre_sub : (segPre : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., unary_bufs_sub ..⟩
theorem segPre_fresh : (segPre : List (HloOp τ sig (Elt F))).Forall fun op => op.fresh = ∅ :=
  ⟨rfl, rfl, rfl, rfl, rfl, rfl, rfl, rfl⟩
theorem segPre_args : (segPre : List (HloOp τ sig (Elt F))).Forall fun op =>
    Proc.devRef .tc main_arg0 ∉ op.writes ∧ Proc.devRef .tc main_arg1 ∉ op.writes := by
  simp only [segPre, List.Forall, nullary_writes, unary_writes, binary_writes, ternary_writes, quaternary_writes,
    reshape_writes, binaryIndexed_writes, Finset.mem_singleton]
  repeat' apply And.intro
  all_goals exact devRef_ne_of_ne (by decide)

abbrev seg0 : List (HloOp τ sig (Elt F)) :=
  [ unary main_v3 main_v6 ((extractStridedSlice S1 ![0] · slices_S24_S1_0) : (⟨S24, .f32⟩ : BufTy).Contents (Elt F) → (⟨S1, .f32⟩ : BufTy).Contents (Elt F)),
    reshape main_v6 main_v7 rfl shapeCasts_S1_S_,
    unary main_v4 main_v8 ((extractStridedSlice S1 ![0] · slices_S24_S1_0) : (⟨S24, .f32⟩ : BufTy).Contents (Elt F) → (⟨S1, .f32⟩ : BufTy).Contents (Elt F)),
    reshape main_v8 main_v9 rfl shapeCasts_S1_S_,
    unary main_v7 main_v10 (broadcastInDim S1 ![] bcast_S_S1 : (⟨S_, .f32⟩ : BufTy).Contents (Elt F) → (⟨S1, .f32⟩ : BufTy).Contents (Elt F)),
    unary main_v9 main_v11 (broadcastInDim S1 ![] bcast_S_S1 : (⟨S_, .f32⟩ : BufTy).Contents (Elt F) → (⟨S1, .f32⟩ : BufTy).Contents (Elt F)),
    binary main_v10 main_v11 main_v12 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S1, .f32⟩) main_v5) (TRef.of (T := ⟨S1x1, .f32⟩) main_call0_v0) (broadcastInDim S1x1 ![0] bcast_S1_S1x1_0),
    TRef.unary (TRef.of (T := ⟨S2, .f32⟩) main_v12) (TRef.of (T := ⟨S1x2, .f32⟩) main_call0_v1) (broadcastInDim S1x2 ![1] bcast_S2_S1x2_1),
    TRef.unary (TRef.of (T := ⟨S1x1, .f32⟩) main_call0_v0) (TRef.of (T := ⟨S1x2, .f32⟩) main_call0_v2) (broadcastInDim S1x2 ![0, 1] bcast_S1x1_S1x2_0_1),
    TRef.binary (TRef.of (T := ⟨S1x2, .f32⟩) main_call0_v2) (TRef.of (T := ⟨S1x2, .f32⟩) main_call0_v1) (TRef.of (T := ⟨S1x2, .f32⟩) main_call0_v3) mulf,
    TRef.reshape (TRef.of (T := ⟨S1x2, .f32⟩) main_call0_v3) (TRef.of (T := ⟨S2, .f32⟩) main_v13) rfl shapeCasts_S1x2_S2 ]
theorem seg0_sub : (seg0 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., binary_bufs_sub .., reshape_bufs_sub ..⟩
theorem seg0_fresh : (seg0 : List (HloOp τ sig (Elt F))).Forall fun op => op.fresh = ∅ :=
  ⟨rfl, rfl, rfl, rfl, rfl, rfl, rfl, rfl, rfl, rfl, rfl, rfl⟩
theorem seg0_args : (seg0 : List (HloOp τ sig (Elt F))).Forall fun op =>
    Proc.devRef .tc main_arg0 ∉ op.writes ∧ Proc.devRef .tc main_arg1 ∉ op.writes := by
  simp only [seg0, List.Forall, nullary_writes, unary_writes, binary_writes, ternary_writes, quaternary_writes,
    reshape_writes, binaryIndexed_writes, Finset.mem_singleton]
  repeat' apply And.intro
  all_goals exact devRef_ne_of_ne (by decide)

abbrev seg1 : List (HloOp τ sig (Elt F)) :=
  [ unary main_v3 main_v14 ((extractStridedSlice S1 ![1] · slices_S24_S1_1) : (⟨S24, .f32⟩ : BufTy).Contents (Elt F) → (⟨S1, .f32⟩ : BufTy).Contents (Elt F)),
    reshape main_v14 main_v15 rfl shapeCasts_S1_S_,
    unary main_v4 main_v16 ((extractStridedSlice S1 ![1] · slices_S24_S1_1) : (⟨S24, .f32⟩ : BufTy).Contents (Elt F) → (⟨S1, .f32⟩ : BufTy).Contents (Elt F)),
    reshape main_v16 main_v17 rfl shapeCasts_S1_S_,
    unary main_v15 main_v18 (broadcastInDim S1 ![] bcast_S_S1 : (⟨S_, .f32⟩ : BufTy).Contents (Elt F) → (⟨S1, .f32⟩ : BufTy).Contents (Elt F)),
    unary main_v17 main_v19 (broadcastInDim S1 ![] bcast_S_S1 : (⟨S_, .f32⟩ : BufTy).Contents (Elt F) → (⟨S1, .f32⟩ : BufTy).Contents (Elt F)),
    binary main_v18 main_v19 main_v20 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S2, .f32⟩) main_v13) (TRef.of (T := ⟨S2x1, .f32⟩) main_call1_v0) (broadcastInDim S2x1 ![0] bcast_S2_S2x1_0),
    TRef.unary (TRef.of (T := ⟨S2, .f32⟩) main_v20) (TRef.of (T := ⟨S1x2, .f32⟩) main_call1_v1) (broadcastInDim S1x2 ![1] bcast_S2_S1x2_1),
    TRef.unary (TRef.of (T := ⟨S2x1, .f32⟩) main_call1_v0) (TRef.of (T := ⟨S2x2, .f32⟩) main_call1_v2) (broadcastInDim S2x2 ![0, 1] bcast_S2x1_S2x2_0_1),
    TRef.unary (TRef.of (T := ⟨S1x2, .f32⟩) main_call1_v1) (TRef.of (T := ⟨S2x2, .f32⟩) main_call1_v3) (broadcastInDim S2x2 ![0, 1] bcast_S1x2_S2x2_0_1),
    TRef.binary (TRef.of (T := ⟨S2x2, .f32⟩) main_call1_v2) (TRef.of (T := ⟨S2x2, .f32⟩) main_call1_v3) (TRef.of (T := ⟨S2x2, .f32⟩) main_call1_v4) mulf,
    TRef.reshape (TRef.of (T := ⟨S2x2, .f32⟩) main_call1_v4) (TRef.of (T := ⟨S4, .f32⟩) main_v21) rfl shapeCasts_S2x2_S4 ]
theorem seg1_sub : (seg1 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg1_fresh : (seg1 : List (HloOp τ sig (Elt F))).Forall fun op => op.fresh = ∅ :=
  ⟨rfl, rfl, rfl, rfl, rfl, rfl, rfl, rfl, rfl, rfl, rfl, rfl, rfl⟩
theorem seg1_args : (seg1 : List (HloOp τ sig (Elt F))).Forall fun op =>
    Proc.devRef .tc main_arg0 ∉ op.writes ∧ Proc.devRef .tc main_arg1 ∉ op.writes := by
  simp only [seg1, List.Forall, nullary_writes, unary_writes, binary_writes, ternary_writes, quaternary_writes,
    reshape_writes, binaryIndexed_writes, Finset.mem_singleton]
  repeat' apply And.intro
  all_goals exact devRef_ne_of_ne (by decide)

abbrev seg2 : List (HloOp τ sig (Elt F)) :=
  [ unary main_v3 main_v22 ((extractStridedSlice S1 ![2] · slices_S24_S1_2) : (⟨S24, .f32⟩ : BufTy).Contents (Elt F) → (⟨S1, .f32⟩ : BufTy).Contents (Elt F)),
    reshape main_v22 main_v23 rfl shapeCasts_S1_S_,
    unary main_v4 main_v24 ((extractStridedSlice S1 ![2] · slices_S24_S1_2) : (⟨S24, .f32⟩ : BufTy).Contents (Elt F) → (⟨S1, .f32⟩ : BufTy).Contents (Elt F)),
    reshape main_v24 main_v25 rfl shapeCasts_S1_S_,
    unary main_v23 main_v26 (broadcastInDim S1 ![] bcast_S_S1 : (⟨S_, .f32⟩ : BufTy).Contents (Elt F) → (⟨S1, .f32⟩ : BufTy).Contents (Elt F)),
    unary main_v25 main_v27 (broadcastInDim S1 ![] bcast_S_S1 : (⟨S_, .f32⟩ : BufTy).Contents (Elt F) → (⟨S1, .f32⟩ : BufTy).Contents (Elt F)),
    binary main_v26 main_v27 main_v28 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S4, .f32⟩) main_v21) (TRef.of (T := ⟨S4x1, .f32⟩) main_call2_v0) (broadcastInDim S4x1 ![0] bcast_S4_S4x1_0),
    TRef.unary (TRef.of (T := ⟨S2, .f32⟩) main_v28) (TRef.of (T := ⟨S1x2, .f32⟩) main_call2_v1) (broadcastInDim S1x2 ![1] bcast_S2_S1x2_1),
    TRef.unary (TRef.of (T := ⟨S4x1, .f32⟩) main_call2_v0) (TRef.of (T := ⟨S4x2, .f32⟩) main_call2_v2) (broadcastInDim S4x2 ![0, 1] bcast_S4x1_S4x2_0_1),
    TRef.unary (TRef.of (T := ⟨S1x2, .f32⟩) main_call2_v1) (TRef.of (T := ⟨S4x2, .f32⟩) main_call2_v3) (broadcastInDim S4x2 ![0, 1] bcast_S1x2_S4x2_0_1),
    TRef.binary (TRef.of (T := ⟨S4x2, .f32⟩) main_call2_v2) (TRef.of (T := ⟨S4x2, .f32⟩) main_call2_v3) (TRef.of (T := ⟨S4x2, .f32⟩) main_call2_v4) mulf,
    TRef.reshape (TRef.of (T := ⟨S4x2, .f32⟩) main_call2_v4) (TRef.of (T := ⟨S8, .f32⟩) main_v29) rfl shapeCasts_S4x2_S8 ]
theorem seg2_sub : (seg2 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg2_fresh : (seg2 : List (HloOp τ sig (Elt F))).Forall fun op => op.fresh = ∅ :=
  ⟨rfl, rfl, rfl, rfl, rfl, rfl, rfl, rfl, rfl, rfl, rfl, rfl, rfl⟩
theorem seg2_args : (seg2 : List (HloOp τ sig (Elt F))).Forall fun op =>
    Proc.devRef .tc main_arg0 ∉ op.writes ∧ Proc.devRef .tc main_arg1 ∉ op.writes := by
  simp only [seg2, List.Forall, nullary_writes, unary_writes, binary_writes, ternary_writes, quaternary_writes,
    reshape_writes, binaryIndexed_writes, Finset.mem_singleton]
  repeat' apply And.intro
  all_goals exact devRef_ne_of_ne (by decide)

abbrev seg3 : List (HloOp τ sig (Elt F)) :=
  [ unary main_v3 main_v30 ((extractStridedSlice S1 ![3] · slices_S24_S1_3) : (⟨S24, .f32⟩ : BufTy).Contents (Elt F) → (⟨S1, .f32⟩ : BufTy).Contents (Elt F)),
    reshape main_v30 main_v31 rfl shapeCasts_S1_S_,
    unary main_v4 main_v32 ((extractStridedSlice S1 ![3] · slices_S24_S1_3) : (⟨S24, .f32⟩ : BufTy).Contents (Elt F) → (⟨S1, .f32⟩ : BufTy).Contents (Elt F)),
    reshape main_v32 main_v33 rfl shapeCasts_S1_S_,
    unary main_v31 main_v34 (broadcastInDim S1 ![] bcast_S_S1 : (⟨S_, .f32⟩ : BufTy).Contents (Elt F) → (⟨S1, .f32⟩ : BufTy).Contents (Elt F)),
    unary main_v33 main_v35 (broadcastInDim S1 ![] bcast_S_S1 : (⟨S_, .f32⟩ : BufTy).Contents (Elt F) → (⟨S1, .f32⟩ : BufTy).Contents (Elt F)),
    binary main_v34 main_v35 main_v36 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S8, .f32⟩) main_v29) (TRef.of (T := ⟨S8x1, .f32⟩) main_call3_v0) (broadcastInDim S8x1 ![0] bcast_S8_S8x1_0),
    TRef.unary (TRef.of (T := ⟨S2, .f32⟩) main_v36) (TRef.of (T := ⟨S1x2, .f32⟩) main_call3_v1) (broadcastInDim S1x2 ![1] bcast_S2_S1x2_1),
    TRef.unary (TRef.of (T := ⟨S8x1, .f32⟩) main_call3_v0) (TRef.of (T := ⟨S8x2, .f32⟩) main_call3_v2) (broadcastInDim S8x2 ![0, 1] bcast_S8x1_S8x2_0_1),
    TRef.unary (TRef.of (T := ⟨S1x2, .f32⟩) main_call3_v1) (TRef.of (T := ⟨S8x2, .f32⟩) main_call3_v3) (broadcastInDim S8x2 ![0, 1] bcast_S1x2_S8x2_0_1),
    TRef.binary (TRef.of (T := ⟨S8x2, .f32⟩) main_call3_v2) (TRef.of (T := ⟨S8x2, .f32⟩) main_call3_v3) (TRef.of (T := ⟨S8x2, .f32⟩) main_call3_v4) mulf,
    TRef.reshape (TRef.of (T := ⟨S8x2, .f32⟩) main_call3_v4) (TRef.of (T := ⟨S16, .f32⟩) main_v37) rfl shapeCasts_S8x2_S16 ]
theorem seg3_sub : (seg3 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg3_fresh : (seg3 : List (HloOp τ sig (Elt F))).Forall fun op => op.fresh = ∅ :=
  ⟨rfl, rfl, rfl, rfl, rfl, rfl, rfl, rfl, rfl, rfl, rfl, rfl, rfl⟩
theorem seg3_args : (seg3 : List (HloOp τ sig (Elt F))).Forall fun op =>
    Proc.devRef .tc main_arg0 ∉ op.writes ∧ Proc.devRef .tc main_arg1 ∉ op.writes := by
  simp only [seg3, List.Forall, nullary_writes, unary_writes, binary_writes, ternary_writes, quaternary_writes,
    reshape_writes, binaryIndexed_writes, Finset.mem_singleton]
  repeat' apply And.intro
  all_goals exact devRef_ne_of_ne (by decide)

abbrev seg4 : List (HloOp τ sig (Elt F)) :=
  [ unary main_v3 main_v38 ((extractStridedSlice S1 ![4] · slices_S24_S1_4) : (⟨S24, .f32⟩ : BufTy).Contents (Elt F) → (⟨S1, .f32⟩ : BufTy).Contents (Elt F)),
    reshape main_v38 main_v39 rfl shapeCasts_S1_S_,
    unary main_v4 main_v40 ((extractStridedSlice S1 ![4] · slices_S24_S1_4) : (⟨S24, .f32⟩ : BufTy).Contents (Elt F) → (⟨S1, .f32⟩ : BufTy).Contents (Elt F)),
    reshape main_v40 main_v41 rfl shapeCasts_S1_S_,
    unary main_v39 main_v42 (broadcastInDim S1 ![] bcast_S_S1 : (⟨S_, .f32⟩ : BufTy).Contents (Elt F) → (⟨S1, .f32⟩ : BufTy).Contents (Elt F)),
    unary main_v41 main_v43 (broadcastInDim S1 ![] bcast_S_S1 : (⟨S_, .f32⟩ : BufTy).Contents (Elt F) → (⟨S1, .f32⟩ : BufTy).Contents (Elt F)),
    binary main_v42 main_v43 main_v44 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S16, .f32⟩) main_v37) (TRef.of (T := ⟨S16x1, .f32⟩) main_call4_v0) (broadcastInDim S16x1 ![0] bcast_S16_S16x1_0),
    TRef.unary (TRef.of (T := ⟨S2, .f32⟩) main_v44) (TRef.of (T := ⟨S1x2, .f32⟩) main_call4_v1) (broadcastInDim S1x2 ![1] bcast_S2_S1x2_1),
    TRef.unary (TRef.of (T := ⟨S16x1, .f32⟩) main_call4_v0) (TRef.of (T := ⟨S16x2, .f32⟩) main_call4_v2) (broadcastInDim S16x2 ![0, 1] bcast_S16x1_S16x2_0_1),
    TRef.unary (TRef.of (T := ⟨S1x2, .f32⟩) main_call4_v1) (TRef.of (T := ⟨S16x2, .f32⟩) main_call4_v3) (broadcastInDim S16x2 ![0, 1] bcast_S1x2_S16x2_0_1),
    TRef.binary (TRef.of (T := ⟨S16x2, .f32⟩) main_call4_v2) (TRef.of (T := ⟨S16x2, .f32⟩) main_call4_v3) (TRef.of (T := ⟨S16x2, .f32⟩) main_call4_v4) mulf,
    TRef.reshape (TRef.of (T := ⟨S16x2, .f32⟩) main_call4_v4) (TRef.of (T := ⟨S32, .f32⟩) main_v45) rfl shapeCasts_S16x2_S32 ]
theorem seg4_sub : (seg4 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg4_fresh : (seg4 : List (HloOp τ sig (Elt F))).Forall fun op => op.fresh = ∅ :=
  ⟨rfl, rfl, rfl, rfl, rfl, rfl, rfl, rfl, rfl, rfl, rfl, rfl, rfl⟩
theorem seg4_args : (seg4 : List (HloOp τ sig (Elt F))).Forall fun op =>
    Proc.devRef .tc main_arg0 ∉ op.writes ∧ Proc.devRef .tc main_arg1 ∉ op.writes := by
  simp only [seg4, List.Forall, nullary_writes, unary_writes, binary_writes, ternary_writes, quaternary_writes,
    reshape_writes, binaryIndexed_writes, Finset.mem_singleton]
  repeat' apply And.intro
  all_goals exact devRef_ne_of_ne (by decide)

abbrev seg5 : List (HloOp τ sig (Elt F)) :=
  [ unary main_v3 main_v46 ((extractStridedSlice S1 ![5] · slices_S24_S1_5) : (⟨S24, .f32⟩ : BufTy).Contents (Elt F) → (⟨S1, .f32⟩ : BufTy).Contents (Elt F)),
    reshape main_v46 main_v47 rfl shapeCasts_S1_S_,
    unary main_v4 main_v48 ((extractStridedSlice S1 ![5] · slices_S24_S1_5) : (⟨S24, .f32⟩ : BufTy).Contents (Elt F) → (⟨S1, .f32⟩ : BufTy).Contents (Elt F)),
    reshape main_v48 main_v49 rfl shapeCasts_S1_S_,
    unary main_v47 main_v50 (broadcastInDim S1 ![] bcast_S_S1 : (⟨S_, .f32⟩ : BufTy).Contents (Elt F) → (⟨S1, .f32⟩ : BufTy).Contents (Elt F)),
    unary main_v49 main_v51 (broadcastInDim S1 ![] bcast_S_S1 : (⟨S_, .f32⟩ : BufTy).Contents (Elt F) → (⟨S1, .f32⟩ : BufTy).Contents (Elt F)),
    binary main_v50 main_v51 main_v52 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S32, .f32⟩) main_v45) (TRef.of (T := ⟨S32x1, .f32⟩) main_call5_v0) (broadcastInDim S32x1 ![0] bcast_S32_S32x1_0),
    TRef.unary (TRef.of (T := ⟨S2, .f32⟩) main_v52) (TRef.of (T := ⟨S1x2, .f32⟩) main_call5_v1) (broadcastInDim S1x2 ![1] bcast_S2_S1x2_1),
    TRef.unary (TRef.of (T := ⟨S32x1, .f32⟩) main_call5_v0) (TRef.of (T := ⟨S32x2, .f32⟩) main_call5_v2) (broadcastInDim S32x2 ![0, 1] bcast_S32x1_S32x2_0_1),
    TRef.unary (TRef.of (T := ⟨S1x2, .f32⟩) main_call5_v1) (TRef.of (T := ⟨S32x2, .f32⟩) main_call5_v3) (broadcastInDim S32x2 ![0, 1] bcast_S1x2_S32x2_0_1),
    TRef.binary (TRef.of (T := ⟨S32x2, .f32⟩) main_call5_v2) (TRef.of (T := ⟨S32x2, .f32⟩) main_call5_v3) (TRef.of (T := ⟨S32x2, .f32⟩) main_call5_v4) mulf,
    TRef.reshape (TRef.of (T := ⟨S32x2, .f32⟩) main_call5_v4) (TRef.of (T := ⟨S64, .f32⟩) main_v53) rfl shapeCasts_S32x2_S64 ]
theorem seg5_sub : (seg5 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg5_fresh : (seg5 : List (HloOp τ sig (Elt F))).Forall fun op => op.fresh = ∅ :=
  ⟨rfl, rfl, rfl, rfl, rfl, rfl, rfl, rfl, rfl, rfl, rfl, rfl, rfl⟩
theorem seg5_args : (seg5 : List (HloOp τ sig (Elt F))).Forall fun op =>
    Proc.devRef .tc main_arg0 ∉ op.writes ∧ Proc.devRef .tc main_arg1 ∉ op.writes := by
  simp only [seg5, List.Forall, nullary_writes, unary_writes, binary_writes, ternary_writes, quaternary_writes,
    reshape_writes, binaryIndexed_writes, Finset.mem_singleton]
  repeat' apply And.intro
  all_goals exact devRef_ne_of_ne (by decide)

abbrev seg6a : List (HloOp τ sig (Elt F)) :=
  [ unary main_v3 main_v54 ((extractStridedSlice S1 ![6] · slices_S24_S1_6) : (⟨S24, .f32⟩ : BufTy).Contents (Elt F) → (⟨S1, .f32⟩ : BufTy).Contents (Elt F)),
    reshape main_v54 main_v55 rfl shapeCasts_S1_S_,
    unary main_v4 main_v56 ((extractStridedSlice S1 ![6] · slices_S24_S1_6) : (⟨S24, .f32⟩ : BufTy).Contents (Elt F) → (⟨S1, .f32⟩ : BufTy).Contents (Elt F)),
    reshape main_v56 main_v57 rfl shapeCasts_S1_S_ ]
theorem seg6a_sub : (seg6a : List (HloOp τ sig (Elt F))).Forall fun op => op.bufs ⊆ tcRefs τ sig :=
  ⟨unary_bufs_sub .., reshape_bufs_sub .., unary_bufs_sub .., reshape_bufs_sub ..⟩
theorem seg6a_fresh : (seg6a : List (HloOp τ sig (Elt F))).Forall fun op => op.fresh = ∅ :=
  ⟨rfl, rfl, rfl, rfl⟩
theorem seg6a_args : (seg6a : List (HloOp τ sig (Elt F))).Forall fun op =>
    Proc.devRef .tc main_arg0 ∉ op.writes ∧ Proc.devRef .tc main_arg1 ∉ op.writes := by
  simp only [seg6a, List.Forall, nullary_writes, unary_writes, binary_writes, ternary_writes, quaternary_writes,
    reshape_writes, binaryIndexed_writes, Finset.mem_singleton]
  repeat' apply And.intro
  all_goals exact devRef_ne_of_ne (by decide)

abbrev seg6b : List (HloOp τ sig (Elt F)) :=
  [ unary main_v55 main_v58 (broadcastInDim S1 ![] bcast_S_S1 : (⟨S_, .f32⟩ : BufTy).Contents (Elt F) → (⟨S1, .f32⟩ : BufTy).Contents (Elt F)),
    unary main_v57 main_v59 (broadcastInDim S1 ![] bcast_S_S1 : (⟨S_, .f32⟩ : BufTy).Contents (Elt F) → (⟨S1, .f32⟩ : BufTy).Contents (Elt F)),
    binary main_v58 main_v59 main_v60 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S64, .f32⟩) main_v53) (TRef.of (T := ⟨S64x1, .f32⟩) main_call6_v0) (broadcastInDim S64x1 ![0] bcast_S64_S64x1_0),
    TRef.unary (TRef.of (T := ⟨S2, .f32⟩) main_v60) (TRef.of (T := ⟨S1x2, .f32⟩) main_call6_v1) (broadcastInDim S1x2 ![1] bcast_S2_S1x2_1),
    TRef.unary (TRef.of (T := ⟨S64x1, .f32⟩) main_call6_v0) (TRef.of (T := ⟨S64x2, .f32⟩) main_call6_v2) (broadcastInDim S64x2 ![0, 1] bcast_S64x1_S64x2_0_1),
    TRef.unary (TRef.of (T := ⟨S1x2, .f32⟩) main_call6_v1) (TRef.of (T := ⟨S64x2, .f32⟩) main_call6_v3) (broadcastInDim S64x2 ![0, 1] bcast_S1x2_S64x2_0_1),
    TRef.binary (TRef.of (T := ⟨S64x2, .f32⟩) main_call6_v2) (TRef.of (T := ⟨S64x2, .f32⟩) main_call6_v3) (TRef.of (T := ⟨S64x2, .f32⟩) main_call6_v4) mulf,
    TRef.reshape (TRef.of (T := ⟨S64x2, .f32⟩) main_call6_v4) (TRef.of (T := ⟨S128, .f32⟩) main_v61) rfl shapeCasts_S64x2_S128 ]
theorem seg6b_sub : (seg6b : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., binary_bufs_sub .., reshape_bufs_sub ..⟩
theorem seg6b_fresh : (seg6b : List (HloOp τ sig (Elt F))).Forall fun op => op.fresh = ∅ :=
  ⟨rfl, rfl, rfl, rfl, rfl, rfl, rfl, rfl, rfl⟩
theorem seg6b_args : (seg6b : List (HloOp τ sig (Elt F))).Forall fun op =>
    Proc.devRef .tc main_arg0 ∉ op.writes ∧ Proc.devRef .tc main_arg1 ∉ op.writes := by
  simp only [seg6b, List.Forall, nullary_writes, unary_writes, binary_writes, ternary_writes, quaternary_writes,
    reshape_writes, binaryIndexed_writes, Finset.mem_singleton]
  repeat' apply And.intro
  all_goals exact devRef_ne_of_ne (by decide)

abbrev seg7 : List (HloOp τ sig (Elt F)) :=
  [ unary main_v3 main_v62 ((extractStridedSlice S1 ![7] · slices_S24_S1_7) : (⟨S24, .f32⟩ : BufTy).Contents (Elt F) → (⟨S1, .f32⟩ : BufTy).Contents (Elt F)),
    reshape main_v62 main_v63 rfl shapeCasts_S1_S_,
    unary main_v4 main_v64 ((extractStridedSlice S1 ![7] · slices_S24_S1_7) : (⟨S24, .f32⟩ : BufTy).Contents (Elt F) → (⟨S1, .f32⟩ : BufTy).Contents (Elt F)),
    reshape main_v64 main_v65 rfl shapeCasts_S1_S_,
    unary main_v63 main_v66 (broadcastInDim S1 ![] bcast_S_S1 : (⟨S_, .f32⟩ : BufTy).Contents (Elt F) → (⟨S1, .f32⟩ : BufTy).Contents (Elt F)),
    unary main_v65 main_v67 (broadcastInDim S1 ![] bcast_S_S1 : (⟨S_, .f32⟩ : BufTy).Contents (Elt F) → (⟨S1, .f32⟩ : BufTy).Contents (Elt F)),
    binary main_v66 main_v67 main_v68 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S128, .f32⟩) main_v61) (TRef.of (T := ⟨S128x1, .f32⟩) main_call7_v0) (broadcastInDim S128x1 ![0] bcast_S128_S128x1_0),
    TRef.unary (TRef.of (T := ⟨S2, .f32⟩) main_v68) (TRef.of (T := ⟨S1x2, .f32⟩) main_call7_v1) (broadcastInDim S1x2 ![1] bcast_S2_S1x2_1),
    TRef.unary (TRef.of (T := ⟨S128x1, .f32⟩) main_call7_v0) (TRef.of (T := ⟨S128x2, .f32⟩) main_call7_v2) (broadcastInDim S128x2 ![0, 1] bcast_S128x1_S128x2_0_1),
    TRef.unary (TRef.of (T := ⟨S1x2, .f32⟩) main_call7_v1) (TRef.of (T := ⟨S128x2, .f32⟩) main_call7_v3) (broadcastInDim S128x2 ![0, 1] bcast_S1x2_S128x2_0_1),
    TRef.binary (TRef.of (T := ⟨S128x2, .f32⟩) main_call7_v2) (TRef.of (T := ⟨S128x2, .f32⟩) main_call7_v3) (TRef.of (T := ⟨S128x2, .f32⟩) main_call7_v4) mulf,
    TRef.reshape (TRef.of (T := ⟨S128x2, .f32⟩) main_call7_v4) (TRef.of (T := ⟨S256, .f32⟩) main_v69) rfl shapeCasts_S128x2_S256 ]
theorem seg7_sub : (seg7 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg7_fresh : (seg7 : List (HloOp τ sig (Elt F))).Forall fun op => op.fresh = ∅ :=
  ⟨rfl, rfl, rfl, rfl, rfl, rfl, rfl, rfl, rfl, rfl, rfl, rfl, rfl⟩
theorem seg7_args : (seg7 : List (HloOp τ sig (Elt F))).Forall fun op =>
    Proc.devRef .tc main_arg0 ∉ op.writes ∧ Proc.devRef .tc main_arg1 ∉ op.writes := by
  simp only [seg7, List.Forall, nullary_writes, unary_writes, binary_writes, ternary_writes, quaternary_writes,
    reshape_writes, binaryIndexed_writes, Finset.mem_singleton]
  repeat' apply And.intro
  all_goals exact devRef_ne_of_ne (by decide)

abbrev seg8 : List (HloOp τ sig (Elt F)) :=
  [ unary main_v3 main_v70 ((extractStridedSlice S1 ![8] · slices_S24_S1_8) : (⟨S24, .f32⟩ : BufTy).Contents (Elt F) → (⟨S1, .f32⟩ : BufTy).Contents (Elt F)),
    reshape main_v70 main_v71 rfl shapeCasts_S1_S_,
    unary main_v4 main_v72 ((extractStridedSlice S1 ![8] · slices_S24_S1_8) : (⟨S24, .f32⟩ : BufTy).Contents (Elt F) → (⟨S1, .f32⟩ : BufTy).Contents (Elt F)),
    reshape main_v72 main_v73 rfl shapeCasts_S1_S_,
    unary main_v71 main_v74 (broadcastInDim S1 ![] bcast_S_S1 : (⟨S_, .f32⟩ : BufTy).Contents (Elt F) → (⟨S1, .f32⟩ : BufTy).Contents (Elt F)),
    unary main_v73 main_v75 (broadcastInDim S1 ![] bcast_S_S1 : (⟨S_, .f32⟩ : BufTy).Contents (Elt F) → (⟨S1, .f32⟩ : BufTy).Contents (Elt F)),
    binary main_v74 main_v75 main_v76 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S256, .f32⟩) main_v69) (TRef.of (T := ⟨S256x1, .f32⟩) main_call8_v0) (broadcastInDim S256x1 ![0] bcast_S256_S256x1_0),
    TRef.unary (TRef.of (T := ⟨S2, .f32⟩) main_v76) (TRef.of (T := ⟨S1x2, .f32⟩) main_call8_v1) (broadcastInDim S1x2 ![1] bcast_S2_S1x2_1),
    TRef.unary (TRef.of (T := ⟨S256x1, .f32⟩) main_call8_v0) (TRef.of (T := ⟨S256x2, .f32⟩) main_call8_v2) (broadcastInDim S256x2 ![0, 1] bcast_S256x1_S256x2_0_1),
    TRef.unary (TRef.of (T := ⟨S1x2, .f32⟩) main_call8_v1) (TRef.of (T := ⟨S256x2, .f32⟩) main_call8_v3) (broadcastInDim S256x2 ![0, 1] bcast_S1x2_S256x2_0_1),
    TRef.binary (TRef.of (T := ⟨S256x2, .f32⟩) main_call8_v2) (TRef.of (T := ⟨S256x2, .f32⟩) main_call8_v3) (TRef.of (T := ⟨S256x2, .f32⟩) main_call8_v4) mulf,
    TRef.reshape (TRef.of (T := ⟨S256x2, .f32⟩) main_call8_v4) (TRef.of (T := ⟨S512, .f32⟩) main_v77) rfl shapeCasts_S256x2_S512 ]
theorem seg8_sub : (seg8 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg8_fresh : (seg8 : List (HloOp τ sig (Elt F))).Forall fun op => op.fresh = ∅ :=
  ⟨rfl, rfl, rfl, rfl, rfl, rfl, rfl, rfl, rfl, rfl, rfl, rfl, rfl⟩
theorem seg8_args : (seg8 : List (HloOp τ sig (Elt F))).Forall fun op =>
    Proc.devRef .tc main_arg0 ∉ op.writes ∧ Proc.devRef .tc main_arg1 ∉ op.writes := by
  simp only [seg8, List.Forall, nullary_writes, unary_writes, binary_writes, ternary_writes, quaternary_writes,
    reshape_writes, binaryIndexed_writes, Finset.mem_singleton]
  repeat' apply And.intro
  all_goals exact devRef_ne_of_ne (by decide)

abbrev seg9 : List (HloOp τ sig (Elt F)) :=
  [ unary main_v3 main_v78 ((extractStridedSlice S1 ![9] · slices_S24_S1_9) : (⟨S24, .f32⟩ : BufTy).Contents (Elt F) → (⟨S1, .f32⟩ : BufTy).Contents (Elt F)),
    reshape main_v78 main_v79 rfl shapeCasts_S1_S_,
    unary main_v4 main_v80 ((extractStridedSlice S1 ![9] · slices_S24_S1_9) : (⟨S24, .f32⟩ : BufTy).Contents (Elt F) → (⟨S1, .f32⟩ : BufTy).Contents (Elt F)),
    reshape main_v80 main_v81 rfl shapeCasts_S1_S_,
    unary main_v79 main_v82 (broadcastInDim S1 ![] bcast_S_S1 : (⟨S_, .f32⟩ : BufTy).Contents (Elt F) → (⟨S1, .f32⟩ : BufTy).Contents (Elt F)),
    unary main_v81 main_v83 (broadcastInDim S1 ![] bcast_S_S1 : (⟨S_, .f32⟩ : BufTy).Contents (Elt F) → (⟨S1, .f32⟩ : BufTy).Contents (Elt F)),
    binary main_v82 main_v83 main_v84 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S512, .f32⟩) main_v77) (TRef.of (T := ⟨S512x1, .f32⟩) main_call9_v0) (broadcastInDim S512x1 ![0] bcast_S512_S512x1_0),
    TRef.unary (TRef.of (T := ⟨S2, .f32⟩) main_v84) (TRef.of (T := ⟨S1x2, .f32⟩) main_call9_v1) (broadcastInDim S1x2 ![1] bcast_S2_S1x2_1),
    TRef.unary (TRef.of (T := ⟨S512x1, .f32⟩) main_call9_v0) (TRef.of (T := ⟨S512x2, .f32⟩) main_call9_v2) (broadcastInDim S512x2 ![0, 1] bcast_S512x1_S512x2_0_1),
    TRef.unary (TRef.of (T := ⟨S1x2, .f32⟩) main_call9_v1) (TRef.of (T := ⟨S512x2, .f32⟩) main_call9_v3) (broadcastInDim S512x2 ![0, 1] bcast_S1x2_S512x2_0_1),
    TRef.binary (TRef.of (T := ⟨S512x2, .f32⟩) main_call9_v2) (TRef.of (T := ⟨S512x2, .f32⟩) main_call9_v3) (TRef.of (T := ⟨S512x2, .f32⟩) main_call9_v4) mulf,
    TRef.reshape (TRef.of (T := ⟨S512x2, .f32⟩) main_call9_v4) (TRef.of (T := ⟨S1024, .f32⟩) main_v85) rfl shapeCasts_S512x2_S1024 ]
theorem seg9_sub : (seg9 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg9_fresh : (seg9 : List (HloOp τ sig (Elt F))).Forall fun op => op.fresh = ∅ :=
  ⟨rfl, rfl, rfl, rfl, rfl, rfl, rfl, rfl, rfl, rfl, rfl, rfl, rfl⟩
theorem seg9_args : (seg9 : List (HloOp τ sig (Elt F))).Forall fun op =>
    Proc.devRef .tc main_arg0 ∉ op.writes ∧ Proc.devRef .tc main_arg1 ∉ op.writes := by
  simp only [seg9, List.Forall, nullary_writes, unary_writes, binary_writes, ternary_writes, quaternary_writes,
    reshape_writes, binaryIndexed_writes, Finset.mem_singleton]
  repeat' apply And.intro
  all_goals exact devRef_ne_of_ne (by decide)

abbrev seg10 : List (HloOp τ sig (Elt F)) :=
  [ unary main_v3 main_v86 ((extractStridedSlice S1 ![10] · slices_S24_S1_10) : (⟨S24, .f32⟩ : BufTy).Contents (Elt F) → (⟨S1, .f32⟩ : BufTy).Contents (Elt F)),
    reshape main_v86 main_v87 rfl shapeCasts_S1_S_,
    unary main_v4 main_v88 ((extractStridedSlice S1 ![10] · slices_S24_S1_10) : (⟨S24, .f32⟩ : BufTy).Contents (Elt F) → (⟨S1, .f32⟩ : BufTy).Contents (Elt F)),
    reshape main_v88 main_v89 rfl shapeCasts_S1_S_,
    unary main_v87 main_v90 (broadcastInDim S1 ![] bcast_S_S1 : (⟨S_, .f32⟩ : BufTy).Contents (Elt F) → (⟨S1, .f32⟩ : BufTy).Contents (Elt F)),
    unary main_v89 main_v91 (broadcastInDim S1 ![] bcast_S_S1 : (⟨S_, .f32⟩ : BufTy).Contents (Elt F) → (⟨S1, .f32⟩ : BufTy).Contents (Elt F)),
    binary main_v90 main_v91 main_v92 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S1024, .f32⟩) main_v85) (TRef.of (T := ⟨S1024x1, .f32⟩) main_call10_v0) (broadcastInDim S1024x1 ![0] bcast_S1024_S1024x1_0),
    TRef.unary (TRef.of (T := ⟨S2, .f32⟩) main_v92) (TRef.of (T := ⟨S1x2, .f32⟩) main_call10_v1) (broadcastInDim S1x2 ![1] bcast_S2_S1x2_1),
    TRef.unary (TRef.of (T := ⟨S1024x1, .f32⟩) main_call10_v0) (TRef.of (T := ⟨S1024x2, .f32⟩) main_call10_v2) (broadcastInDim S1024x2 ![0, 1] bcast_S1024x1_S1024x2_0_1),
    TRef.unary (TRef.of (T := ⟨S1x2, .f32⟩) main_call10_v1) (TRef.of (T := ⟨S1024x2, .f32⟩) main_call10_v3) (broadcastInDim S1024x2 ![0, 1] bcast_S1x2_S1024x2_0_1),
    TRef.binary (TRef.of (T := ⟨S1024x2, .f32⟩) main_call10_v2) (TRef.of (T := ⟨S1024x2, .f32⟩) main_call10_v3) (TRef.of (T := ⟨S1024x2, .f32⟩) main_call10_v4) mulf,
    TRef.reshape (TRef.of (T := ⟨S1024x2, .f32⟩) main_call10_v4) (TRef.of (T := ⟨S2048, .f32⟩) main_v93) rfl shapeCasts_S1024x2_S2048 ]
theorem seg10_sub : (seg10 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg10_fresh : (seg10 : List (HloOp τ sig (Elt F))).Forall fun op => op.fresh = ∅ :=
  ⟨rfl, rfl, rfl, rfl, rfl, rfl, rfl, rfl, rfl, rfl, rfl, rfl, rfl⟩
theorem seg10_args : (seg10 : List (HloOp τ sig (Elt F))).Forall fun op =>
    Proc.devRef .tc main_arg0 ∉ op.writes ∧ Proc.devRef .tc main_arg1 ∉ op.writes := by
  simp only [seg10, List.Forall, nullary_writes, unary_writes, binary_writes, ternary_writes, quaternary_writes,
    reshape_writes, binaryIndexed_writes, Finset.mem_singleton]
  repeat' apply And.intro
  all_goals exact devRef_ne_of_ne (by decide)

abbrev seg11 : List (HloOp τ sig (Elt F)) :=
  [ unary main_v3 main_v94 ((extractStridedSlice S1 ![11] · slices_S24_S1_11) : (⟨S24, .f32⟩ : BufTy).Contents (Elt F) → (⟨S1, .f32⟩ : BufTy).Contents (Elt F)),
    reshape main_v94 main_v95 rfl shapeCasts_S1_S_,
    unary main_v4 main_v96 ((extractStridedSlice S1 ![11] · slices_S24_S1_11) : (⟨S24, .f32⟩ : BufTy).Contents (Elt F) → (⟨S1, .f32⟩ : BufTy).Contents (Elt F)),
    reshape main_v96 main_v97 rfl shapeCasts_S1_S_,
    unary main_v95 main_v98 (broadcastInDim S1 ![] bcast_S_S1 : (⟨S_, .f32⟩ : BufTy).Contents (Elt F) → (⟨S1, .f32⟩ : BufTy).Contents (Elt F)),
    unary main_v97 main_v99 (broadcastInDim S1 ![] bcast_S_S1 : (⟨S_, .f32⟩ : BufTy).Contents (Elt F) → (⟨S1, .f32⟩ : BufTy).Contents (Elt F)),
    binary main_v98 main_v99 main_v100 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S2048, .f32⟩) main_v93) (TRef.of (T := ⟨S2048x1, .f32⟩) main_call11_v0) (broadcastInDim S2048x1 ![0] bcast_S2048_S2048x1_0),
    TRef.unary (TRef.of (T := ⟨S2, .f32⟩) main_v100) (TRef.of (T := ⟨S1x2, .f32⟩) main_call11_v1) (broadcastInDim S1x2 ![1] bcast_S2_S1x2_1),
    TRef.unary (TRef.of (T := ⟨S2048x1, .f32⟩) main_call11_v0) (TRef.of (T := ⟨S2048x2, .f32⟩) main_call11_v2) (broadcastInDim S2048x2 ![0, 1] bcast_S2048x1_S2048x2_0_1),
    TRef.unary (TRef.of (T := ⟨S1x2, .f32⟩) main_call11_v1) (TRef.of (T := ⟨S2048x2, .f32⟩) main_call11_v3) (broadcastInDim S2048x2 ![0, 1] bcast_S1x2_S2048x2_0_1),
    TRef.binary (TRef.of (T := ⟨S2048x2, .f32⟩) main_call11_v2) (TRef.of (T := ⟨S2048x2, .f32⟩) main_call11_v3) (TRef.of (T := ⟨S2048x2, .f32⟩) main_call11_v4) mulf,
    TRef.reshape (TRef.of (T := ⟨S2048x2, .f32⟩) main_call11_v4) (TRef.of (T := ⟨S4096, .f32⟩) main_v101) rfl shapeCasts_S2048x2_S4096 ]
theorem seg11_sub : (seg11 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg11_fresh : (seg11 : List (HloOp τ sig (Elt F))).Forall fun op => op.fresh = ∅ :=
  ⟨rfl, rfl, rfl, rfl, rfl, rfl, rfl, rfl, rfl, rfl, rfl, rfl, rfl⟩
theorem seg11_args : (seg11 : List (HloOp τ sig (Elt F))).Forall fun op =>
    Proc.devRef .tc main_arg0 ∉ op.writes ∧ Proc.devRef .tc main_arg1 ∉ op.writes := by
  simp only [seg11, List.Forall, nullary_writes, unary_writes, binary_writes, ternary_writes, quaternary_writes,
    reshape_writes, binaryIndexed_writes, Finset.mem_singleton]
  repeat' apply And.intro
  all_goals exact devRef_ne_of_ne (by decide)

abbrev seg12 : List (HloOp τ sig (Elt F)) :=
  [ unary main_v3 main_v102 ((extractStridedSlice S1 ![12] · slices_S24_S1_12) : (⟨S24, .f32⟩ : BufTy).Contents (Elt F) → (⟨S1, .f32⟩ : BufTy).Contents (Elt F)),
    reshape main_v102 main_v103 rfl shapeCasts_S1_S_,
    unary main_v4 main_v104 ((extractStridedSlice S1 ![12] · slices_S24_S1_12) : (⟨S24, .f32⟩ : BufTy).Contents (Elt F) → (⟨S1, .f32⟩ : BufTy).Contents (Elt F)),
    reshape main_v104 main_v105 rfl shapeCasts_S1_S_,
    unary main_v103 main_v106 (broadcastInDim S1 ![] bcast_S_S1 : (⟨S_, .f32⟩ : BufTy).Contents (Elt F) → (⟨S1, .f32⟩ : BufTy).Contents (Elt F)),
    unary main_v105 main_v107 (broadcastInDim S1 ![] bcast_S_S1 : (⟨S_, .f32⟩ : BufTy).Contents (Elt F) → (⟨S1, .f32⟩ : BufTy).Contents (Elt F)),
    binary main_v106 main_v107 main_v108 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S4096, .f32⟩) main_v101) (TRef.of (T := ⟨S4096x1, .f32⟩) main_call12_v0) (broadcastInDim S4096x1 ![0] bcast_S4096_S4096x1_0),
    TRef.unary (TRef.of (T := ⟨S2, .f32⟩) main_v108) (TRef.of (T := ⟨S1x2, .f32⟩) main_call12_v1) (broadcastInDim S1x2 ![1] bcast_S2_S1x2_1),
    TRef.unary (TRef.of (T := ⟨S4096x1, .f32⟩) main_call12_v0) (TRef.of (T := ⟨S4096x2, .f32⟩) main_call12_v2) (broadcastInDim S4096x2 ![0, 1] bcast_S4096x1_S4096x2_0_1),
    TRef.unary (TRef.of (T := ⟨S1x2, .f32⟩) main_call12_v1) (TRef.of (T := ⟨S4096x2, .f32⟩) main_call12_v3) (broadcastInDim S4096x2 ![0, 1] bcast_S1x2_S4096x2_0_1),
    TRef.binary (TRef.of (T := ⟨S4096x2, .f32⟩) main_call12_v2) (TRef.of (T := ⟨S4096x2, .f32⟩) main_call12_v3) (TRef.of (T := ⟨S4096x2, .f32⟩) main_call12_v4) mulf,
    TRef.reshape (TRef.of (T := ⟨S4096x2, .f32⟩) main_call12_v4) (TRef.of (T := ⟨S8192, .f32⟩) main_v109) rfl shapeCasts_S4096x2_S8192 ]
theorem seg12_sub : (seg12 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg12_fresh : (seg12 : List (HloOp τ sig (Elt F))).Forall fun op => op.fresh = ∅ :=
  ⟨rfl, rfl, rfl, rfl, rfl, rfl, rfl, rfl, rfl, rfl, rfl, rfl, rfl⟩
theorem seg12_args : (seg12 : List (HloOp τ sig (Elt F))).Forall fun op =>
    Proc.devRef .tc main_arg0 ∉ op.writes ∧ Proc.devRef .tc main_arg1 ∉ op.writes := by
  simp only [seg12, List.Forall, nullary_writes, unary_writes, binary_writes, ternary_writes, quaternary_writes,
    reshape_writes, binaryIndexed_writes, Finset.mem_singleton]
  repeat' apply And.intro
  all_goals exact devRef_ne_of_ne (by decide)

abbrev seg13 : List (HloOp τ sig (Elt F)) :=
  [ unary main_v3 main_v110 ((extractStridedSlice S1 ![13] · slices_S24_S1_13) : (⟨S24, .f32⟩ : BufTy).Contents (Elt F) → (⟨S1, .f32⟩ : BufTy).Contents (Elt F)),
    reshape main_v110 main_v111 rfl shapeCasts_S1_S_,
    unary main_v4 main_v112 ((extractStridedSlice S1 ![13] · slices_S24_S1_13) : (⟨S24, .f32⟩ : BufTy).Contents (Elt F) → (⟨S1, .f32⟩ : BufTy).Contents (Elt F)),
    reshape main_v112 main_v113 rfl shapeCasts_S1_S_,
    unary main_v111 main_v114 (broadcastInDim S1 ![] bcast_S_S1 : (⟨S_, .f32⟩ : BufTy).Contents (Elt F) → (⟨S1, .f32⟩ : BufTy).Contents (Elt F)),
    unary main_v113 main_v115 (broadcastInDim S1 ![] bcast_S_S1 : (⟨S_, .f32⟩ : BufTy).Contents (Elt F) → (⟨S1, .f32⟩ : BufTy).Contents (Elt F)),
    binary main_v114 main_v115 main_v116 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S8192, .f32⟩) main_v109) (TRef.of (T := ⟨S8192x1, .f32⟩) main_call13_v0) (broadcastInDim S8192x1 ![0] bcast_S8192_S8192x1_0),
    TRef.unary (TRef.of (T := ⟨S2, .f32⟩) main_v116) (TRef.of (T := ⟨S1x2, .f32⟩) main_call13_v1) (broadcastInDim S1x2 ![1] bcast_S2_S1x2_1),
    TRef.unary (TRef.of (T := ⟨S8192x1, .f32⟩) main_call13_v0) (TRef.of (T := ⟨S8192x2, .f32⟩) main_call13_v2) (broadcastInDim S8192x2 ![0, 1] bcast_S8192x1_S8192x2_0_1),
    TRef.unary (TRef.of (T := ⟨S1x2, .f32⟩) main_call13_v1) (TRef.of (T := ⟨S8192x2, .f32⟩) main_call13_v3) (broadcastInDim S8192x2 ![0, 1] bcast_S1x2_S8192x2_0_1),
    TRef.binary (TRef.of (T := ⟨S8192x2, .f32⟩) main_call13_v2) (TRef.of (T := ⟨S8192x2, .f32⟩) main_call13_v3) (TRef.of (T := ⟨S8192x2, .f32⟩) main_call13_v4) mulf,
    TRef.reshape (TRef.of (T := ⟨S8192x2, .f32⟩) main_call13_v4) (TRef.of (T := ⟨S16384, .f32⟩) main_v117) rfl shapeCasts_S8192x2_S16384 ]
theorem seg13_sub : (seg13 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg13_fresh : (seg13 : List (HloOp τ sig (Elt F))).Forall fun op => op.fresh = ∅ :=
  ⟨rfl, rfl, rfl, rfl, rfl, rfl, rfl, rfl, rfl, rfl, rfl, rfl, rfl⟩
theorem seg13_args : (seg13 : List (HloOp τ sig (Elt F))).Forall fun op =>
    Proc.devRef .tc main_arg0 ∉ op.writes ∧ Proc.devRef .tc main_arg1 ∉ op.writes := by
  simp only [seg13, List.Forall, nullary_writes, unary_writes, binary_writes, ternary_writes, quaternary_writes,
    reshape_writes, binaryIndexed_writes, Finset.mem_singleton]
  repeat' apply And.intro
  all_goals exact devRef_ne_of_ne (by decide)

abbrev seg14 : List (HloOp τ sig (Elt F)) :=
  [ unary main_v3 main_v118 ((extractStridedSlice S1 ![14] · slices_S24_S1_14) : (⟨S24, .f32⟩ : BufTy).Contents (Elt F) → (⟨S1, .f32⟩ : BufTy).Contents (Elt F)),
    reshape main_v118 main_v119 rfl shapeCasts_S1_S_,
    unary main_v4 main_v120 ((extractStridedSlice S1 ![14] · slices_S24_S1_14) : (⟨S24, .f32⟩ : BufTy).Contents (Elt F) → (⟨S1, .f32⟩ : BufTy).Contents (Elt F)),
    reshape main_v120 main_v121 rfl shapeCasts_S1_S_,
    unary main_v119 main_v122 (broadcastInDim S1 ![] bcast_S_S1 : (⟨S_, .f32⟩ : BufTy).Contents (Elt F) → (⟨S1, .f32⟩ : BufTy).Contents (Elt F)),
    unary main_v121 main_v123 (broadcastInDim S1 ![] bcast_S_S1 : (⟨S_, .f32⟩ : BufTy).Contents (Elt F) → (⟨S1, .f32⟩ : BufTy).Contents (Elt F)),
    binary main_v122 main_v123 main_v124 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S16384, .f32⟩) main_v117) (TRef.of (T := ⟨S16384x1, .f32⟩) main_call14_v0) (broadcastInDim S16384x1 ![0] bcast_S16384_S16384x1_0),
    TRef.unary (TRef.of (T := ⟨S2, .f32⟩) main_v124) (TRef.of (T := ⟨S1x2, .f32⟩) main_call14_v1) (broadcastInDim S1x2 ![1] bcast_S2_S1x2_1),
    TRef.unary (TRef.of (T := ⟨S16384x1, .f32⟩) main_call14_v0) (TRef.of (T := ⟨S16384x2, .f32⟩) main_call14_v2) (broadcastInDim S16384x2 ![0, 1] bcast_S16384x1_S16384x2_0_1),
    TRef.unary (TRef.of (T := ⟨S1x2, .f32⟩) main_call14_v1) (TRef.of (T := ⟨S16384x2, .f32⟩) main_call14_v3) (broadcastInDim S16384x2 ![0, 1] bcast_S1x2_S16384x2_0_1),
    TRef.binary (TRef.of (T := ⟨S16384x2, .f32⟩) main_call14_v2) (TRef.of (T := ⟨S16384x2, .f32⟩) main_call14_v3) (TRef.of (T := ⟨S16384x2, .f32⟩) main_call14_v4) mulf,
    TRef.reshape (TRef.of (T := ⟨S16384x2, .f32⟩) main_call14_v4) (TRef.of (T := ⟨S32768, .f32⟩) main_v125) rfl shapeCasts_S16384x2_S32768 ]
theorem seg14_sub : (seg14 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg14_fresh : (seg14 : List (HloOp τ sig (Elt F))).Forall fun op => op.fresh = ∅ :=
  ⟨rfl, rfl, rfl, rfl, rfl, rfl, rfl, rfl, rfl, rfl, rfl, rfl, rfl⟩
theorem seg14_args : (seg14 : List (HloOp τ sig (Elt F))).Forall fun op =>
    Proc.devRef .tc main_arg0 ∉ op.writes ∧ Proc.devRef .tc main_arg1 ∉ op.writes := by
  simp only [seg14, List.Forall, nullary_writes, unary_writes, binary_writes, ternary_writes, quaternary_writes,
    reshape_writes, binaryIndexed_writes, Finset.mem_singleton]
  repeat' apply And.intro
  all_goals exact devRef_ne_of_ne (by decide)

abbrev seg15 : List (HloOp τ sig (Elt F)) :=
  [ unary main_v3 main_v126 ((extractStridedSlice S1 ![15] · slices_S24_S1_15) : (⟨S24, .f32⟩ : BufTy).Contents (Elt F) → (⟨S1, .f32⟩ : BufTy).Contents (Elt F)),
    reshape main_v126 main_v127 rfl shapeCasts_S1_S_,
    unary main_v4 main_v128 ((extractStridedSlice S1 ![15] · slices_S24_S1_15) : (⟨S24, .f32⟩ : BufTy).Contents (Elt F) → (⟨S1, .f32⟩ : BufTy).Contents (Elt F)),
    reshape main_v128 main_v129 rfl shapeCasts_S1_S_,
    unary main_v127 main_v130 (broadcastInDim S1 ![] bcast_S_S1 : (⟨S_, .f32⟩ : BufTy).Contents (Elt F) → (⟨S1, .f32⟩ : BufTy).Contents (Elt F)),
    unary main_v129 main_v131 (broadcastInDim S1 ![] bcast_S_S1 : (⟨S_, .f32⟩ : BufTy).Contents (Elt F) → (⟨S1, .f32⟩ : BufTy).Contents (Elt F)),
    binary main_v130 main_v131 main_v132 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S32768, .f32⟩) main_v125) (TRef.of (T := ⟨S32768x1, .f32⟩) main_call15_v0) (broadcastInDim S32768x1 ![0] bcast_S32768_S32768x1_0),
    TRef.unary (TRef.of (T := ⟨S2, .f32⟩) main_v132) (TRef.of (T := ⟨S1x2, .f32⟩) main_call15_v1) (broadcastInDim S1x2 ![1] bcast_S2_S1x2_1),
    TRef.unary (TRef.of (T := ⟨S32768x1, .f32⟩) main_call15_v0) (TRef.of (T := ⟨S32768x2, .f32⟩) main_call15_v2) (broadcastInDim S32768x2 ![0, 1] bcast_S32768x1_S32768x2_0_1),
    TRef.unary (TRef.of (T := ⟨S1x2, .f32⟩) main_call15_v1) (TRef.of (T := ⟨S32768x2, .f32⟩) main_call15_v3) (broadcastInDim S32768x2 ![0, 1] bcast_S1x2_S32768x2_0_1),
    TRef.binary (TRef.of (T := ⟨S32768x2, .f32⟩) main_call15_v2) (TRef.of (T := ⟨S32768x2, .f32⟩) main_call15_v3) (TRef.of (T := ⟨S32768x2, .f32⟩) main_call15_v4) mulf,
    TRef.reshape (TRef.of (T := ⟨S32768x2, .f32⟩) main_call15_v4) (TRef.of (T := ⟨S65536, .f32⟩) main_v133) rfl shapeCasts_S32768x2_S65536 ]
theorem seg15_sub : (seg15 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg15_fresh : (seg15 : List (HloOp τ sig (Elt F))).Forall fun op => op.fresh = ∅ :=
  ⟨rfl, rfl, rfl, rfl, rfl, rfl, rfl, rfl, rfl, rfl, rfl, rfl, rfl⟩
theorem seg15_args : (seg15 : List (HloOp τ sig (Elt F))).Forall fun op =>
    Proc.devRef .tc main_arg0 ∉ op.writes ∧ Proc.devRef .tc main_arg1 ∉ op.writes := by
  simp only [seg15, List.Forall, nullary_writes, unary_writes, binary_writes, ternary_writes, quaternary_writes,
    reshape_writes, binaryIndexed_writes, Finset.mem_singleton]
  repeat' apply And.intro
  all_goals exact devRef_ne_of_ne (by decide)

abbrev seg16 : List (HloOp τ sig (Elt F)) :=
  [ unary main_v3 main_v134 ((extractStridedSlice S1 ![16] · slices_S24_S1_16) : (⟨S24, .f32⟩ : BufTy).Contents (Elt F) → (⟨S1, .f32⟩ : BufTy).Contents (Elt F)),
    reshape main_v134 main_v135 rfl shapeCasts_S1_S_,
    unary main_v4 main_v136 ((extractStridedSlice S1 ![16] · slices_S24_S1_16) : (⟨S24, .f32⟩ : BufTy).Contents (Elt F) → (⟨S1, .f32⟩ : BufTy).Contents (Elt F)),
    reshape main_v136 main_v137 rfl shapeCasts_S1_S_,
    unary main_v135 main_v138 (broadcastInDim S1 ![] bcast_S_S1 : (⟨S_, .f32⟩ : BufTy).Contents (Elt F) → (⟨S1, .f32⟩ : BufTy).Contents (Elt F)),
    unary main_v137 main_v139 (broadcastInDim S1 ![] bcast_S_S1 : (⟨S_, .f32⟩ : BufTy).Contents (Elt F) → (⟨S1, .f32⟩ : BufTy).Contents (Elt F)),
    binary main_v138 main_v139 main_v140 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S65536, .f32⟩) main_v133) (TRef.of (T := ⟨S65536x1, .f32⟩) main_call16_v0) (broadcastInDim S65536x1 ![0] bcast_S65536_S65536x1_0),
    TRef.unary (TRef.of (T := ⟨S2, .f32⟩) main_v140) (TRef.of (T := ⟨S1x2, .f32⟩) main_call16_v1) (broadcastInDim S1x2 ![1] bcast_S2_S1x2_1),
    TRef.unary (TRef.of (T := ⟨S65536x1, .f32⟩) main_call16_v0) (TRef.of (T := ⟨S65536x2, .f32⟩) main_call16_v2) (broadcastInDim S65536x2 ![0, 1] bcast_S65536x1_S65536x2_0_1),
    TRef.unary (TRef.of (T := ⟨S1x2, .f32⟩) main_call16_v1) (TRef.of (T := ⟨S65536x2, .f32⟩) main_call16_v3) (broadcastInDim S65536x2 ![0, 1] bcast_S1x2_S65536x2_0_1),
    TRef.binary (TRef.of (T := ⟨S65536x2, .f32⟩) main_call16_v2) (TRef.of (T := ⟨S65536x2, .f32⟩) main_call16_v3) (TRef.of (T := ⟨S65536x2, .f32⟩) main_call16_v4) mulf,
    TRef.reshape (TRef.of (T := ⟨S65536x2, .f32⟩) main_call16_v4) (TRef.of (T := ⟨S131072, .f32⟩) main_v141) rfl shapeCasts_S65536x2_S131072 ]
theorem seg16_sub : (seg16 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg16_fresh : (seg16 : List (HloOp τ sig (Elt F))).Forall fun op => op.fresh = ∅ :=
  ⟨rfl, rfl, rfl, rfl, rfl, rfl, rfl, rfl, rfl, rfl, rfl, rfl, rfl⟩
theorem seg16_args : (seg16 : List (HloOp τ sig (Elt F))).Forall fun op =>
    Proc.devRef .tc main_arg0 ∉ op.writes ∧ Proc.devRef .tc main_arg1 ∉ op.writes := by
  simp only [seg16, List.Forall, nullary_writes, unary_writes, binary_writes, ternary_writes, quaternary_writes,
    reshape_writes, binaryIndexed_writes, Finset.mem_singleton]
  repeat' apply And.intro
  all_goals exact devRef_ne_of_ne (by decide)

abbrev seg17 : List (HloOp τ sig (Elt F)) :=
  [ unary main_v3 main_v142 ((extractStridedSlice S1 ![17] · slices_S24_S1_17) : (⟨S24, .f32⟩ : BufTy).Contents (Elt F) → (⟨S1, .f32⟩ : BufTy).Contents (Elt F)),
    reshape main_v142 main_v143 rfl shapeCasts_S1_S_,
    unary main_v4 main_v144 ((extractStridedSlice S1 ![17] · slices_S24_S1_17) : (⟨S24, .f32⟩ : BufTy).Contents (Elt F) → (⟨S1, .f32⟩ : BufTy).Contents (Elt F)),
    reshape main_v144 main_v145 rfl shapeCasts_S1_S_,
    unary main_v143 main_v146 (broadcastInDim S1 ![] bcast_S_S1 : (⟨S_, .f32⟩ : BufTy).Contents (Elt F) → (⟨S1, .f32⟩ : BufTy).Contents (Elt F)),
    unary main_v145 main_v147 (broadcastInDim S1 ![] bcast_S_S1 : (⟨S_, .f32⟩ : BufTy).Contents (Elt F) → (⟨S1, .f32⟩ : BufTy).Contents (Elt F)),
    binary main_v146 main_v147 main_v148 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S131072, .f32⟩) main_v141) (TRef.of (T := ⟨S131072x1, .f32⟩) main_call17_v0) (broadcastInDim S131072x1 ![0] bcast_S131072_S131072x1_0),
    TRef.unary (TRef.of (T := ⟨S2, .f32⟩) main_v148) (TRef.of (T := ⟨S1x2, .f32⟩) main_call17_v1) (broadcastInDim S1x2 ![1] bcast_S2_S1x2_1),
    TRef.unary (TRef.of (T := ⟨S131072x1, .f32⟩) main_call17_v0) (TRef.of (T := ⟨S131072x2, .f32⟩) main_call17_v2) (broadcastInDim S131072x2 ![0, 1] bcast_S131072x1_S131072x2_0_1),
    TRef.unary (TRef.of (T := ⟨S1x2, .f32⟩) main_call17_v1) (TRef.of (T := ⟨S131072x2, .f32⟩) main_call17_v3) (broadcastInDim S131072x2 ![0, 1] bcast_S1x2_S131072x2_0_1),
    TRef.binary (TRef.of (T := ⟨S131072x2, .f32⟩) main_call17_v2) (TRef.of (T := ⟨S131072x2, .f32⟩) main_call17_v3) (TRef.of (T := ⟨S131072x2, .f32⟩) main_call17_v4) mulf,
    TRef.reshape (TRef.of (T := ⟨S131072x2, .f32⟩) main_call17_v4) (TRef.of (T := ⟨S262144, .f32⟩) main_v149) rfl shapeCasts_S131072x2_S262144 ]
theorem seg17_sub : (seg17 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg17_fresh : (seg17 : List (HloOp τ sig (Elt F))).Forall fun op => op.fresh = ∅ :=
  ⟨rfl, rfl, rfl, rfl, rfl, rfl, rfl, rfl, rfl, rfl, rfl, rfl, rfl⟩
theorem seg17_args : (seg17 : List (HloOp τ sig (Elt F))).Forall fun op =>
    Proc.devRef .tc main_arg0 ∉ op.writes ∧ Proc.devRef .tc main_arg1 ∉ op.writes := by
  simp only [seg17, List.Forall, nullary_writes, unary_writes, binary_writes, ternary_writes, quaternary_writes,
    reshape_writes, binaryIndexed_writes, Finset.mem_singleton]
  repeat' apply And.intro
  all_goals exact devRef_ne_of_ne (by decide)

abbrev seg18 : List (HloOp τ sig (Elt F)) :=
  [ unary main_v3 main_v150 ((extractStridedSlice S1 ![18] · slices_S24_S1_18) : (⟨S24, .f32⟩ : BufTy).Contents (Elt F) → (⟨S1, .f32⟩ : BufTy).Contents (Elt F)),
    reshape main_v150 main_v151 rfl shapeCasts_S1_S_,
    unary main_v4 main_v152 ((extractStridedSlice S1 ![18] · slices_S24_S1_18) : (⟨S24, .f32⟩ : BufTy).Contents (Elt F) → (⟨S1, .f32⟩ : BufTy).Contents (Elt F)),
    reshape main_v152 main_v153 rfl shapeCasts_S1_S_,
    unary main_v151 main_v154 (broadcastInDim S1 ![] bcast_S_S1 : (⟨S_, .f32⟩ : BufTy).Contents (Elt F) → (⟨S1, .f32⟩ : BufTy).Contents (Elt F)),
    unary main_v153 main_v155 (broadcastInDim S1 ![] bcast_S_S1 : (⟨S_, .f32⟩ : BufTy).Contents (Elt F) → (⟨S1, .f32⟩ : BufTy).Contents (Elt F)),
    binary main_v154 main_v155 main_v156 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S262144, .f32⟩) main_v149) (TRef.of (T := ⟨S262144x1, .f32⟩) main_call18_v0) (broadcastInDim S262144x1 ![0] bcast_S262144_S262144x1_0),
    TRef.unary (TRef.of (T := ⟨S2, .f32⟩) main_v156) (TRef.of (T := ⟨S1x2, .f32⟩) main_call18_v1) (broadcastInDim S1x2 ![1] bcast_S2_S1x2_1),
    TRef.unary (TRef.of (T := ⟨S262144x1, .f32⟩) main_call18_v0) (TRef.of (T := ⟨S262144x2, .f32⟩) main_call18_v2) (broadcastInDim S262144x2 ![0, 1] bcast_S262144x1_S262144x2_0_1),
    TRef.unary (TRef.of (T := ⟨S1x2, .f32⟩) main_call18_v1) (TRef.of (T := ⟨S262144x2, .f32⟩) main_call18_v3) (broadcastInDim S262144x2 ![0, 1] bcast_S1x2_S262144x2_0_1),
    TRef.binary (TRef.of (T := ⟨S262144x2, .f32⟩) main_call18_v2) (TRef.of (T := ⟨S262144x2, .f32⟩) main_call18_v3) (TRef.of (T := ⟨S262144x2, .f32⟩) main_call18_v4) mulf,
    TRef.reshape (TRef.of (T := ⟨S262144x2, .f32⟩) main_call18_v4) (TRef.of (T := ⟨S524288, .f32⟩) main_v157) rfl shapeCasts_S262144x2_S524288 ]
theorem seg18_sub : (seg18 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg18_fresh : (seg18 : List (HloOp τ sig (Elt F))).Forall fun op => op.fresh = ∅ :=
  ⟨rfl, rfl, rfl, rfl, rfl, rfl, rfl, rfl, rfl, rfl, rfl, rfl, rfl⟩
theorem seg18_args : (seg18 : List (HloOp τ sig (Elt F))).Forall fun op =>
    Proc.devRef .tc main_arg0 ∉ op.writes ∧ Proc.devRef .tc main_arg1 ∉ op.writes := by
  simp only [seg18, List.Forall, nullary_writes, unary_writes, binary_writes, ternary_writes, quaternary_writes,
    reshape_writes, binaryIndexed_writes, Finset.mem_singleton]
  repeat' apply And.intro
  all_goals exact devRef_ne_of_ne (by decide)

abbrev seg19 : List (HloOp τ sig (Elt F)) :=
  [ unary main_v3 main_v158 ((extractStridedSlice S1 ![19] · slices_S24_S1_19) : (⟨S24, .f32⟩ : BufTy).Contents (Elt F) → (⟨S1, .f32⟩ : BufTy).Contents (Elt F)),
    reshape main_v158 main_v159 rfl shapeCasts_S1_S_,
    unary main_v4 main_v160 ((extractStridedSlice S1 ![19] · slices_S24_S1_19) : (⟨S24, .f32⟩ : BufTy).Contents (Elt F) → (⟨S1, .f32⟩ : BufTy).Contents (Elt F)),
    reshape main_v160 main_v161 rfl shapeCasts_S1_S_,
    unary main_v159 main_v162 (broadcastInDim S1 ![] bcast_S_S1 : (⟨S_, .f32⟩ : BufTy).Contents (Elt F) → (⟨S1, .f32⟩ : BufTy).Contents (Elt F)),
    unary main_v161 main_v163 (broadcastInDim S1 ![] bcast_S_S1 : (⟨S_, .f32⟩ : BufTy).Contents (Elt F) → (⟨S1, .f32⟩ : BufTy).Contents (Elt F)),
    binary main_v162 main_v163 main_v164 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S524288, .f32⟩) main_v157) (TRef.of (T := ⟨S524288x1, .f32⟩) main_call19_v0) (broadcastInDim S524288x1 ![0] bcast_S524288_S524288x1_0),
    TRef.unary (TRef.of (T := ⟨S2, .f32⟩) main_v164) (TRef.of (T := ⟨S1x2, .f32⟩) main_call19_v1) (broadcastInDim S1x2 ![1] bcast_S2_S1x2_1),
    TRef.unary (TRef.of (T := ⟨S524288x1, .f32⟩) main_call19_v0) (TRef.of (T := ⟨S524288x2, .f32⟩) main_call19_v2) (broadcastInDim S524288x2 ![0, 1] bcast_S524288x1_S524288x2_0_1),
    TRef.unary (TRef.of (T := ⟨S1x2, .f32⟩) main_call19_v1) (TRef.of (T := ⟨S524288x2, .f32⟩) main_call19_v3) (broadcastInDim S524288x2 ![0, 1] bcast_S1x2_S524288x2_0_1),
    TRef.binary (TRef.of (T := ⟨S524288x2, .f32⟩) main_call19_v2) (TRef.of (T := ⟨S524288x2, .f32⟩) main_call19_v3) (TRef.of (T := ⟨S524288x2, .f32⟩) main_call19_v4) mulf,
    TRef.reshape (TRef.of (T := ⟨S524288x2, .f32⟩) main_call19_v4) (TRef.of (T := ⟨S1048576, .f32⟩) main_v165) rfl shapeCasts_S524288x2_S1048576 ]
theorem seg19_sub : (seg19 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg19_fresh : (seg19 : List (HloOp τ sig (Elt F))).Forall fun op => op.fresh = ∅ :=
  ⟨rfl, rfl, rfl, rfl, rfl, rfl, rfl, rfl, rfl, rfl, rfl, rfl, rfl⟩
theorem seg19_args : (seg19 : List (HloOp τ sig (Elt F))).Forall fun op =>
    Proc.devRef .tc main_arg0 ∉ op.writes ∧ Proc.devRef .tc main_arg1 ∉ op.writes := by
  simp only [seg19, List.Forall, nullary_writes, unary_writes, binary_writes, ternary_writes, quaternary_writes,
    reshape_writes, binaryIndexed_writes, Finset.mem_singleton]
  repeat' apply And.intro
  all_goals exact devRef_ne_of_ne (by decide)

abbrev seg20 : List (HloOp τ sig (Elt F)) :=
  [ unary main_v3 main_v166 ((extractStridedSlice S1 ![20] · slices_S24_S1_20) : (⟨S24, .f32⟩ : BufTy).Contents (Elt F) → (⟨S1, .f32⟩ : BufTy).Contents (Elt F)),
    reshape main_v166 main_v167 rfl shapeCasts_S1_S_,
    unary main_v4 main_v168 ((extractStridedSlice S1 ![20] · slices_S24_S1_20) : (⟨S24, .f32⟩ : BufTy).Contents (Elt F) → (⟨S1, .f32⟩ : BufTy).Contents (Elt F)),
    reshape main_v168 main_v169 rfl shapeCasts_S1_S_,
    unary main_v167 main_v170 (broadcastInDim S1 ![] bcast_S_S1 : (⟨S_, .f32⟩ : BufTy).Contents (Elt F) → (⟨S1, .f32⟩ : BufTy).Contents (Elt F)),
    unary main_v169 main_v171 (broadcastInDim S1 ![] bcast_S_S1 : (⟨S_, .f32⟩ : BufTy).Contents (Elt F) → (⟨S1, .f32⟩ : BufTy).Contents (Elt F)),
    binary main_v170 main_v171 main_v172 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S1048576, .f32⟩) main_v165) (TRef.of (T := ⟨S1048576x1, .f32⟩) main_call20_v0) (broadcastInDim S1048576x1 ![0] bcast_S1048576_S1048576x1_0),
    TRef.unary (TRef.of (T := ⟨S2, .f32⟩) main_v172) (TRef.of (T := ⟨S1x2, .f32⟩) main_call20_v1) (broadcastInDim S1x2 ![1] bcast_S2_S1x2_1),
    TRef.unary (TRef.of (T := ⟨S1048576x1, .f32⟩) main_call20_v0) (TRef.of (T := ⟨S1048576x2, .f32⟩) main_call20_v2) (broadcastInDim S1048576x2 ![0, 1] bcast_S1048576x1_S1048576x2_0_1),
    TRef.unary (TRef.of (T := ⟨S1x2, .f32⟩) main_call20_v1) (TRef.of (T := ⟨S1048576x2, .f32⟩) main_call20_v3) (broadcastInDim S1048576x2 ![0, 1] bcast_S1x2_S1048576x2_0_1),
    TRef.binary (TRef.of (T := ⟨S1048576x2, .f32⟩) main_call20_v2) (TRef.of (T := ⟨S1048576x2, .f32⟩) main_call20_v3) (TRef.of (T := ⟨S1048576x2, .f32⟩) main_call20_v4) mulf,
    TRef.reshape (TRef.of (T := ⟨S1048576x2, .f32⟩) main_call20_v4) (TRef.of (T := ⟨S2097152, .f32⟩) main_v173) rfl shapeCasts_S1048576x2_S2097152 ]
theorem seg20_sub : (seg20 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg20_fresh : (seg20 : List (HloOp τ sig (Elt F))).Forall fun op => op.fresh = ∅ :=
  ⟨rfl, rfl, rfl, rfl, rfl, rfl, rfl, rfl, rfl, rfl, rfl, rfl, rfl⟩
theorem seg20_args : (seg20 : List (HloOp τ sig (Elt F))).Forall fun op =>
    Proc.devRef .tc main_arg0 ∉ op.writes ∧ Proc.devRef .tc main_arg1 ∉ op.writes := by
  simp only [seg20, List.Forall, nullary_writes, unary_writes, binary_writes, ternary_writes, quaternary_writes,
    reshape_writes, binaryIndexed_writes, Finset.mem_singleton]
  repeat' apply And.intro
  all_goals exact devRef_ne_of_ne (by decide)

abbrev seg21a : List (HloOp τ sig (Elt F)) :=
  [ unary main_v3 main_v174 ((extractStridedSlice S1 ![21] · slices_S24_S1_21) : (⟨S24, .f32⟩ : BufTy).Contents (Elt F) → (⟨S1, .f32⟩ : BufTy).Contents (Elt F)),
    reshape main_v174 main_v175 rfl shapeCasts_S1_S_,
    unary main_v4 main_v176 ((extractStridedSlice S1 ![21] · slices_S24_S1_21) : (⟨S24, .f32⟩ : BufTy).Contents (Elt F) → (⟨S1, .f32⟩ : BufTy).Contents (Elt F)),
    reshape main_v176 main_v177 rfl shapeCasts_S1_S_ ]
theorem seg21a_sub : (seg21a : List (HloOp τ sig (Elt F))).Forall fun op => op.bufs ⊆ tcRefs τ sig :=
  ⟨unary_bufs_sub .., reshape_bufs_sub .., unary_bufs_sub .., reshape_bufs_sub ..⟩
theorem seg21a_fresh : (seg21a : List (HloOp τ sig (Elt F))).Forall fun op => op.fresh = ∅ :=
  ⟨rfl, rfl, rfl, rfl⟩
theorem seg21a_args : (seg21a : List (HloOp τ sig (Elt F))).Forall fun op =>
    Proc.devRef .tc main_arg0 ∉ op.writes ∧ Proc.devRef .tc main_arg1 ∉ op.writes := by
  simp only [seg21a, List.Forall, nullary_writes, unary_writes, binary_writes, ternary_writes, quaternary_writes,
    reshape_writes, binaryIndexed_writes, Finset.mem_singleton]
  repeat' apply And.intro
  all_goals exact devRef_ne_of_ne (by decide)

abbrev seg21b : List (HloOp τ sig (Elt F)) :=
  [ unary main_v175 main_v178 (broadcastInDim S1 ![] bcast_S_S1 : (⟨S_, .f32⟩ : BufTy).Contents (Elt F) → (⟨S1, .f32⟩ : BufTy).Contents (Elt F)),
    unary main_v177 main_v179 (broadcastInDim S1 ![] bcast_S_S1 : (⟨S_, .f32⟩ : BufTy).Contents (Elt F) → (⟨S1, .f32⟩ : BufTy).Contents (Elt F)),
    binary main_v178 main_v179 main_v180 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S2097152, .f32⟩) main_v173) (TRef.of (T := ⟨S2097152x1, .f32⟩) main_call21_v0) (broadcastInDim S2097152x1 ![0] bcast_S2097152_S2097152x1_0),
    TRef.unary (TRef.of (T := ⟨S2, .f32⟩) main_v180) (TRef.of (T := ⟨S1x2, .f32⟩) main_call21_v1) (broadcastInDim S1x2 ![1] bcast_S2_S1x2_1),
    TRef.unary (TRef.of (T := ⟨S2097152x1, .f32⟩) main_call21_v0) (TRef.of (T := ⟨S2097152x2, .f32⟩) main_call21_v2) (broadcastInDim S2097152x2 ![0, 1] bcast_S2097152x1_S2097152x2_0_1),
    TRef.unary (TRef.of (T := ⟨S1x2, .f32⟩) main_call21_v1) (TRef.of (T := ⟨S2097152x2, .f32⟩) main_call21_v3) (broadcastInDim S2097152x2 ![0, 1] bcast_S1x2_S2097152x2_0_1),
    TRef.binary (TRef.of (T := ⟨S2097152x2, .f32⟩) main_call21_v2) (TRef.of (T := ⟨S2097152x2, .f32⟩) main_call21_v3) (TRef.of (T := ⟨S2097152x2, .f32⟩) main_call21_v4) mulf,
    TRef.reshape (TRef.of (T := ⟨S2097152x2, .f32⟩) main_call21_v4) (TRef.of (T := ⟨S4194304, .f32⟩) main_v181) rfl shapeCasts_S2097152x2_S4194304 ]
theorem seg21b_sub : (seg21b : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., binary_bufs_sub .., reshape_bufs_sub ..⟩
theorem seg21b_fresh : (seg21b : List (HloOp τ sig (Elt F))).Forall fun op => op.fresh = ∅ :=
  ⟨rfl, rfl, rfl, rfl, rfl, rfl, rfl, rfl, rfl⟩
theorem seg21b_args : (seg21b : List (HloOp τ sig (Elt F))).Forall fun op =>
    Proc.devRef .tc main_arg0 ∉ op.writes ∧ Proc.devRef .tc main_arg1 ∉ op.writes := by
  simp only [seg21b, List.Forall, nullary_writes, unary_writes, binary_writes, ternary_writes, quaternary_writes,
    reshape_writes, binaryIndexed_writes, Finset.mem_singleton]
  repeat' apply And.intro
  all_goals exact devRef_ne_of_ne (by decide)

abbrev seg22 : List (HloOp τ sig (Elt F)) :=
  [ unary main_v3 main_v182 ((extractStridedSlice S1 ![22] · slices_S24_S1_22) : (⟨S24, .f32⟩ : BufTy).Contents (Elt F) → (⟨S1, .f32⟩ : BufTy).Contents (Elt F)),
    reshape main_v182 main_v183 rfl shapeCasts_S1_S_,
    unary main_v4 main_v184 ((extractStridedSlice S1 ![22] · slices_S24_S1_22) : (⟨S24, .f32⟩ : BufTy).Contents (Elt F) → (⟨S1, .f32⟩ : BufTy).Contents (Elt F)),
    reshape main_v184 main_v185 rfl shapeCasts_S1_S_,
    unary main_v183 main_v186 (broadcastInDim S1 ![] bcast_S_S1 : (⟨S_, .f32⟩ : BufTy).Contents (Elt F) → (⟨S1, .f32⟩ : BufTy).Contents (Elt F)),
    unary main_v185 main_v187 (broadcastInDim S1 ![] bcast_S_S1 : (⟨S_, .f32⟩ : BufTy).Contents (Elt F) → (⟨S1, .f32⟩ : BufTy).Contents (Elt F)),
    binary main_v186 main_v187 main_v188 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S4194304, .f32⟩) main_v181) (TRef.of (T := ⟨S4194304x1, .f32⟩) main_call22_v0) (broadcastInDim S4194304x1 ![0] bcast_S4194304_S4194304x1_0),
    TRef.unary (TRef.of (T := ⟨S2, .f32⟩) main_v188) (TRef.of (T := ⟨S1x2, .f32⟩) main_call22_v1) (broadcastInDim S1x2 ![1] bcast_S2_S1x2_1),
    TRef.unary (TRef.of (T := ⟨S4194304x1, .f32⟩) main_call22_v0) (TRef.of (T := ⟨S4194304x2, .f32⟩) main_call22_v2) (broadcastInDim S4194304x2 ![0, 1] bcast_S4194304x1_S4194304x2_0_1),
    TRef.unary (TRef.of (T := ⟨S1x2, .f32⟩) main_call22_v1) (TRef.of (T := ⟨S4194304x2, .f32⟩) main_call22_v3) (broadcastInDim S4194304x2 ![0, 1] bcast_S1x2_S4194304x2_0_1),
    TRef.binary (TRef.of (T := ⟨S4194304x2, .f32⟩) main_call22_v2) (TRef.of (T := ⟨S4194304x2, .f32⟩) main_call22_v3) (TRef.of (T := ⟨S4194304x2, .f32⟩) main_call22_v4) mulf,
    TRef.reshape (TRef.of (T := ⟨S4194304x2, .f32⟩) main_call22_v4) (TRef.of (T := ⟨S8388608, .f32⟩) main_v189) rfl shapeCasts_S4194304x2_S8388608 ]
theorem seg22_sub : (seg22 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg22_fresh : (seg22 : List (HloOp τ sig (Elt F))).Forall fun op => op.fresh = ∅ :=
  ⟨rfl, rfl, rfl, rfl, rfl, rfl, rfl, rfl, rfl, rfl, rfl, rfl, rfl⟩
theorem seg22_args : (seg22 : List (HloOp τ sig (Elt F))).Forall fun op =>
    Proc.devRef .tc main_arg0 ∉ op.writes ∧ Proc.devRef .tc main_arg1 ∉ op.writes := by
  simp only [seg22, List.Forall, nullary_writes, unary_writes, binary_writes, ternary_writes, quaternary_writes,
    reshape_writes, binaryIndexed_writes, Finset.mem_singleton]
  repeat' apply And.intro
  all_goals exact devRef_ne_of_ne (by decide)

abbrev seg23 : List (HloOp τ sig (Elt F)) :=
  [ unary main_v3 main_v190 ((extractStridedSlice S1 ![23] · slices_S24_S1_23) : (⟨S24, .f32⟩ : BufTy).Contents (Elt F) → (⟨S1, .f32⟩ : BufTy).Contents (Elt F)),
    reshape main_v190 main_v191 rfl shapeCasts_S1_S_,
    unary main_v4 main_v192 ((extractStridedSlice S1 ![23] · slices_S24_S1_23) : (⟨S24, .f32⟩ : BufTy).Contents (Elt F) → (⟨S1, .f32⟩ : BufTy).Contents (Elt F)),
    reshape main_v192 main_v193 rfl shapeCasts_S1_S_,
    unary main_v191 main_v194 (broadcastInDim S1 ![] bcast_S_S1 : (⟨S_, .f32⟩ : BufTy).Contents (Elt F) → (⟨S1, .f32⟩ : BufTy).Contents (Elt F)),
    unary main_v193 main_v195 (broadcastInDim S1 ![] bcast_S_S1 : (⟨S_, .f32⟩ : BufTy).Contents (Elt F) → (⟨S1, .f32⟩ : BufTy).Contents (Elt F)),
    binary main_v194 main_v195 main_v196 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    TRef.unary (TRef.of (T := ⟨S8388608, .f32⟩) main_v189) (TRef.of (T := ⟨S8388608x1, .f32⟩) main_call23_v0) (broadcastInDim S8388608x1 ![0] bcast_S8388608_S8388608x1_0),
    TRef.unary (TRef.of (T := ⟨S2, .f32⟩) main_v196) (TRef.of (T := ⟨S1x2, .f32⟩) main_call23_v1) (broadcastInDim S1x2 ![1] bcast_S2_S1x2_1),
    TRef.unary (TRef.of (T := ⟨S8388608x1, .f32⟩) main_call23_v0) (TRef.of (T := ⟨S8388608x2, .f32⟩) main_call23_v2) (broadcastInDim S8388608x2 ![0, 1] bcast_S8388608x1_S8388608x2_0_1),
    TRef.unary (TRef.of (T := ⟨S1x2, .f32⟩) main_call23_v1) (TRef.of (T := ⟨S8388608x2, .f32⟩) main_call23_v3) (broadcastInDim S8388608x2 ![0, 1] bcast_S1x2_S8388608x2_0_1),
    TRef.binary (TRef.of (T := ⟨S8388608x2, .f32⟩) main_call23_v2) (TRef.of (T := ⟨S8388608x2, .f32⟩) main_call23_v3) (TRef.of (T := ⟨S8388608x2, .f32⟩) main_call23_v4) mulf,
    TRef.reshape (TRef.of (T := ⟨S8388608x2, .f32⟩) main_call23_v4) (TRef.of (T := ⟨S16777216, .f32⟩) main_v197) rfl shapeCasts_S8388608x2_S16777216 ]
theorem seg23_sub : (seg23 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub ..⟩
theorem seg23_fresh : (seg23 : List (HloOp τ sig (Elt F))).Forall fun op => op.fresh = ∅ :=
  ⟨rfl, rfl, rfl, rfl, rfl, rfl, rfl, rfl, rfl, rfl, rfl, rfl, rfl⟩
theorem seg23_args : (seg23 : List (HloOp τ sig (Elt F))).Forall fun op =>
    Proc.devRef .tc main_arg0 ∉ op.writes ∧ Proc.devRef .tc main_arg1 ∉ op.writes := by
  simp only [seg23, List.Forall, nullary_writes, unary_writes, binary_writes, ternary_writes, quaternary_writes,
    reshape_writes, binaryIndexed_writes, Finset.mem_singleton]
  repeat' apply And.intro
  all_goals exact devRef_ne_of_ne (by decide)

abbrev segAbs : List (HloOp τ sig (Elt F)) :=
  [ unary main_v197 main_v198 (Host.absf : (⟨S16777216, .f32⟩ : BufTy).Contents (Elt F) → (⟨S16777216, .f32⟩ : BufTy).Contents (Elt F)) ]
theorem segAbs_sub : (segAbs : List (HloOp τ sig (Elt F))).Forall fun op => op.bufs ⊆ tcRefs τ sig :=
  unary_bufs_sub ..
theorem segAbs_fresh : (segAbs : List (HloOp τ sig (Elt F))).Forall fun op => op.fresh = ∅ :=
  rfl
theorem segAbs_args : (segAbs : List (HloOp τ sig (Elt F))).Forall fun op =>
    Proc.devRef .tc main_arg0 ∉ op.writes ∧ Proc.devRef .tc main_arg1 ∉ op.writes := by
  simp only [segAbs, List.Forall, nullary_writes, unary_writes, binary_writes, ternary_writes, quaternary_writes,
    reshape_writes, binaryIndexed_writes, Finset.mem_singleton]
  repeat' apply And.intro
  all_goals exact devRef_ne_of_ne (by decide)

/-! ## @main's windows and the whole line -/

abbrev win0 : List (HloOp τ sig (Elt F)) := segPre ++ (seg0 ++ (seg1 ++ (seg2 ++ (seg3 ++ (seg4 ++ (seg5 ++ (seg6a)))))))
theorem win0_sub : (win0 : List (HloOp τ sig (Elt F))).Forall fun op => op.bufs ⊆ tcRefs τ sig := by
  simp only [win0, List.forall_append]
  exact ⟨segPre_sub, seg0_sub, seg1_sub, seg2_sub, seg3_sub, seg4_sub, seg5_sub, seg6a_sub⟩
theorem win0_fresh : (win0 : List (HloOp τ sig (Elt F))).Forall fun op => op.fresh = ∅ := by
  simp only [win0, List.forall_append]
  exact ⟨segPre_fresh, seg0_fresh, seg1_fresh, seg2_fresh, seg3_fresh, seg4_fresh, seg5_fresh, seg6a_fresh⟩
theorem win0_args : (win0 : List (HloOp τ sig (Elt F))).Forall fun op =>
    Proc.devRef .tc main_arg0 ∉ op.writes ∧ Proc.devRef .tc main_arg1 ∉ op.writes := by
  simp only [win0, List.forall_append]
  exact ⟨segPre_args, seg0_args, seg1_args, seg2_args, seg3_args, seg4_args, seg5_args, seg6a_args⟩
set_option maxRecDepth 8192 in
set_option maxHeartbeats 4000000 in
theorem main_part0_eq (c : Dev nD) : main_part0 (F := F) c = seq win0 := rfl

abbrev win1 : List (HloOp τ sig (Elt F)) := seg6b ++ (seg7 ++ (seg8 ++ (seg9 ++ (seg10 ++ (seg11 ++ (seg12 ++ (seg13)))))))
theorem win1_sub : (win1 : List (HloOp τ sig (Elt F))).Forall fun op => op.bufs ⊆ tcRefs τ sig := by
  simp only [win1, List.forall_append]
  exact ⟨seg6b_sub, seg7_sub, seg8_sub, seg9_sub, seg10_sub, seg11_sub, seg12_sub, seg13_sub⟩
theorem win1_fresh : (win1 : List (HloOp τ sig (Elt F))).Forall fun op => op.fresh = ∅ := by
  simp only [win1, List.forall_append]
  exact ⟨seg6b_fresh, seg7_fresh, seg8_fresh, seg9_fresh, seg10_fresh, seg11_fresh, seg12_fresh, seg13_fresh⟩
theorem win1_args : (win1 : List (HloOp τ sig (Elt F))).Forall fun op =>
    Proc.devRef .tc main_arg0 ∉ op.writes ∧ Proc.devRef .tc main_arg1 ∉ op.writes := by
  simp only [win1, List.forall_append]
  exact ⟨seg6b_args, seg7_args, seg8_args, seg9_args, seg10_args, seg11_args, seg12_args, seg13_args⟩
set_option maxRecDepth 8192 in
set_option maxHeartbeats 4000000 in
theorem main_part1_eq (c : Dev nD) : main_part1 (F := F) c = seq win1 := rfl

abbrev win2 : List (HloOp τ sig (Elt F)) := seg14 ++ (seg15 ++ (seg16 ++ (seg17 ++ (seg18 ++ (seg19 ++ (seg20 ++ (seg21a)))))))
theorem win2_sub : (win2 : List (HloOp τ sig (Elt F))).Forall fun op => op.bufs ⊆ tcRefs τ sig := by
  simp only [win2, List.forall_append]
  exact ⟨seg14_sub, seg15_sub, seg16_sub, seg17_sub, seg18_sub, seg19_sub, seg20_sub, seg21a_sub⟩
theorem win2_fresh : (win2 : List (HloOp τ sig (Elt F))).Forall fun op => op.fresh = ∅ := by
  simp only [win2, List.forall_append]
  exact ⟨seg14_fresh, seg15_fresh, seg16_fresh, seg17_fresh, seg18_fresh, seg19_fresh, seg20_fresh, seg21a_fresh⟩
theorem win2_args : (win2 : List (HloOp τ sig (Elt F))).Forall fun op =>
    Proc.devRef .tc main_arg0 ∉ op.writes ∧ Proc.devRef .tc main_arg1 ∉ op.writes := by
  simp only [win2, List.forall_append]
  exact ⟨seg14_args, seg15_args, seg16_args, seg17_args, seg18_args, seg19_args, seg20_args, seg21a_args⟩
set_option maxRecDepth 8192 in
set_option maxHeartbeats 4000000 in
theorem main_part2_eq (c : Dev nD) : main_part2 (F := F) c = seq win2 := rfl

abbrev win3 : List (HloOp τ sig (Elt F)) := seg21b ++ (seg22 ++ (seg23 ++ (segAbs)))
theorem win3_sub : (win3 : List (HloOp τ sig (Elt F))).Forall fun op => op.bufs ⊆ tcRefs τ sig := by
  simp only [win3, List.forall_append]
  exact ⟨seg21b_sub, seg22_sub, seg23_sub, segAbs_sub⟩
theorem win3_fresh : (win3 : List (HloOp τ sig (Elt F))).Forall fun op => op.fresh = ∅ := by
  simp only [win3, List.forall_append]
  exact ⟨seg21b_fresh, seg22_fresh, seg23_fresh, segAbs_fresh⟩
theorem win3_args : (win3 : List (HloOp τ sig (Elt F))).Forall fun op =>
    Proc.devRef .tc main_arg0 ∉ op.writes ∧ Proc.devRef .tc main_arg1 ∉ op.writes := by
  simp only [win3, List.forall_append]
  exact ⟨seg21b_args, seg22_args, seg23_args, segAbs_args⟩
set_option maxRecDepth 8192 in
set_option maxHeartbeats 4000000 in
theorem main_part3_eq (c : Dev nD) : main_part3 (F := F) c = seq win3 := rfl

/-- @main's 320 operations, in order. -/
abbrev ops : List (HloOp τ sig (Elt F)) := win0 ++ (win1 ++ (win2 ++ win3))

theorem ops_sub : (ops : List (HloOp τ sig (Elt F))).Forall fun op => op.bufs ⊆ tcRefs τ sig :=
  List.forall_append.mpr ⟨win0_sub, List.forall_append.mpr ⟨win1_sub, List.forall_append.mpr ⟨win2_sub, win3_sub⟩⟩⟩
theorem ops_fresh : (ops : List (HloOp τ sig (Elt F))).Forall fun op => op.fresh = ∅ :=
  List.forall_append.mpr ⟨win0_fresh, List.forall_append.mpr ⟨win1_fresh, List.forall_append.mpr ⟨win2_fresh, win3_fresh⟩⟩⟩
/-- No operation writes an argument. -/
theorem ops_args : (ops : List (HloOp τ sig (Elt F))).Forall fun op =>
    Proc.devRef .tc main_arg0 ∉ op.writes ∧ Proc.devRef .tc main_arg1 ∉ op.writes :=
  List.forall_append.mpr ⟨win0_args, List.forall_append.mpr ⟨win1_args, List.forall_append.mpr ⟨win2_args, win3_args⟩⟩⟩

/-- @main is its windows run in order, each the line of its own operations: the whole line run as one. -/
theorem main_eq (c : Dev nD) : main (F := F) c = seq ops := by
  have e : main (F := F) c = (main_part0 c >>= fun _ => main_part1 c >>= fun _ => main_part2 c >>= fun _ => main_part3 c) := rfl
  rw [e, main_part0_eq, main_part1_eq, main_part2_eq, main_part3_eq, ← seq_append, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with each
    TensorCore buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    (hfresh := fun _ => List.forall_iff_forall_mem.mp ops_fresh)

end Cert.ReferenceIdeal.RefRun

end
-- ==== Proof.KronStep.lean ====
/-
  One step of a Kronecker product with a two-vector, as the operations a reference spells it with, read at an index.

  `kron a v` for a vector `a` of `n` entries and a two-vector `v` is spelt: `a` as a column `[n, 1]`, `v` as a row
  `[1, 2]`, both broadcast to `[n, 2]`, multiplied entry by entry, and the `[n, 2]` product re-read flat as `[2 n]`.
  Entry `i` of the result is `a (i / 2) · v (i % 2)` (`kronOp_apply`; for `n = 1` the row needs no broadcast:
  `kronOp1_apply`).  The two-vector of a wire is its cosine and its sine, each cut out of a 24-vector, made a scalar,
  made a one-element vector again, and the two joined (`pairOp_apply`).
-/
import Idealize.ShloMosaic.Lib.Pipeline.Value
import Idealize.ShloMosaic.Lib.ValueIdx
import proofs.«143588_j65481071403967_2_alg».proof.Proof.KronLayout

noncomputable section

namespace KronStep

open Idealize.ShloMosaic Idealize.ShloMosaic.ValueIdx KronLayout

/-- The Kronecker step's operations, for `n` entries. -/
def kronOp (n n2 : ℕ)
    (hb0 : (⟨1, ![n]⟩ : Shape).BroadcastsInDim ⟨2, ![n, 1]⟩ ![0])
    (hb1 : (⟨1, ![2]⟩ : Shape).BroadcastsInDim ⟨2, ![1, 2]⟩ ![1])
    (hb2 : (⟨2, ![n, 1]⟩ : Shape).BroadcastsInDim ⟨2, ![n, 2]⟩ ![0, 1])
    (hb3 : (⟨2, ![1, 2]⟩ : Shape).BroadcastsInDim ⟨2, ![n, 2]⟩ ![0, 1])
    (hr : (⟨2, ![n, 2]⟩ : Shape).ShapeCasts ⟨1, ![n2]⟩)
    (a : (⟨1, ![n]⟩ : Shape).Idx → EReal) (v : (⟨1, ![2]⟩ : Shape).Idx → EReal) : (⟨1, ![n2]⟩ : Shape).Idx → EReal :=
  shapeCast ⟨1, ![n2]⟩
    (mulf (F := Ideal) (s := ⟨2, ![n, 2]⟩) (φ := .f32)
      (broadcastInDim ⟨2, ![n, 2]⟩ ![0, 1] hb2 (broadcastInDim ⟨2, ![n, 1]⟩ ![0] hb0 a))
      (broadcastInDim ⟨2, ![n, 2]⟩ ![0, 1] hb3 (broadcastInDim ⟨2, ![1, 2]⟩ ![1] hb1 v))) hr

/-- Entry `i` of the step is `a (i / 2) · v (i % 2)`. -/
theorem kronOp_apply (n n2 : ℕ) (hn2 : n2 = 2 * n) (hb0 hb1 hb2 hb3 hr)
    (a : (⟨1, ![n]⟩ : Shape).Idx → EReal) (v : (⟨1, ![2]⟩ : Shape).Idx → EReal) (i : (⟨1, ![n2]⟩ : Shape).Idx)
    (hlt : (i 0).val / 2 < n) :
    kronOp n n2 hb0 hb1 hb2 hb3 hr a v i
      = a (ix1 (⟨(i 0).val / 2, hlt⟩ : Fin n)) * v (ix1 (⟨(i 0).val % 2, Nat.mod_lt _ (by decide)⟩ : Fin 2)) := by
  have hi : (i 0).val < n2 := (i 0).isLt
  unfold kronOp
  rw [shapeCast_apply _ hr i (ix2 (n0 := n) (n1 := 2) ⟨(i 0).val / 2, hlt⟩ ⟨(i 0).val % 2, Nat.mod_lt _ (by decide)⟩)
    (by rewrite [Shape.rowMajor_val_two, Shape.rowMajor_val_one]
        show (i 0).val / 2 * 2 + (i 0).val % 2 = (i 0).val; omega)]
  rw [ValueIdx.mulf_apply]
  congr 1
  · rw [broadcastInDim_apply _ hb2 _ _ (ix2 (n0 := n) (n1 := 1) ⟨(i 0).val / 2, hlt⟩ 0) (fun d => match d with
      | ⟨0, _⟩ => by show (i 0).val / 2 = if n = 1 then 0 else (i 0).val / 2; split <;> omega
      | ⟨1, _⟩ => by show 0 = if (1 : ℕ) = 1 then 0 else (i 0).val % 2; rw [if_pos rfl])]
    exact broadcastInDim_apply _ hb0 a _ (ix1 (⟨(i 0).val / 2, hlt⟩ : Fin n)) (fun d => match d with
      | ⟨0, _⟩ => by show (i 0).val / 2 = if n = 1 then 0 else (i 0).val / 2; split <;> omega)
  · rw [broadcastInDim_apply _ hb3 _ _ (ix2 (n0 := 1) (n1 := 2) 0 ⟨(i 0).val % 2, Nat.mod_lt _ (by decide)⟩) (fun d => match d with
      | ⟨0, _⟩ => by show 0 = if (1 : ℕ) = 1 then 0 else (i 0).val / 2; rw [if_pos rfl]
      | ⟨1, _⟩ => by show (i 0).val % 2 = if (2 : ℕ) = 1 then 0 else (i 0).val % 2; rw [if_neg (by decide)])]
    exact broadcastInDim_apply _ hb1 v _ (ix1 (⟨(i 0).val % 2, Nat.mod_lt _ (by decide)⟩ : Fin 2)) (fun d => match d with
      | ⟨0, _⟩ => by show (i 0).val % 2 = if (2 : ℕ) = 1 then 0 else (i 0).val % 2; rw [if_neg (by decide)])

/-- The first step, from the one-element state: the row needs no broadcast. -/
def kronOp1
    (hb0 : (⟨1, ![1]⟩ : Shape).BroadcastsInDim ⟨2, ![1, 1]⟩ ![0])
    (hb1 : (⟨1, ![2]⟩ : Shape).BroadcastsInDim ⟨2, ![1, 2]⟩ ![1])
    (hb2 : (⟨2, ![1, 1]⟩ : Shape).BroadcastsInDim ⟨2, ![1, 2]⟩ ![0, 1])
    (hr : (⟨2, ![1, 2]⟩ : Shape).ShapeCasts ⟨1, ![2]⟩)
    (a : (⟨1, ![1]⟩ : Shape).Idx → EReal) (v : (⟨1, ![2]⟩ : Shape).Idx → EReal) : (⟨1, ![2]⟩ : Shape).Idx → EReal :=
  shapeCast ⟨1, ![2]⟩
    (mulf (F := Ideal) (s := ⟨2, ![1, 2]⟩) (φ := .f32)
      (broadcastInDim ⟨2, ![1, 2]⟩ ![0, 1] hb2 (broadcastInDim ⟨2, ![1, 1]⟩ ![0] hb0 a))
      (broadcastInDim ⟨2, ![1, 2]⟩ ![1] hb1 v)) hr

theorem kronOp1_apply (hb0 hb1 hb2 hr)
    (a : (⟨1, ![1]⟩ : Shape).Idx → EReal) (v : (⟨1, ![2]⟩ : Shape).Idx → EReal) (i : (⟨1, ![2]⟩ : Shape).Idx) :
    kronOp1 hb0 hb1 hb2 hr a v i = a i10 * v (ix1 (⟨(i 0).val % 2, Nat.mod_lt _ (by decide)⟩ : Fin 2)) := by
  have hi : (i 0).val < 2 := (i 0).isLt
  unfold kronOp1
  rw [shapeCast_apply _ hr i (ix2 (n0 := 1) (n1 := 2) 0 ⟨(i 0).val % 2, Nat.mod_lt _ (by decide)⟩)
    (by rewrite [Shape.rowMajor_val_two, Shape.rowMajor_val_one]
        show 0 * 2 + (i 0).val % 2 = (i 0).val; omega)]
  rw [ValueIdx.mulf_apply]
  congr 1
  · rw [broadcastInDim_apply _ hb2 _ _ (ix2 (n0 := 1) (n1 := 1) 0 0) (fun d => match d with
      | ⟨0, _⟩ => by show 0 = if (1 : ℕ) = 1 then 0 else 0; rw [if_pos rfl]
      | ⟨1, _⟩ => by show 0 = if (1 : ℕ) = 1 then 0 else (i 0).val % 2; rw [if_pos rfl])]
    exact broadcastInDim_apply _ hb0 a _ i10 (fun d => match d with
      | ⟨0, _⟩ => by show 0 = if (1 : ℕ) = 1 then 0 else 0; rw [if_pos rfl])
  · exact broadcastInDim_apply _ hb1 v _ (ix1 (⟨(i 0).val % 2, Nat.mod_lt _ (by decide)⟩ : Fin 2)) (fun d => match d with
      | ⟨0, _⟩ => by show (i 0).val % 2 = if (2 : ℕ) = 1 then 0 else (i 0).val % 2; rw [if_neg (by decide)])

/-- A wire's two-vector from the vectors of all the cosines and all the sines: entry `k` of each, made a scalar, made
    a one-element vector, the two joined. -/
def pairOp (k : ℕ) (hsl : (⟨1, ![24]⟩ : Shape).Slices ![k] ⟨1, ![1]⟩)
    (hsc : (⟨1, ![1]⟩ : Shape).ShapeCasts ⟨0, ![]⟩)
    (hbs : (⟨0, ![]⟩ : Shape).BroadcastsInDim ⟨1, ![1]⟩ ![])
    (hcat : Shape.Concatenates [(⟨1, ![1]⟩ : Shape), (⟨1, ![1]⟩ : Shape)] (⟨1, ![2]⟩ : Shape) (0 : Fin 1))
    (cv sv : (⟨1, ![24]⟩ : Shape).Idx → EReal) : (⟨1, ![2]⟩ : Shape).Idx → EReal :=
  concatenate (⟨1, ![2]⟩ : Shape) (0 : Fin 1)
    [⟨(⟨1, ![1]⟩ : Shape), broadcastInDim ⟨1, ![1]⟩ ![] hbs (shapeCast ⟨0, ![]⟩ (extractStridedSlice ⟨1, ![1]⟩ ![k] cv hsl) hsc)⟩,
     ⟨(⟨1, ![1]⟩ : Shape), broadcastInDim ⟨1, ![1]⟩ ![] hbs (shapeCast ⟨0, ![]⟩ (extractStridedSlice ⟨1, ![1]⟩ ![k] sv hsl) hsc)⟩] hcat

theorem pairOp_apply (k : ℕ) (hk : k < 24) (hsl hsc hbs hcat) (cv sv : (⟨1, ![24]⟩ : Shape).Idx → EReal)
    (j : (⟨1, ![2]⟩ : Shape).Idx) :
    pairOp k hsl hsc hbs hcat cv sv j
      = if (j 0).val = 0 then cv (ix1 (⟨k, hk⟩ : Fin 24)) else sv (ix1 (⟨k, hk⟩ : Fin 24)) := by
  have e : ∀ (w : (⟨1, ![24]⟩ : Shape).Idx → EReal),
      broadcastInDim ⟨1, ![1]⟩ ![] hbs (shapeCast ⟨0, ![]⟩ (extractStridedSlice ⟨1, ![1]⟩ ![k] w hsl) hsc) i10
        = w (ix1 (⟨k, hk⟩ : Fin 24)) := by
    intro w
    rw [broadcastInDim_apply _ hbs _ i10 ix0 (fun a => a.elim0), scalar_of_single]
    exact extractStridedSlice_apply ![k] w hsl i10 (ix1 (⟨k, hk⟩ : Fin 24)) (fun a => match a with | ⟨0, _⟩ => rfl)
  unfold pairOp
  rw [pair_of_singles, e, e]

end KronStep

end
-- ==== Proof.RefValue.lean ====
/-
  The reference, read wire by wire.

  With `h k = (-y k) · ½`, `c k = cos (h k)` and `s k = sin (h k)`, the reference first computes the vectors of all the
  cosines and all the sines and the one-element state `[1]`; then, for each wire `k` in turn, thirteen operations (twelve
  for the first wire) cut `c k` and `s k` out, join them to the two-vector `[c k, s k]` and replace the state by its
  Kronecker product with it: `state' (2 p + q) = state p · [c k, s k] q`; the last operation takes absolute values.
  The run ends with every buffer at the fold of all 320 operations over the launch contents; the fold is read here one
  wire's operations at a time, from the contents the earlier wires left: after wire `k` the state at the flat index `i`
  is `KronAbs.kronP c s (k + 1) i`, and the vectors of cosines and sines are still in place.  So the result at `i` is
  `|kronP c s 24 i| = KronSpec.G y i`.
-/
import proofs.«143588_j65481071403967_2_alg».proof.Proof.RefRun
import proofs.«143588_j65481071403967_2_alg».proof.Proof.KronSpec
import proofs.«143588_j65481071403967_2_alg».proof.Proof.KronStep
import Idealize.ShloMosaic.Lib.IdealHost

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx KronAbs KronLayout KronSpec KronStep

/-! ## Folding a line of operations in two pieces -/

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

abbrev opsI : List (HloOp τ sig (Elt Ideal)) := ops (F := Ideal)

/-! ## The contents after each wire -/

/-- After the first eight operations: the cosines, the sines and the one-element state. -/
def Wpre (V : Valuation τ sig (Elt Ideal)) : Valuation τ sig (Elt Ideal) := after (segPre (F := Ideal)) V
/-- After wire 0's operations. -/
def W0 (V : Valuation τ sig (Elt Ideal)) : Valuation τ sig (Elt Ideal) := after (seg0 (F := Ideal)) (Wpre V)
/-- After wire 1's operations. -/
def W1 (V : Valuation τ sig (Elt Ideal)) : Valuation τ sig (Elt Ideal) := after (seg1 (F := Ideal)) (W0 V)
/-- After wire 2's operations. -/
def W2 (V : Valuation τ sig (Elt Ideal)) : Valuation τ sig (Elt Ideal) := after (seg2 (F := Ideal)) (W1 V)
/-- After wire 3's operations. -/
def W3 (V : Valuation τ sig (Elt Ideal)) : Valuation τ sig (Elt Ideal) := after (seg3 (F := Ideal)) (W2 V)
/-- After wire 4's operations. -/
def W4 (V : Valuation τ sig (Elt Ideal)) : Valuation τ sig (Elt Ideal) := after (seg4 (F := Ideal)) (W3 V)
/-- After wire 5's operations. -/
def W5 (V : Valuation τ sig (Elt Ideal)) : Valuation τ sig (Elt Ideal) := after (seg5 (F := Ideal)) (W4 V)
/-- After wire 6's operations. -/
def W6 (V : Valuation τ sig (Elt Ideal)) : Valuation τ sig (Elt Ideal) := after (seg6b (F := Ideal)) (after (seg6a (F := Ideal)) (W5 V))
/-- After wire 7's operations. -/
def W7 (V : Valuation τ sig (Elt Ideal)) : Valuation τ sig (Elt Ideal) := after (seg7 (F := Ideal)) (W6 V)
/-- After wire 8's operations. -/
def W8 (V : Valuation τ sig (Elt Ideal)) : Valuation τ sig (Elt Ideal) := after (seg8 (F := Ideal)) (W7 V)
/-- After wire 9's operations. -/
def W9 (V : Valuation τ sig (Elt Ideal)) : Valuation τ sig (Elt Ideal) := after (seg9 (F := Ideal)) (W8 V)
/-- After wire 10's operations. -/
def W10 (V : Valuation τ sig (Elt Ideal)) : Valuation τ sig (Elt Ideal) := after (seg10 (F := Ideal)) (W9 V)
/-- After wire 11's operations. -/
def W11 (V : Valuation τ sig (Elt Ideal)) : Valuation τ sig (Elt Ideal) := after (seg11 (F := Ideal)) (W10 V)
/-- After wire 12's operations. -/
def W12 (V : Valuation τ sig (Elt Ideal)) : Valuation τ sig (Elt Ideal) := after (seg12 (F := Ideal)) (W11 V)
/-- After wire 13's operations. -/
def W13 (V : Valuation τ sig (Elt Ideal)) : Valuation τ sig (Elt Ideal) := after (seg13 (F := Ideal)) (W12 V)
/-- After wire 14's operations. -/
def W14 (V : Valuation τ sig (Elt Ideal)) : Valuation τ sig (Elt Ideal) := after (seg14 (F := Ideal)) (W13 V)
/-- After wire 15's operations. -/
def W15 (V : Valuation τ sig (Elt Ideal)) : Valuation τ sig (Elt Ideal) := after (seg15 (F := Ideal)) (W14 V)
/-- After wire 16's operations. -/
def W16 (V : Valuation τ sig (Elt Ideal)) : Valuation τ sig (Elt Ideal) := after (seg16 (F := Ideal)) (W15 V)
/-- After wire 17's operations. -/
def W17 (V : Valuation τ sig (Elt Ideal)) : Valuation τ sig (Elt Ideal) := after (seg17 (F := Ideal)) (W16 V)
/-- After wire 18's operations. -/
def W18 (V : Valuation τ sig (Elt Ideal)) : Valuation τ sig (Elt Ideal) := after (seg18 (F := Ideal)) (W17 V)
/-- After wire 19's operations. -/
def W19 (V : Valuation τ sig (Elt Ideal)) : Valuation τ sig (Elt Ideal) := after (seg19 (F := Ideal)) (W18 V)
/-- After wire 20's operations. -/
def W20 (V : Valuation τ sig (Elt Ideal)) : Valuation τ sig (Elt Ideal) := after (seg20 (F := Ideal)) (W19 V)
/-- After wire 21's operations. -/
def W21 (V : Valuation τ sig (Elt Ideal)) : Valuation τ sig (Elt Ideal) := after (seg21b (F := Ideal)) (after (seg21a (F := Ideal)) (W20 V))
/-- After wire 22's operations. -/
def W22 (V : Valuation τ sig (Elt Ideal)) : Valuation τ sig (Elt Ideal) := after (seg22 (F := Ideal)) (W21 V)
/-- After wire 23's operations. -/
def W23 (V : Valuation τ sig (Elt Ideal)) : Valuation τ sig (Elt Ideal) := after (seg23 (F := Ideal)) (W22 V)

/-- The whole fold is the last operation over the contents after the last wire. -/
theorem after_ops (V : Valuation τ sig (Elt Ideal)) : after opsI V = after (segAbs (F := Ideal)) (W23 V) := by
  simp only [opsI, ops, win0, win1, win2, win3, after_append]
  rfl

/-! ## The first eight operations -/

theorem pre_all (V : Valuation τ sig (Elt Ideal)) :
    (∀ j : S24.Idx, (Wpre V (Proc.devRef .tc main_v3) : S24.Idx → EReal) j = cosH ((V (Proc.devRef .tc main_arg1) : S24.Idx → EReal) j))
    ∧ (∀ j : S24.Idx, (Wpre V (Proc.devRef .tc main_v4) : S24.Idx → EReal) j = sinH ((V (Proc.devRef .tc main_arg1) : S24.Idx → EReal) j))
    ∧ (∀ j : S1.Idx, (Wpre V (Proc.devRef .tc main_v5) : S1.Idx → EReal) j = (1 : EReal)) := by
  unfold Wpre segPre
  refine ⟨fun j => ?_, fun j => ?_, fun j => ?_⟩
  · after_results
    rfl
  · after_results
    rfl
  · after_results
    exact Ideal.ofBits_one_f32

/-! ## One wire's operations: the state's Kronecker step, the cosines and sines kept -/

theorem seg0_all (W : Valuation τ sig (Elt Ideal)) :
    after (seg0 (F := Ideal)) W (Proc.devRef .tc main_v13)
      = kronOp1 bcast_S1_S1x1_0 bcast_S2_S1x2_1 bcast_S1x1_S1x2_0_1 shapeCasts_S1x2_S2
          (W (Proc.devRef .tc main_v5))
          (pairOp 0 slices_S24_S1_0 shapeCasts_S1_S_ bcast_S_S1 concatenates_S1_S1_S2_d0
            (W (Proc.devRef .tc main_v3)) (W (Proc.devRef .tc main_v4)))
    ∧ after (seg0 (F := Ideal)) W (Proc.devRef .tc main_v3) = W (Proc.devRef .tc main_v3)
    ∧ after (seg0 (F := Ideal)) W (Proc.devRef .tc main_v4) = W (Proc.devRef .tc main_v4) := by
  unfold seg0
  refine ⟨?_, ?_, ?_⟩
  · after_results
    rfl
  · after_results
  · after_results

theorem seg1_all (W : Valuation τ sig (Elt Ideal)) :
    after (seg1 (F := Ideal)) W (Proc.devRef .tc main_v21)
      = kronOp 2 4 bcast_S2_S2x1_0 bcast_S2_S1x2_1 bcast_S2x1_S2x2_0_1 bcast_S1x2_S2x2_0_1 shapeCasts_S2x2_S4
          (W (Proc.devRef .tc main_v13))
          (pairOp 1 slices_S24_S1_1 shapeCasts_S1_S_ bcast_S_S1 concatenates_S1_S1_S2_d0
            (W (Proc.devRef .tc main_v3)) (W (Proc.devRef .tc main_v4)))
    ∧ after (seg1 (F := Ideal)) W (Proc.devRef .tc main_v3) = W (Proc.devRef .tc main_v3)
    ∧ after (seg1 (F := Ideal)) W (Proc.devRef .tc main_v4) = W (Proc.devRef .tc main_v4) := by
  unfold seg1
  refine ⟨?_, ?_, ?_⟩
  · after_results
    rfl
  · after_results
  · after_results

theorem seg2_all (W : Valuation τ sig (Elt Ideal)) :
    after (seg2 (F := Ideal)) W (Proc.devRef .tc main_v29)
      = kronOp 4 8 bcast_S4_S4x1_0 bcast_S2_S1x2_1 bcast_S4x1_S4x2_0_1 bcast_S1x2_S4x2_0_1 shapeCasts_S4x2_S8
          (W (Proc.devRef .tc main_v21))
          (pairOp 2 slices_S24_S1_2 shapeCasts_S1_S_ bcast_S_S1 concatenates_S1_S1_S2_d0
            (W (Proc.devRef .tc main_v3)) (W (Proc.devRef .tc main_v4)))
    ∧ after (seg2 (F := Ideal)) W (Proc.devRef .tc main_v3) = W (Proc.devRef .tc main_v3)
    ∧ after (seg2 (F := Ideal)) W (Proc.devRef .tc main_v4) = W (Proc.devRef .tc main_v4) := by
  unfold seg2
  refine ⟨?_, ?_, ?_⟩
  · after_results
    rfl
  · after_results
  · after_results

theorem seg3_all (W : Valuation τ sig (Elt Ideal)) :
    after (seg3 (F := Ideal)) W (Proc.devRef .tc main_v37)
      = kronOp 8 16 bcast_S8_S8x1_0 bcast_S2_S1x2_1 bcast_S8x1_S8x2_0_1 bcast_S1x2_S8x2_0_1 shapeCasts_S8x2_S16
          (W (Proc.devRef .tc main_v29))
          (pairOp 3 slices_S24_S1_3 shapeCasts_S1_S_ bcast_S_S1 concatenates_S1_S1_S2_d0
            (W (Proc.devRef .tc main_v3)) (W (Proc.devRef .tc main_v4)))
    ∧ after (seg3 (F := Ideal)) W (Proc.devRef .tc main_v3) = W (Proc.devRef .tc main_v3)
    ∧ after (seg3 (F := Ideal)) W (Proc.devRef .tc main_v4) = W (Proc.devRef .tc main_v4) := by
  unfold seg3
  refine ⟨?_, ?_, ?_⟩
  · after_results
    rfl
  · after_results
  · after_results

theorem seg4_all (W : Valuation τ sig (Elt Ideal)) :
    after (seg4 (F := Ideal)) W (Proc.devRef .tc main_v45)
      = kronOp 16 32 bcast_S16_S16x1_0 bcast_S2_S1x2_1 bcast_S16x1_S16x2_0_1 bcast_S1x2_S16x2_0_1 shapeCasts_S16x2_S32
          (W (Proc.devRef .tc main_v37))
          (pairOp 4 slices_S24_S1_4 shapeCasts_S1_S_ bcast_S_S1 concatenates_S1_S1_S2_d0
            (W (Proc.devRef .tc main_v3)) (W (Proc.devRef .tc main_v4)))
    ∧ after (seg4 (F := Ideal)) W (Proc.devRef .tc main_v3) = W (Proc.devRef .tc main_v3)
    ∧ after (seg4 (F := Ideal)) W (Proc.devRef .tc main_v4) = W (Proc.devRef .tc main_v4) := by
  unfold seg4
  refine ⟨?_, ?_, ?_⟩
  · after_results
    rfl
  · after_results
  · after_results

theorem seg5_all (W : Valuation τ sig (Elt Ideal)) :
    after (seg5 (F := Ideal)) W (Proc.devRef .tc main_v53)
      = kronOp 32 64 bcast_S32_S32x1_0 bcast_S2_S1x2_1 bcast_S32x1_S32x2_0_1 bcast_S1x2_S32x2_0_1 shapeCasts_S32x2_S64
          (W (Proc.devRef .tc main_v45))
          (pairOp 5 slices_S24_S1_5 shapeCasts_S1_S_ bcast_S_S1 concatenates_S1_S1_S2_d0
            (W (Proc.devRef .tc main_v3)) (W (Proc.devRef .tc main_v4)))
    ∧ after (seg5 (F := Ideal)) W (Proc.devRef .tc main_v3) = W (Proc.devRef .tc main_v3)
    ∧ after (seg5 (F := Ideal)) W (Proc.devRef .tc main_v4) = W (Proc.devRef .tc main_v4) := by
  unfold seg5
  refine ⟨?_, ?_, ?_⟩
  · after_results
    rfl
  · after_results
  · after_results

theorem seg6_all (W : Valuation τ sig (Elt Ideal)) :
    after (seg6b (F := Ideal)) (after (seg6a (F := Ideal)) W) (Proc.devRef .tc main_v61)
      = kronOp 64 128 bcast_S64_S64x1_0 bcast_S2_S1x2_1 bcast_S64x1_S64x2_0_1 bcast_S1x2_S64x2_0_1 shapeCasts_S64x2_S128
          (W (Proc.devRef .tc main_v53))
          (pairOp 6 slices_S24_S1_6 shapeCasts_S1_S_ bcast_S_S1 concatenates_S1_S1_S2_d0
            (W (Proc.devRef .tc main_v3)) (W (Proc.devRef .tc main_v4)))
    ∧ after (seg6b (F := Ideal)) (after (seg6a (F := Ideal)) W) (Proc.devRef .tc main_v3) = W (Proc.devRef .tc main_v3)
    ∧ after (seg6b (F := Ideal)) (after (seg6a (F := Ideal)) W) (Proc.devRef .tc main_v4) = W (Proc.devRef .tc main_v4) := by
  unfold seg6a seg6b
  refine ⟨?_, ?_, ?_⟩
  · after_results
    rfl
  · after_results
  · after_results

theorem seg7_all (W : Valuation τ sig (Elt Ideal)) :
    after (seg7 (F := Ideal)) W (Proc.devRef .tc main_v69)
      = kronOp 128 256 bcast_S128_S128x1_0 bcast_S2_S1x2_1 bcast_S128x1_S128x2_0_1 bcast_S1x2_S128x2_0_1 shapeCasts_S128x2_S256
          (W (Proc.devRef .tc main_v61))
          (pairOp 7 slices_S24_S1_7 shapeCasts_S1_S_ bcast_S_S1 concatenates_S1_S1_S2_d0
            (W (Proc.devRef .tc main_v3)) (W (Proc.devRef .tc main_v4)))
    ∧ after (seg7 (F := Ideal)) W (Proc.devRef .tc main_v3) = W (Proc.devRef .tc main_v3)
    ∧ after (seg7 (F := Ideal)) W (Proc.devRef .tc main_v4) = W (Proc.devRef .tc main_v4) := by
  unfold seg7
  refine ⟨?_, ?_, ?_⟩
  · after_results
    rfl
  · after_results
  · after_results

theorem seg8_all (W : Valuation τ sig (Elt Ideal)) :
    after (seg8 (F := Ideal)) W (Proc.devRef .tc main_v77)
      = kronOp 256 512 bcast_S256_S256x1_0 bcast_S2_S1x2_1 bcast_S256x1_S256x2_0_1 bcast_S1x2_S256x2_0_1 shapeCasts_S256x2_S512
          (W (Proc.devRef .tc main_v69))
          (pairOp 8 slices_S24_S1_8 shapeCasts_S1_S_ bcast_S_S1 concatenates_S1_S1_S2_d0
            (W (Proc.devRef .tc main_v3)) (W (Proc.devRef .tc main_v4)))
    ∧ after (seg8 (F := Ideal)) W (Proc.devRef .tc main_v3) = W (Proc.devRef .tc main_v3)
    ∧ after (seg8 (F := Ideal)) W (Proc.devRef .tc main_v4) = W (Proc.devRef .tc main_v4) := by
  unfold seg8
  refine ⟨?_, ?_, ?_⟩
  · after_results
    rfl
  · after_results
  · after_results

theorem seg9_all (W : Valuation τ sig (Elt Ideal)) :
    after (seg9 (F := Ideal)) W (Proc.devRef .tc main_v85)
      = kronOp 512 1024 bcast_S512_S512x1_0 bcast_S2_S1x2_1 bcast_S512x1_S512x2_0_1 bcast_S1x2_S512x2_0_1 shapeCasts_S512x2_S1024
          (W (Proc.devRef .tc main_v77))
          (pairOp 9 slices_S24_S1_9 shapeCasts_S1_S_ bcast_S_S1 concatenates_S1_S1_S2_d0
            (W (Proc.devRef .tc main_v3)) (W (Proc.devRef .tc main_v4)))
    ∧ after (seg9 (F := Ideal)) W (Proc.devRef .tc main_v3) = W (Proc.devRef .tc main_v3)
    ∧ after (seg9 (F := Ideal)) W (Proc.devRef .tc main_v4) = W (Proc.devRef .tc main_v4) := by
  unfold seg9
  refine ⟨?_, ?_, ?_⟩
  · after_results
    rfl
  · after_results
  · after_results

theorem seg10_all (W : Valuation τ sig (Elt Ideal)) :
    after (seg10 (F := Ideal)) W (Proc.devRef .tc main_v93)
      = kronOp 1024 2048 bcast_S1024_S1024x1_0 bcast_S2_S1x2_1 bcast_S1024x1_S1024x2_0_1 bcast_S1x2_S1024x2_0_1 shapeCasts_S1024x2_S2048
          (W (Proc.devRef .tc main_v85))
          (pairOp 10 slices_S24_S1_10 shapeCasts_S1_S_ bcast_S_S1 concatenates_S1_S1_S2_d0
            (W (Proc.devRef .tc main_v3)) (W (Proc.devRef .tc main_v4)))
    ∧ after (seg10 (F := Ideal)) W (Proc.devRef .tc main_v3) = W (Proc.devRef .tc main_v3)
    ∧ after (seg10 (F := Ideal)) W (Proc.devRef .tc main_v4) = W (Proc.devRef .tc main_v4) := by
  unfold seg10
  refine ⟨?_, ?_, ?_⟩
  · after_results
    rfl
  · after_results
  · after_results

theorem seg11_all (W : Valuation τ sig (Elt Ideal)) :
    after (seg11 (F := Ideal)) W (Proc.devRef .tc main_v101)
      = kronOp 2048 4096 bcast_S2048_S2048x1_0 bcast_S2_S1x2_1 bcast_S2048x1_S2048x2_0_1 bcast_S1x2_S2048x2_0_1 shapeCasts_S2048x2_S4096
          (W (Proc.devRef .tc main_v93))
          (pairOp 11 slices_S24_S1_11 shapeCasts_S1_S_ bcast_S_S1 concatenates_S1_S1_S2_d0
            (W (Proc.devRef .tc main_v3)) (W (Proc.devRef .tc main_v4)))
    ∧ after (seg11 (F := Ideal)) W (Proc.devRef .tc main_v3) = W (Proc.devRef .tc main_v3)
    ∧ after (seg11 (F := Ideal)) W (Proc.devRef .tc main_v4) = W (Proc.devRef .tc main_v4) := by
  unfold seg11
  refine ⟨?_, ?_, ?_⟩
  · after_results
    rfl
  · after_results
  · after_results

theorem seg12_all (W : Valuation τ sig (Elt Ideal)) :
    after (seg12 (F := Ideal)) W (Proc.devRef .tc main_v109)
      = kronOp 4096 8192 bcast_S4096_S4096x1_0 bcast_S2_S1x2_1 bcast_S4096x1_S4096x2_0_1 bcast_S1x2_S4096x2_0_1 shapeCasts_S4096x2_S8192
          (W (Proc.devRef .tc main_v101))
          (pairOp 12 slices_S24_S1_12 shapeCasts_S1_S_ bcast_S_S1 concatenates_S1_S1_S2_d0
            (W (Proc.devRef .tc main_v3)) (W (Proc.devRef .tc main_v4)))
    ∧ after (seg12 (F := Ideal)) W (Proc.devRef .tc main_v3) = W (Proc.devRef .tc main_v3)
    ∧ after (seg12 (F := Ideal)) W (Proc.devRef .tc main_v4) = W (Proc.devRef .tc main_v4) := by
  unfold seg12
  refine ⟨?_, ?_, ?_⟩
  · after_results
    rfl
  · after_results
  · after_results

theorem seg13_all (W : Valuation τ sig (Elt Ideal)) :
    after (seg13 (F := Ideal)) W (Proc.devRef .tc main_v117)
      = kronOp 8192 16384 bcast_S8192_S8192x1_0 bcast_S2_S1x2_1 bcast_S8192x1_S8192x2_0_1 bcast_S1x2_S8192x2_0_1 shapeCasts_S8192x2_S16384
          (W (Proc.devRef .tc main_v109))
          (pairOp 13 slices_S24_S1_13 shapeCasts_S1_S_ bcast_S_S1 concatenates_S1_S1_S2_d0
            (W (Proc.devRef .tc main_v3)) (W (Proc.devRef .tc main_v4)))
    ∧ after (seg13 (F := Ideal)) W (Proc.devRef .tc main_v3) = W (Proc.devRef .tc main_v3)
    ∧ after (seg13 (F := Ideal)) W (Proc.devRef .tc main_v4) = W (Proc.devRef .tc main_v4) := by
  unfold seg13
  refine ⟨?_, ?_, ?_⟩
  · after_results
    rfl
  · after_results
  · after_results

theorem seg14_all (W : Valuation τ sig (Elt Ideal)) :
    after (seg14 (F := Ideal)) W (Proc.devRef .tc main_v125)
      = kronOp 16384 32768 bcast_S16384_S16384x1_0 bcast_S2_S1x2_1 bcast_S16384x1_S16384x2_0_1 bcast_S1x2_S16384x2_0_1 shapeCasts_S16384x2_S32768
          (W (Proc.devRef .tc main_v117))
          (pairOp 14 slices_S24_S1_14 shapeCasts_S1_S_ bcast_S_S1 concatenates_S1_S1_S2_d0
            (W (Proc.devRef .tc main_v3)) (W (Proc.devRef .tc main_v4)))
    ∧ after (seg14 (F := Ideal)) W (Proc.devRef .tc main_v3) = W (Proc.devRef .tc main_v3)
    ∧ after (seg14 (F := Ideal)) W (Proc.devRef .tc main_v4) = W (Proc.devRef .tc main_v4) := by
  unfold seg14
  refine ⟨?_, ?_, ?_⟩
  · after_results
    rfl
  · after_results
  · after_results

theorem seg15_all (W : Valuation τ sig (Elt Ideal)) :
    after (seg15 (F := Ideal)) W (Proc.devRef .tc main_v133)
      = kronOp 32768 65536 bcast_S32768_S32768x1_0 bcast_S2_S1x2_1 bcast_S32768x1_S32768x2_0_1 bcast_S1x2_S32768x2_0_1 shapeCasts_S32768x2_S65536
          (W (Proc.devRef .tc main_v125))
          (pairOp 15 slices_S24_S1_15 shapeCasts_S1_S_ bcast_S_S1 concatenates_S1_S1_S2_d0
            (W (Proc.devRef .tc main_v3)) (W (Proc.devRef .tc main_v4)))
    ∧ after (seg15 (F := Ideal)) W (Proc.devRef .tc main_v3) = W (Proc.devRef .tc main_v3)
    ∧ after (seg15 (F := Ideal)) W (Proc.devRef .tc main_v4) = W (Proc.devRef .tc main_v4) := by
  unfold seg15
  refine ⟨?_, ?_, ?_⟩
  · after_results
    rfl
  · after_results
  · after_results

theorem seg16_all (W : Valuation τ sig (Elt Ideal)) :
    after (seg16 (F := Ideal)) W (Proc.devRef .tc main_v141)
      = kronOp 65536 131072 bcast_S65536_S65536x1_0 bcast_S2_S1x2_1 bcast_S65536x1_S65536x2_0_1 bcast_S1x2_S65536x2_0_1 shapeCasts_S65536x2_S131072
          (W (Proc.devRef .tc main_v133))
          (pairOp 16 slices_S24_S1_16 shapeCasts_S1_S_ bcast_S_S1 concatenates_S1_S1_S2_d0
            (W (Proc.devRef .tc main_v3)) (W (Proc.devRef .tc main_v4)))
    ∧ after (seg16 (F := Ideal)) W (Proc.devRef .tc main_v3) = W (Proc.devRef .tc main_v3)
    ∧ after (seg16 (F := Ideal)) W (Proc.devRef .tc main_v4) = W (Proc.devRef .tc main_v4) := by
  unfold seg16
  refine ⟨?_, ?_, ?_⟩
  · after_results
    rfl
  · after_results
  · after_results

theorem seg17_all (W : Valuation τ sig (Elt Ideal)) :
    after (seg17 (F := Ideal)) W (Proc.devRef .tc main_v149)
      = kronOp 131072 262144 bcast_S131072_S131072x1_0 bcast_S2_S1x2_1 bcast_S131072x1_S131072x2_0_1 bcast_S1x2_S131072x2_0_1 shapeCasts_S131072x2_S262144
          (W (Proc.devRef .tc main_v141))
          (pairOp 17 slices_S24_S1_17 shapeCasts_S1_S_ bcast_S_S1 concatenates_S1_S1_S2_d0
            (W (Proc.devRef .tc main_v3)) (W (Proc.devRef .tc main_v4)))
    ∧ after (seg17 (F := Ideal)) W (Proc.devRef .tc main_v3) = W (Proc.devRef .tc main_v3)
    ∧ after (seg17 (F := Ideal)) W (Proc.devRef .tc main_v4) = W (Proc.devRef .tc main_v4) := by
  unfold seg17
  refine ⟨?_, ?_, ?_⟩
  · after_results
    rfl
  · after_results
  · after_results

theorem seg18_all (W : Valuation τ sig (Elt Ideal)) :
    after (seg18 (F := Ideal)) W (Proc.devRef .tc main_v157)
      = kronOp 262144 524288 bcast_S262144_S262144x1_0 bcast_S2_S1x2_1 bcast_S262144x1_S262144x2_0_1 bcast_S1x2_S262144x2_0_1 shapeCasts_S262144x2_S524288
          (W (Proc.devRef .tc main_v149))
          (pairOp 18 slices_S24_S1_18 shapeCasts_S1_S_ bcast_S_S1 concatenates_S1_S1_S2_d0
            (W (Proc.devRef .tc main_v3)) (W (Proc.devRef .tc main_v4)))
    ∧ after (seg18 (F := Ideal)) W (Proc.devRef .tc main_v3) = W (Proc.devRef .tc main_v3)
    ∧ after (seg18 (F := Ideal)) W (Proc.devRef .tc main_v4) = W (Proc.devRef .tc main_v4) := by
  unfold seg18
  refine ⟨?_, ?_, ?_⟩
  · after_results
    rfl
  · after_results
  · after_results

theorem seg19_all (W : Valuation τ sig (Elt Ideal)) :
    after (seg19 (F := Ideal)) W (Proc.devRef .tc main_v165)
      = kronOp 524288 1048576 bcast_S524288_S524288x1_0 bcast_S2_S1x2_1 bcast_S524288x1_S524288x2_0_1 bcast_S1x2_S524288x2_0_1 shapeCasts_S524288x2_S1048576
          (W (Proc.devRef .tc main_v157))
          (pairOp 19 slices_S24_S1_19 shapeCasts_S1_S_ bcast_S_S1 concatenates_S1_S1_S2_d0
            (W (Proc.devRef .tc main_v3)) (W (Proc.devRef .tc main_v4)))
    ∧ after (seg19 (F := Ideal)) W (Proc.devRef .tc main_v3) = W (Proc.devRef .tc main_v3)
    ∧ after (seg19 (F := Ideal)) W (Proc.devRef .tc main_v4) = W (Proc.devRef .tc main_v4) := by
  unfold seg19
  refine ⟨?_, ?_, ?_⟩
  · after_results
    rfl
  · after_results
  · after_results

theorem seg20_all (W : Valuation τ sig (Elt Ideal)) :
    after (seg20 (F := Ideal)) W (Proc.devRef .tc main_v173)
      = kronOp 1048576 2097152 bcast_S1048576_S1048576x1_0 bcast_S2_S1x2_1 bcast_S1048576x1_S1048576x2_0_1 bcast_S1x2_S1048576x2_0_1 shapeCasts_S1048576x2_S2097152
          (W (Proc.devRef .tc main_v165))
          (pairOp 20 slices_S24_S1_20 shapeCasts_S1_S_ bcast_S_S1 concatenates_S1_S1_S2_d0
            (W (Proc.devRef .tc main_v3)) (W (Proc.devRef .tc main_v4)))
    ∧ after (seg20 (F := Ideal)) W (Proc.devRef .tc main_v3) = W (Proc.devRef .tc main_v3)
    ∧ after (seg20 (F := Ideal)) W (Proc.devRef .tc main_v4) = W (Proc.devRef .tc main_v4) := by
  unfold seg20
  refine ⟨?_, ?_, ?_⟩
  · after_results
    rfl
  · after_results
  · after_results

theorem seg21_all (W : Valuation τ sig (Elt Ideal)) :
    after (seg21b (F := Ideal)) (after (seg21a (F := Ideal)) W) (Proc.devRef .tc main_v181)
      = kronOp 2097152 4194304 bcast_S2097152_S2097152x1_0 bcast_S2_S1x2_1 bcast_S2097152x1_S2097152x2_0_1 bcast_S1x2_S2097152x2_0_1 shapeCasts_S2097152x2_S4194304
          (W (Proc.devRef .tc main_v173))
          (pairOp 21 slices_S24_S1_21 shapeCasts_S1_S_ bcast_S_S1 concatenates_S1_S1_S2_d0
            (W (Proc.devRef .tc main_v3)) (W (Proc.devRef .tc main_v4)))
    ∧ after (seg21b (F := Ideal)) (after (seg21a (F := Ideal)) W) (Proc.devRef .tc main_v3) = W (Proc.devRef .tc main_v3)
    ∧ after (seg21b (F := Ideal)) (after (seg21a (F := Ideal)) W) (Proc.devRef .tc main_v4) = W (Proc.devRef .tc main_v4) := by
  unfold seg21a seg21b
  refine ⟨?_, ?_, ?_⟩
  · after_results
    rfl
  · after_results
  · after_results

theorem seg22_all (W : Valuation τ sig (Elt Ideal)) :
    after (seg22 (F := Ideal)) W (Proc.devRef .tc main_v189)
      = kronOp 4194304 8388608 bcast_S4194304_S4194304x1_0 bcast_S2_S1x2_1 bcast_S4194304x1_S4194304x2_0_1 bcast_S1x2_S4194304x2_0_1 shapeCasts_S4194304x2_S8388608
          (W (Proc.devRef .tc main_v181))
          (pairOp 22 slices_S24_S1_22 shapeCasts_S1_S_ bcast_S_S1 concatenates_S1_S1_S2_d0
            (W (Proc.devRef .tc main_v3)) (W (Proc.devRef .tc main_v4)))
    ∧ after (seg22 (F := Ideal)) W (Proc.devRef .tc main_v3) = W (Proc.devRef .tc main_v3)
    ∧ after (seg22 (F := Ideal)) W (Proc.devRef .tc main_v4) = W (Proc.devRef .tc main_v4) := by
  unfold seg22
  refine ⟨?_, ?_, ?_⟩
  · after_results
    rfl
  · after_results
  · after_results

theorem seg23_all (W : Valuation τ sig (Elt Ideal)) :
    after (seg23 (F := Ideal)) W (Proc.devRef .tc main_v197)
      = kronOp 8388608 16777216 bcast_S8388608_S8388608x1_0 bcast_S2_S1x2_1 bcast_S8388608x1_S8388608x2_0_1 bcast_S1x2_S8388608x2_0_1 shapeCasts_S8388608x2_S16777216
          (W (Proc.devRef .tc main_v189))
          (pairOp 23 slices_S24_S1_23 shapeCasts_S1_S_ bcast_S_S1 concatenates_S1_S1_S2_d0
            (W (Proc.devRef .tc main_v3)) (W (Proc.devRef .tc main_v4)))
    ∧ after (seg23 (F := Ideal)) W (Proc.devRef .tc main_v3) = W (Proc.devRef .tc main_v3)
    ∧ after (seg23 (F := Ideal)) W (Proc.devRef .tc main_v4) = W (Proc.devRef .tc main_v4) := by
  unfold seg23
  refine ⟨?_, ?_, ?_⟩
  · after_results
    rfl
  · after_results
  · after_results

/-! ## The state after each wire -/

theorem inv0 (V : Valuation τ sig (Elt Ideal)) :
    (∀ i : S2.Idx, (W0 V (Proc.devRef .tc main_v13) : S2.Idx → EReal) i
        = kronP (cE (V (Proc.devRef .tc main_arg1))) (sE (V (Proc.devRef .tc main_arg1))) (0 + 1) (i 0).val)
    ∧ (∀ j : S24.Idx, (W0 V (Proc.devRef .tc main_v3) : S24.Idx → EReal) j = cosH ((V (Proc.devRef .tc main_arg1) : S24.Idx → EReal) j))
    ∧ (∀ j : S24.Idx, (W0 V (Proc.devRef .tc main_v4) : S24.Idx → EReal) j = sinH ((V (Proc.devRef .tc main_arg1) : S24.Idx → EReal) j)) := by
  obtain ⟨hc, hn, hs⟩ := pre_all V
  obtain ⟨e1, e3, e4⟩ := seg0_all (Wpre V)
  refine ⟨fun i => ?_, fun j => ?_, fun j => ?_⟩
  · have hi : (i 0).val < 2 := (i 0).isLt
    unfold W0
    rw [e1, kronOp1_apply, hs, pairOp_apply 0 (by decide), hc, hn, kronP_succ]
    rfl
  · unfold W0; rw [e3]; exact hc j
  · unfold W0; rw [e4]; exact hn j

theorem inv1 (V : Valuation τ sig (Elt Ideal)) :
    (∀ i : S4.Idx, (W1 V (Proc.devRef .tc main_v21) : S4.Idx → EReal) i
        = kronP (cE (V (Proc.devRef .tc main_arg1))) (sE (V (Proc.devRef .tc main_arg1))) (1 + 1) (i 0).val)
    ∧ (∀ j : S24.Idx, (W1 V (Proc.devRef .tc main_v3) : S24.Idx → EReal) j = cosH ((V (Proc.devRef .tc main_arg1) : S24.Idx → EReal) j))
    ∧ (∀ j : S24.Idx, (W1 V (Proc.devRef .tc main_v4) : S24.Idx → EReal) j = sinH ((V (Proc.devRef .tc main_arg1) : S24.Idx → EReal) j)) := by
  obtain ⟨hs, hc, hn⟩ := inv0 V
  obtain ⟨e1, e3, e4⟩ := seg1_all (W0 V)
  refine ⟨fun i => ?_, fun j => ?_, fun j => ?_⟩
  · have hi : (i 0).val < 4 := (i 0).isLt
    unfold W1
    rw [e1, kronOp_apply 2 4 rfl _ _ _ _ _ _ _ i (by omega), hs, pairOp_apply 1 (by decide), hc, hn, kronP_succ]
    rfl
  · unfold W1; rw [e3]; exact hc j
  · unfold W1; rw [e4]; exact hn j

theorem inv2 (V : Valuation τ sig (Elt Ideal)) :
    (∀ i : S8.Idx, (W2 V (Proc.devRef .tc main_v29) : S8.Idx → EReal) i
        = kronP (cE (V (Proc.devRef .tc main_arg1))) (sE (V (Proc.devRef .tc main_arg1))) (2 + 1) (i 0).val)
    ∧ (∀ j : S24.Idx, (W2 V (Proc.devRef .tc main_v3) : S24.Idx → EReal) j = cosH ((V (Proc.devRef .tc main_arg1) : S24.Idx → EReal) j))
    ∧ (∀ j : S24.Idx, (W2 V (Proc.devRef .tc main_v4) : S24.Idx → EReal) j = sinH ((V (Proc.devRef .tc main_arg1) : S24.Idx → EReal) j)) := by
  obtain ⟨hs, hc, hn⟩ := inv1 V
  obtain ⟨e1, e3, e4⟩ := seg2_all (W1 V)
  refine ⟨fun i => ?_, fun j => ?_, fun j => ?_⟩
  · have hi : (i 0).val < 8 := (i 0).isLt
    unfold W2
    rw [e1, kronOp_apply 4 8 rfl _ _ _ _ _ _ _ i (by omega), hs, pairOp_apply 2 (by decide), hc, hn, kronP_succ]
    rfl
  · unfold W2; rw [e3]; exact hc j
  · unfold W2; rw [e4]; exact hn j

theorem inv3 (V : Valuation τ sig (Elt Ideal)) :
    (∀ i : S16.Idx, (W3 V (Proc.devRef .tc main_v37) : S16.Idx → EReal) i
        = kronP (cE (V (Proc.devRef .tc main_arg1))) (sE (V (Proc.devRef .tc main_arg1))) (3 + 1) (i 0).val)
    ∧ (∀ j : S24.Idx, (W3 V (Proc.devRef .tc main_v3) : S24.Idx → EReal) j = cosH ((V (Proc.devRef .tc main_arg1) : S24.Idx → EReal) j))
    ∧ (∀ j : S24.Idx, (W3 V (Proc.devRef .tc main_v4) : S24.Idx → EReal) j = sinH ((V (Proc.devRef .tc main_arg1) : S24.Idx → EReal) j)) := by
  obtain ⟨hs, hc, hn⟩ := inv2 V
  obtain ⟨e1, e3, e4⟩ := seg3_all (W2 V)
  refine ⟨fun i => ?_, fun j => ?_, fun j => ?_⟩
  · have hi : (i 0).val < 16 := (i 0).isLt
    unfold W3
    rw [e1, kronOp_apply 8 16 rfl _ _ _ _ _ _ _ i (by omega), hs, pairOp_apply 3 (by decide), hc, hn, kronP_succ]
    rfl
  · unfold W3; rw [e3]; exact hc j
  · unfold W3; rw [e4]; exact hn j

theorem inv4 (V : Valuation τ sig (Elt Ideal)) :
    (∀ i : S32.Idx, (W4 V (Proc.devRef .tc main_v45) : S32.Idx → EReal) i
        = kronP (cE (V (Proc.devRef .tc main_arg1))) (sE (V (Proc.devRef .tc main_arg1))) (4 + 1) (i 0).val)
    ∧ (∀ j : S24.Idx, (W4 V (Proc.devRef .tc main_v3) : S24.Idx → EReal) j = cosH ((V (Proc.devRef .tc main_arg1) : S24.Idx → EReal) j))
    ∧ (∀ j : S24.Idx, (W4 V (Proc.devRef .tc main_v4) : S24.Idx → EReal) j = sinH ((V (Proc.devRef .tc main_arg1) : S24.Idx → EReal) j)) := by
  obtain ⟨hs, hc, hn⟩ := inv3 V
  obtain ⟨e1, e3, e4⟩ := seg4_all (W3 V)
  refine ⟨fun i => ?_, fun j => ?_, fun j => ?_⟩
  · have hi : (i 0).val < 32 := (i 0).isLt
    unfold W4
    rw [e1, kronOp_apply 16 32 rfl _ _ _ _ _ _ _ i (by omega), hs, pairOp_apply 4 (by decide), hc, hn, kronP_succ]
    rfl
  · unfold W4; rw [e3]; exact hc j
  · unfold W4; rw [e4]; exact hn j

theorem inv5 (V : Valuation τ sig (Elt Ideal)) :
    (∀ i : S64.Idx, (W5 V (Proc.devRef .tc main_v53) : S64.Idx → EReal) i
        = kronP (cE (V (Proc.devRef .tc main_arg1))) (sE (V (Proc.devRef .tc main_arg1))) (5 + 1) (i 0).val)
    ∧ (∀ j : S24.Idx, (W5 V (Proc.devRef .tc main_v3) : S24.Idx → EReal) j = cosH ((V (Proc.devRef .tc main_arg1) : S24.Idx → EReal) j))
    ∧ (∀ j : S24.Idx, (W5 V (Proc.devRef .tc main_v4) : S24.Idx → EReal) j = sinH ((V (Proc.devRef .tc main_arg1) : S24.Idx → EReal) j)) := by
  obtain ⟨hs, hc, hn⟩ := inv4 V
  obtain ⟨e1, e3, e4⟩ := seg5_all (W4 V)
  refine ⟨fun i => ?_, fun j => ?_, fun j => ?_⟩
  · have hi : (i 0).val < 64 := (i 0).isLt
    unfold W5
    rw [e1, kronOp_apply 32 64 rfl _ _ _ _ _ _ _ i (by omega), hs, pairOp_apply 5 (by decide), hc, hn, kronP_succ]
    rfl
  · unfold W5; rw [e3]; exact hc j
  · unfold W5; rw [e4]; exact hn j

theorem inv6 (V : Valuation τ sig (Elt Ideal)) :
    (∀ i : S128.Idx, (W6 V (Proc.devRef .tc main_v61) : S128.Idx → EReal) i
        = kronP (cE (V (Proc.devRef .tc main_arg1))) (sE (V (Proc.devRef .tc main_arg1))) (6 + 1) (i 0).val)
    ∧ (∀ j : S24.Idx, (W6 V (Proc.devRef .tc main_v3) : S24.Idx → EReal) j = cosH ((V (Proc.devRef .tc main_arg1) : S24.Idx → EReal) j))
    ∧ (∀ j : S24.Idx, (W6 V (Proc.devRef .tc main_v4) : S24.Idx → EReal) j = sinH ((V (Proc.devRef .tc main_arg1) : S24.Idx → EReal) j)) := by
  obtain ⟨hs, hc, hn⟩ := inv5 V
  obtain ⟨e1, e3, e4⟩ := seg6_all (W5 V)
  refine ⟨fun i => ?_, fun j => ?_, fun j => ?_⟩
  · have hi : (i 0).val < 128 := (i 0).isLt
    unfold W6
    rw [e1, kronOp_apply 64 128 rfl _ _ _ _ _ _ _ i (by omega), hs, pairOp_apply 6 (by decide), hc, hn, kronP_succ]
    rfl
  · unfold W6; rw [e3]; exact hc j
  · unfold W6; rw [e4]; exact hn j

theorem inv7 (V : Valuation τ sig (Elt Ideal)) :
    (∀ i : S256.Idx, (W7 V (Proc.devRef .tc main_v69) : S256.Idx → EReal) i
        = kronP (cE (V (Proc.devRef .tc main_arg1))) (sE (V (Proc.devRef .tc main_arg1))) (7 + 1) (i 0).val)
    ∧ (∀ j : S24.Idx, (W7 V (Proc.devRef .tc main_v3) : S24.Idx → EReal) j = cosH ((V (Proc.devRef .tc main_arg1) : S24.Idx → EReal) j))
    ∧ (∀ j : S24.Idx, (W7 V (Proc.devRef .tc main_v4) : S24.Idx → EReal) j = sinH ((V (Proc.devRef .tc main_arg1) : S24.Idx → EReal) j)) := by
  obtain ⟨hs, hc, hn⟩ := inv6 V
  obtain ⟨e1, e3, e4⟩ := seg7_all (W6 V)
  refine ⟨fun i => ?_, fun j => ?_, fun j => ?_⟩
  · have hi : (i 0).val < 256 := (i 0).isLt
    unfold W7
    rw [e1, kronOp_apply 128 256 rfl _ _ _ _ _ _ _ i (by omega), hs, pairOp_apply 7 (by decide), hc, hn, kronP_succ]
    rfl
  · unfold W7; rw [e3]; exact hc j
  · unfold W7; rw [e4]; exact hn j

theorem inv8 (V : Valuation τ sig (Elt Ideal)) :
    (∀ i : S512.Idx, (W8 V (Proc.devRef .tc main_v77) : S512.Idx → EReal) i
        = kronP (cE (V (Proc.devRef .tc main_arg1))) (sE (V (Proc.devRef .tc main_arg1))) (8 + 1) (i 0).val)
    ∧ (∀ j : S24.Idx, (W8 V (Proc.devRef .tc main_v3) : S24.Idx → EReal) j = cosH ((V (Proc.devRef .tc main_arg1) : S24.Idx → EReal) j))
    ∧ (∀ j : S24.Idx, (W8 V (Proc.devRef .tc main_v4) : S24.Idx → EReal) j = sinH ((V (Proc.devRef .tc main_arg1) : S24.Idx → EReal) j)) := by
  obtain ⟨hs, hc, hn⟩ := inv7 V
  obtain ⟨e1, e3, e4⟩ := seg8_all (W7 V)
  refine ⟨fun i => ?_, fun j => ?_, fun j => ?_⟩
  · have hi : (i 0).val < 512 := (i 0).isLt
    unfold W8
    rw [e1, kronOp_apply 256 512 rfl _ _ _ _ _ _ _ i (by omega), hs, pairOp_apply 8 (by decide), hc, hn, kronP_succ]
    rfl
  · unfold W8; rw [e3]; exact hc j
  · unfold W8; rw [e4]; exact hn j

theorem inv9 (V : Valuation τ sig (Elt Ideal)) :
    (∀ i : S1024.Idx, (W9 V (Proc.devRef .tc main_v85) : S1024.Idx → EReal) i
        = kronP (cE (V (Proc.devRef .tc main_arg1))) (sE (V (Proc.devRef .tc main_arg1))) (9 + 1) (i 0).val)
    ∧ (∀ j : S24.Idx, (W9 V (Proc.devRef .tc main_v3) : S24.Idx → EReal) j = cosH ((V (Proc.devRef .tc main_arg1) : S24.Idx → EReal) j))
    ∧ (∀ j : S24.Idx, (W9 V (Proc.devRef .tc main_v4) : S24.Idx → EReal) j = sinH ((V (Proc.devRef .tc main_arg1) : S24.Idx → EReal) j)) := by
  obtain ⟨hs, hc, hn⟩ := inv8 V
  obtain ⟨e1, e3, e4⟩ := seg9_all (W8 V)
  refine ⟨fun i => ?_, fun j => ?_, fun j => ?_⟩
  · have hi : (i 0).val < 1024 := (i 0).isLt
    unfold W9
    rw [e1, kronOp_apply 512 1024 rfl _ _ _ _ _ _ _ i (by omega), hs, pairOp_apply 9 (by decide), hc, hn, kronP_succ]
    rfl
  · unfold W9; rw [e3]; exact hc j
  · unfold W9; rw [e4]; exact hn j

theorem inv10 (V : Valuation τ sig (Elt Ideal)) :
    (∀ i : S2048.Idx, (W10 V (Proc.devRef .tc main_v93) : S2048.Idx → EReal) i
        = kronP (cE (V (Proc.devRef .tc main_arg1))) (sE (V (Proc.devRef .tc main_arg1))) (10 + 1) (i 0).val)
    ∧ (∀ j : S24.Idx, (W10 V (Proc.devRef .tc main_v3) : S24.Idx → EReal) j = cosH ((V (Proc.devRef .tc main_arg1) : S24.Idx → EReal) j))
    ∧ (∀ j : S24.Idx, (W10 V (Proc.devRef .tc main_v4) : S24.Idx → EReal) j = sinH ((V (Proc.devRef .tc main_arg1) : S24.Idx → EReal) j)) := by
  obtain ⟨hs, hc, hn⟩ := inv9 V
  obtain ⟨e1, e3, e4⟩ := seg10_all (W9 V)
  refine ⟨fun i => ?_, fun j => ?_, fun j => ?_⟩
  · have hi : (i 0).val < 2048 := (i 0).isLt
    unfold W10
    rw [e1, kronOp_apply 1024 2048 rfl _ _ _ _ _ _ _ i (by omega), hs, pairOp_apply 10 (by decide), hc, hn, kronP_succ]
    rfl
  · unfold W10; rw [e3]; exact hc j
  · unfold W10; rw [e4]; exact hn j

theorem inv11 (V : Valuation τ sig (Elt Ideal)) :
    (∀ i : S4096.Idx, (W11 V (Proc.devRef .tc main_v101) : S4096.Idx → EReal) i
        = kronP (cE (V (Proc.devRef .tc main_arg1))) (sE (V (Proc.devRef .tc main_arg1))) (11 + 1) (i 0).val)
    ∧ (∀ j : S24.Idx, (W11 V (Proc.devRef .tc main_v3) : S24.Idx → EReal) j = cosH ((V (Proc.devRef .tc main_arg1) : S24.Idx → EReal) j))
    ∧ (∀ j : S24.Idx, (W11 V (Proc.devRef .tc main_v4) : S24.Idx → EReal) j = sinH ((V (Proc.devRef .tc main_arg1) : S24.Idx → EReal) j)) := by
  obtain ⟨hs, hc, hn⟩ := inv10 V
  obtain ⟨e1, e3, e4⟩ := seg11_all (W10 V)
  refine ⟨fun i => ?_, fun j => ?_, fun j => ?_⟩
  · have hi : (i 0).val < 4096 := (i 0).isLt
    unfold W11
    rw [e1, kronOp_apply 2048 4096 rfl _ _ _ _ _ _ _ i (by omega), hs, pairOp_apply 11 (by decide), hc, hn, kronP_succ]
    rfl
  · unfold W11; rw [e3]; exact hc j
  · unfold W11; rw [e4]; exact hn j

theorem inv12 (V : Valuation τ sig (Elt Ideal)) :
    (∀ i : S8192.Idx, (W12 V (Proc.devRef .tc main_v109) : S8192.Idx → EReal) i
        = kronP (cE (V (Proc.devRef .tc main_arg1))) (sE (V (Proc.devRef .tc main_arg1))) (12 + 1) (i 0).val)
    ∧ (∀ j : S24.Idx, (W12 V (Proc.devRef .tc main_v3) : S24.Idx → EReal) j = cosH ((V (Proc.devRef .tc main_arg1) : S24.Idx → EReal) j))
    ∧ (∀ j : S24.Idx, (W12 V (Proc.devRef .tc main_v4) : S24.Idx → EReal) j = sinH ((V (Proc.devRef .tc main_arg1) : S24.Idx → EReal) j)) := by
  obtain ⟨hs, hc, hn⟩ := inv11 V
  obtain ⟨e1, e3, e4⟩ := seg12_all (W11 V)
  refine ⟨fun i => ?_, fun j => ?_, fun j => ?_⟩
  · have hi : (i 0).val < 8192 := (i 0).isLt
    unfold W12
    rw [e1, kronOp_apply 4096 8192 rfl _ _ _ _ _ _ _ i (by omega), hs, pairOp_apply 12 (by decide), hc, hn, kronP_succ]
    rfl
  · unfold W12; rw [e3]; exact hc j
  · unfold W12; rw [e4]; exact hn j

theorem inv13 (V : Valuation τ sig (Elt Ideal)) :
    (∀ i : S16384.Idx, (W13 V (Proc.devRef .tc main_v117) : S16384.Idx → EReal) i
        = kronP (cE (V (Proc.devRef .tc main_arg1))) (sE (V (Proc.devRef .tc main_arg1))) (13 + 1) (i 0).val)
    ∧ (∀ j : S24.Idx, (W13 V (Proc.devRef .tc main_v3) : S24.Idx → EReal) j = cosH ((V (Proc.devRef .tc main_arg1) : S24.Idx → EReal) j))
    ∧ (∀ j : S24.Idx, (W13 V (Proc.devRef .tc main_v4) : S24.Idx → EReal) j = sinH ((V (Proc.devRef .tc main_arg1) : S24.Idx → EReal) j)) := by
  obtain ⟨hs, hc, hn⟩ := inv12 V
  obtain ⟨e1, e3, e4⟩ := seg13_all (W12 V)
  refine ⟨fun i => ?_, fun j => ?_, fun j => ?_⟩
  · have hi : (i 0).val < 16384 := (i 0).isLt
    unfold W13
    rw [e1, kronOp_apply 8192 16384 rfl _ _ _ _ _ _ _ i (by omega), hs, pairOp_apply 13 (by decide), hc, hn, kronP_succ]
    rfl
  · unfold W13; rw [e3]; exact hc j
  · unfold W13; rw [e4]; exact hn j

theorem inv14 (V : Valuation τ sig (Elt Ideal)) :
    (∀ i : S32768.Idx, (W14 V (Proc.devRef .tc main_v125) : S32768.Idx → EReal) i
        = kronP (cE (V (Proc.devRef .tc main_arg1))) (sE (V (Proc.devRef .tc main_arg1))) (14 + 1) (i 0).val)
    ∧ (∀ j : S24.Idx, (W14 V (Proc.devRef .tc main_v3) : S24.Idx → EReal) j = cosH ((V (Proc.devRef .tc main_arg1) : S24.Idx → EReal) j))
    ∧ (∀ j : S24.Idx, (W14 V (Proc.devRef .tc main_v4) : S24.Idx → EReal) j = sinH ((V (Proc.devRef .tc main_arg1) : S24.Idx → EReal) j)) := by
  obtain ⟨hs, hc, hn⟩ := inv13 V
  obtain ⟨e1, e3, e4⟩ := seg14_all (W13 V)
  refine ⟨fun i => ?_, fun j => ?_, fun j => ?_⟩
  · have hi : (i 0).val < 32768 := (i 0).isLt
    unfold W14
    rw [e1, kronOp_apply 16384 32768 rfl _ _ _ _ _ _ _ i (by omega), hs, pairOp_apply 14 (by decide), hc, hn, kronP_succ]
    rfl
  · unfold W14; rw [e3]; exact hc j
  · unfold W14; rw [e4]; exact hn j

theorem inv15 (V : Valuation τ sig (Elt Ideal)) :
    (∀ i : S65536.Idx, (W15 V (Proc.devRef .tc main_v133) : S65536.Idx → EReal) i
        = kronP (cE (V (Proc.devRef .tc main_arg1))) (sE (V (Proc.devRef .tc main_arg1))) (15 + 1) (i 0).val)
    ∧ (∀ j : S24.Idx, (W15 V (Proc.devRef .tc main_v3) : S24.Idx → EReal) j = cosH ((V (Proc.devRef .tc main_arg1) : S24.Idx → EReal) j))
    ∧ (∀ j : S24.Idx, (W15 V (Proc.devRef .tc main_v4) : S24.Idx → EReal) j = sinH ((V (Proc.devRef .tc main_arg1) : S24.Idx → EReal) j)) := by
  obtain ⟨hs, hc, hn⟩ := inv14 V
  obtain ⟨e1, e3, e4⟩ := seg15_all (W14 V)
  refine ⟨fun i => ?_, fun j => ?_, fun j => ?_⟩
  · have hi : (i 0).val < 65536 := (i 0).isLt
    unfold W15
    rw [e1, kronOp_apply 32768 65536 rfl _ _ _ _ _ _ _ i (by omega), hs, pairOp_apply 15 (by decide), hc, hn, kronP_succ]
    rfl
  · unfold W15; rw [e3]; exact hc j
  · unfold W15; rw [e4]; exact hn j

theorem inv16 (V : Valuation τ sig (Elt Ideal)) :
    (∀ i : S131072.Idx, (W16 V (Proc.devRef .tc main_v141) : S131072.Idx → EReal) i
        = kronP (cE (V (Proc.devRef .tc main_arg1))) (sE (V (Proc.devRef .tc main_arg1))) (16 + 1) (i 0).val)
    ∧ (∀ j : S24.Idx, (W16 V (Proc.devRef .tc main_v3) : S24.Idx → EReal) j = cosH ((V (Proc.devRef .tc main_arg1) : S24.Idx → EReal) j))
    ∧ (∀ j : S24.Idx, (W16 V (Proc.devRef .tc main_v4) : S24.Idx → EReal) j = sinH ((V (Proc.devRef .tc main_arg1) : S24.Idx → EReal) j)) := by
  obtain ⟨hs, hc, hn⟩ := inv15 V
  obtain ⟨e1, e3, e4⟩ := seg16_all (W15 V)
  refine ⟨fun i => ?_, fun j => ?_, fun j => ?_⟩
  · have hi : (i 0).val < 131072 := (i 0).isLt
    unfold W16
    rw [e1, kronOp_apply 65536 131072 rfl _ _ _ _ _ _ _ i (by omega), hs, pairOp_apply 16 (by decide), hc, hn, kronP_succ]
    rfl
  · unfold W16; rw [e3]; exact hc j
  · unfold W16; rw [e4]; exact hn j

theorem inv17 (V : Valuation τ sig (Elt Ideal)) :
    (∀ i : S262144.Idx, (W17 V (Proc.devRef .tc main_v149) : S262144.Idx → EReal) i
        = kronP (cE (V (Proc.devRef .tc main_arg1))) (sE (V (Proc.devRef .tc main_arg1))) (17 + 1) (i 0).val)
    ∧ (∀ j : S24.Idx, (W17 V (Proc.devRef .tc main_v3) : S24.Idx → EReal) j = cosH ((V (Proc.devRef .tc main_arg1) : S24.Idx → EReal) j))
    ∧ (∀ j : S24.Idx, (W17 V (Proc.devRef .tc main_v4) : S24.Idx → EReal) j = sinH ((V (Proc.devRef .tc main_arg1) : S24.Idx → EReal) j)) := by
  obtain ⟨hs, hc, hn⟩ := inv16 V
  obtain ⟨e1, e3, e4⟩ := seg17_all (W16 V)
  refine ⟨fun i => ?_, fun j => ?_, fun j => ?_⟩
  · have hi : (i 0).val < 262144 := (i 0).isLt
    unfold W17
    rw [e1, kronOp_apply 131072 262144 rfl _ _ _ _ _ _ _ i (by omega), hs, pairOp_apply 17 (by decide), hc, hn, kronP_succ]
    rfl
  · unfold W17; rw [e3]; exact hc j
  · unfold W17; rw [e4]; exact hn j

theorem inv18 (V : Valuation τ sig (Elt Ideal)) :
    (∀ i : S524288.Idx, (W18 V (Proc.devRef .tc main_v157) : S524288.Idx → EReal) i
        = kronP (cE (V (Proc.devRef .tc main_arg1))) (sE (V (Proc.devRef .tc main_arg1))) (18 + 1) (i 0).val)
    ∧ (∀ j : S24.Idx, (W18 V (Proc.devRef .tc main_v3) : S24.Idx → EReal) j = cosH ((V (Proc.devRef .tc main_arg1) : S24.Idx → EReal) j))
    ∧ (∀ j : S24.Idx, (W18 V (Proc.devRef .tc main_v4) : S24.Idx → EReal) j = sinH ((V (Proc.devRef .tc main_arg1) : S24.Idx → EReal) j)) := by
  obtain ⟨hs, hc, hn⟩ := inv17 V
  obtain ⟨e1, e3, e4⟩ := seg18_all (W17 V)
  refine ⟨fun i => ?_, fun j => ?_, fun j => ?_⟩
  · have hi : (i 0).val < 524288 := (i 0).isLt
    unfold W18
    rw [e1, kronOp_apply 262144 524288 rfl _ _ _ _ _ _ _ i (by omega), hs, pairOp_apply 18 (by decide), hc, hn, kronP_succ]
    rfl
  · unfold W18; rw [e3]; exact hc j
  · unfold W18; rw [e4]; exact hn j

theorem inv19 (V : Valuation τ sig (Elt Ideal)) :
    (∀ i : S1048576.Idx, (W19 V (Proc.devRef .tc main_v165) : S1048576.Idx → EReal) i
        = kronP (cE (V (Proc.devRef .tc main_arg1))) (sE (V (Proc.devRef .tc main_arg1))) (19 + 1) (i 0).val)
    ∧ (∀ j : S24.Idx, (W19 V (Proc.devRef .tc main_v3) : S24.Idx → EReal) j = cosH ((V (Proc.devRef .tc main_arg1) : S24.Idx → EReal) j))
    ∧ (∀ j : S24.Idx, (W19 V (Proc.devRef .tc main_v4) : S24.Idx → EReal) j = sinH ((V (Proc.devRef .tc main_arg1) : S24.Idx → EReal) j)) := by
  obtain ⟨hs, hc, hn⟩ := inv18 V
  obtain ⟨e1, e3, e4⟩ := seg19_all (W18 V)
  refine ⟨fun i => ?_, fun j => ?_, fun j => ?_⟩
  · have hi : (i 0).val < 1048576 := (i 0).isLt
    unfold W19
    rw [e1, kronOp_apply 524288 1048576 rfl _ _ _ _ _ _ _ i (by omega), hs, pairOp_apply 19 (by decide), hc, hn, kronP_succ]
    rfl
  · unfold W19; rw [e3]; exact hc j
  · unfold W19; rw [e4]; exact hn j

theorem inv20 (V : Valuation τ sig (Elt Ideal)) :
    (∀ i : S2097152.Idx, (W20 V (Proc.devRef .tc main_v173) : S2097152.Idx → EReal) i
        = kronP (cE (V (Proc.devRef .tc main_arg1))) (sE (V (Proc.devRef .tc main_arg1))) (20 + 1) (i 0).val)
    ∧ (∀ j : S24.Idx, (W20 V (Proc.devRef .tc main_v3) : S24.Idx → EReal) j = cosH ((V (Proc.devRef .tc main_arg1) : S24.Idx → EReal) j))
    ∧ (∀ j : S24.Idx, (W20 V (Proc.devRef .tc main_v4) : S24.Idx → EReal) j = sinH ((V (Proc.devRef .tc main_arg1) : S24.Idx → EReal) j)) := by
  obtain ⟨hs, hc, hn⟩ := inv19 V
  obtain ⟨e1, e3, e4⟩ := seg20_all (W19 V)
  refine ⟨fun i => ?_, fun j => ?_, fun j => ?_⟩
  · have hi : (i 0).val < 2097152 := (i 0).isLt
    unfold W20
    rw [e1, kronOp_apply 1048576 2097152 rfl _ _ _ _ _ _ _ i (by omega), hs, pairOp_apply 20 (by decide), hc, hn, kronP_succ]
    rfl
  · unfold W20; rw [e3]; exact hc j
  · unfold W20; rw [e4]; exact hn j

theorem inv21 (V : Valuation τ sig (Elt Ideal)) :
    (∀ i : S4194304.Idx, (W21 V (Proc.devRef .tc main_v181) : S4194304.Idx → EReal) i
        = kronP (cE (V (Proc.devRef .tc main_arg1))) (sE (V (Proc.devRef .tc main_arg1))) (21 + 1) (i 0).val)
    ∧ (∀ j : S24.Idx, (W21 V (Proc.devRef .tc main_v3) : S24.Idx → EReal) j = cosH ((V (Proc.devRef .tc main_arg1) : S24.Idx → EReal) j))
    ∧ (∀ j : S24.Idx, (W21 V (Proc.devRef .tc main_v4) : S24.Idx → EReal) j = sinH ((V (Proc.devRef .tc main_arg1) : S24.Idx → EReal) j)) := by
  obtain ⟨hs, hc, hn⟩ := inv20 V
  obtain ⟨e1, e3, e4⟩ := seg21_all (W20 V)
  refine ⟨fun i => ?_, fun j => ?_, fun j => ?_⟩
  · have hi : (i 0).val < 4194304 := (i 0).isLt
    unfold W21
    rw [e1, kronOp_apply 2097152 4194304 rfl _ _ _ _ _ _ _ i (by omega), hs, pairOp_apply 21 (by decide), hc, hn, kronP_succ]
    rfl
  · unfold W21; rw [e3]; exact hc j
  · unfold W21; rw [e4]; exact hn j

theorem inv22 (V : Valuation τ sig (Elt Ideal)) :
    (∀ i : S8388608.Idx, (W22 V (Proc.devRef .tc main_v189) : S8388608.Idx → EReal) i
        = kronP (cE (V (Proc.devRef .tc main_arg1))) (sE (V (Proc.devRef .tc main_arg1))) (22 + 1) (i 0).val)
    ∧ (∀ j : S24.Idx, (W22 V (Proc.devRef .tc main_v3) : S24.Idx → EReal) j = cosH ((V (Proc.devRef .tc main_arg1) : S24.Idx → EReal) j))
    ∧ (∀ j : S24.Idx, (W22 V (Proc.devRef .tc main_v4) : S24.Idx → EReal) j = sinH ((V (Proc.devRef .tc main_arg1) : S24.Idx → EReal) j)) := by
  obtain ⟨hs, hc, hn⟩ := inv21 V
  obtain ⟨e1, e3, e4⟩ := seg22_all (W21 V)
  refine ⟨fun i => ?_, fun j => ?_, fun j => ?_⟩
  · have hi : (i 0).val < 8388608 := (i 0).isLt
    unfold W22
    rw [e1, kronOp_apply 4194304 8388608 rfl _ _ _ _ _ _ _ i (by omega), hs, pairOp_apply 22 (by decide), hc, hn, kronP_succ]
    rfl
  · unfold W22; rw [e3]; exact hc j
  · unfold W22; rw [e4]; exact hn j

theorem inv23 (V : Valuation τ sig (Elt Ideal)) :
    (∀ i : S16777216.Idx, (W23 V (Proc.devRef .tc main_v197) : S16777216.Idx → EReal) i
        = kronP (cE (V (Proc.devRef .tc main_arg1))) (sE (V (Proc.devRef .tc main_arg1))) (23 + 1) (i 0).val)
    ∧ (∀ j : S24.Idx, (W23 V (Proc.devRef .tc main_v3) : S24.Idx → EReal) j = cosH ((V (Proc.devRef .tc main_arg1) : S24.Idx → EReal) j))
    ∧ (∀ j : S24.Idx, (W23 V (Proc.devRef .tc main_v4) : S24.Idx → EReal) j = sinH ((V (Proc.devRef .tc main_arg1) : S24.Idx → EReal) j)) := by
  obtain ⟨hs, hc, hn⟩ := inv22 V
  obtain ⟨e1, e3, e4⟩ := seg23_all (W22 V)
  refine ⟨fun i => ?_, fun j => ?_, fun j => ?_⟩
  · have hi : (i 0).val < 16777216 := (i 0).isLt
    unfold W23
    rw [e1, kronOp_apply 8388608 16777216 rfl _ _ _ _ _ _ _ i (by omega), hs, pairOp_apply 23 (by decide), hc, hn, kronP_succ]
    rfl
  · unfold W23; rw [e3]; exact hc j
  · unfold W23; rw [e4]; exact hn j

/-! ## The result, and the arguments -/

/-- The reference's result at the flat index `i`: the absolute value of the Kronecker product over the 24 wires. -/
theorem result_at (V : Valuation τ sig (Elt Ideal)) (i : S16777216.Idx) :
    (after opsI V (Proc.devRef .tc main_v198) : S16777216.Idx → EReal) i
      = G (V (Proc.devRef .tc main_arg1)) (i 0).val := by
  rw [after_ops]
  have e : after (segAbs (F := Ideal)) (W23 V) (Proc.devRef .tc main_v198)
      = Host.absf (F := Ideal) (s := S16777216) (φ := .f32) (W23 V (Proc.devRef .tc main_v197)) := by
    unfold segAbs
    after_results
  rw [e]
  show absE ((W23 V (Proc.devRef .tc main_v197) : S16777216.Idx → EReal) i) = _
  rw [(inv23 V).1 i]
  rfl

/-- No operation writes an argument: each ends as launched. -/
theorem kept_arg0 (V : Valuation τ sig (Elt Ideal)) :
    after opsI V (Proc.devRef .tc main_arg0) = V (Proc.devRef .tc main_arg0) :=
  after_of_forall_not_mem (b := Proc.devRef .tc main_arg0) _ _
    (fun op hop => ((List.forall_iff_forall_mem.mp (ops_args (F := Ideal))) op hop).1)
theorem kept_arg1 (V : Valuation τ sig (Elt Ideal)) :
    after opsI V (Proc.devRef .tc main_arg1) = V (Proc.devRef .tc main_arg1) :=
  after_of_forall_not_mem (b := Proc.devRef .tc main_arg1) _ _
    (fun op hop => ((List.forall_iff_forall_mem.mp (ops_args (F := Ideal))) op hop).2)

end Cert.ReferenceIdeal.RefValue

end
-- ==== Proof.lean ====
/-
  The kernel against its reference: the absolute value of a 24-wire product state.

  Both programs take 24 angles `y` (the first argument is unused) and, with `c k = cos ((-y k) · ½)` and
  `s k = sin ((-y k) · ½)`, return a vector of `2^24` entries.  The reference builds the Kronecker product of the 24
  two-vectors `[c k, s k]` one wire at a time and takes absolute values at the end.  The kernel builds, from the absolute
  values `|c k|`, `|s k|`, one vector of 4096 entries for the first twelve wires and one for the last twelve (a running
  product, each wire's factor chosen by a bit of the index), multiplies them as an outer product in eight row blocks of
  512, and re-reads the 4096 × 4096 result flat.  The two agree because `|x y| = |x| |y|` on all extended reals and a
  Kronecker product over 24 wires is the outer product of the products over the first and the last twelve
  (`KronAbs.abs_kron_split`): no finiteness of the inputs is needed, only commutativity and associativity.
-/
import proofs.«143588_j65481071403967_2_alg».proof.Defs
import proofs.«143588_j65481071403967_2_alg».proof.Proof.Gen.Kernel
import proofs.«143588_j65481071403967_2_alg».proof.Proof.Gen.Kernel.Frame
import proofs.«143588_j65481071403967_2_alg».proof.Proof.Gen.KernelIdeal
import proofs.«143588_j65481071403967_2_alg».proof.Proof.Gen.KernelIdeal.Frame
import proofs.«143588_j65481071403967_2_alg».proof.Proof.Gen.ReferenceIdeal
import proofs.«143588_j65481071403967_2_alg».proof.Proof.Gen.Pre_finite_inputs
import proofs.«143588_j65481071403967_2_alg».proof.Proof.KerValue
import proofs.«143588_j65481071403967_2_alg».proof.Proof.KerHostV
import proofs.«143588_j65481071403967_2_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx KronAbs KronSpec

/-- The common result: entry `I` of the flat vector is `KronSpec.G` of the angles at `I`. -/
def result (y : Cert.KernelIdeal.S24.Idx → EReal) : Cert.KernelIdeal.S16777216.Idx → EReal :=
  fun I => G y (I 0).val

section Kernel

open Cert.KernelIdeal Cert.KernelIdeal.Gen Cert.KernelIdeal.KerHost Cert.KernelIdeal.KerValue

/-- The outer product at a pair of coordinates. -/
theorem outer_apply (a : S4096x1.Idx → EReal) (b : S1x4096.Idx → EReal) (p q : Fin 4096) :
    outer a b (ix2 (n0 := 4096) (n1 := 4096) p q)
      = a (ix2 (n0 := 4096) (n1 := 1) p 0) * b (ix2 (n0 := 1) (n1 := 4096) 0 q) := rfl

/-- A vector re-read as a column, at row `p`. -/
theorem col_apply (x : S4096.Idx → EReal) (p : Fin 4096) :
    shapeCast S4096x1 x shapeCasts_S4096_S4096x1 (ix2 (n0 := 4096) (n1 := 1) p 0) = x (ix1 p) :=
  shapeCast_apply x shapeCasts_S4096_S4096x1 _ (ix1 p)
    (by rewrite [Shape.rowMajor_val_two, Shape.rowMajor_val_one]; show p.val = p.val * 1 + 0; omega)

/-- A vector re-read as a row, at lane `q`. -/
theorem row_apply (x : S4096.Idx → EReal) (q : Fin 4096) :
    shapeCast S1x4096 x shapeCasts_S4096_S1x4096 (ix2 (n0 := 1) (n1 := 4096) 0 q) = x (ix1 q) :=
  shapeCast_apply x shapeCasts_S4096_S1x4096 _ (ix1 q)
    (by rewrite [Shape.rowMajor_val_two, Shape.rowMajor_val_one]; show q.val = 0 * 4096 + q.val; omega)

/-- The kernel's flat result is the common result: entry `I` is the column operand at `I / 4096` times the row
    operand at `I % 4096`, each a running product of absolute values over its twelve wires. -/
theorem kernel_result (m : (ℓ : Loc nD τ sig) → Buf (Elt Ideal) ℓ) (c : Dev nD) :
    shapeCast S16777216 (outer (V m c main_v154) (V m c main_v308)) shapeCasts_S4096x4096_S16777216
      = result (m ((c : Thread nD τ).loc main_arg1)) := by
  funext I
  have hI : (I 0).val < 16777216 := (I 0).isLt
  rw [shapeCast_apply _ shapeCasts_S4096x4096_S16777216 I
    (ix2 (n0 := 4096) (n1 := 4096) ⟨(I 0).val / 4096, by omega⟩ ⟨(I 0).val % 4096, by omega⟩)
    (by rewrite [Shape.rowMajor_val_two, Shape.rowMajor_val_one]
        show (I 0).val / 4096 * 4096 + (I 0).val % 4096 = (I 0).val; omega)]
  rw [outer_apply, V_col, V_row, col_apply, row_apply,
    halfVec_of_angles _ 0 slices_S24_S12_0 (by decide), halfVec_of_angles _ 12 slices_S24_S12_12 (by decide)]
  unfold result
  rw [G_eq_outer]
  simp only [Nat.zero_add]

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono
    (fun _ h c => ⟨(h c Cert.ReferenceIdeal.main_arg0).trans (Cert.ReferenceIdeal.RefValue.kept_arg0 _),
      (h c Cert.ReferenceIdeal.main_arg1).trans (Cert.ReferenceIdeal.RefValue.kept_arg1 _)⟩)
    (Cert.ReferenceIdeal.RefRun.run_after (F := Ideal) m ρ)

/-- The idealization rewrote nothing: there is nothing to restate. -/
theorem preserves : Cert.preserves_Kernel_KernelIdeal := trivial

/-- From memories agreeing on the angles both programs end at the common result. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg1)), ?_, ?_⟩
  · exact (θ_run Cert.KernelIdeal.defs _ _).mono
      (fun r h c => ⟨(h c).1.trans (kernel_result m c), (h c).2.1, (h c).2.2⟩)
      (Cert.KernelIdeal.KerValue.run m ρ)
  · refine (θ_run Cert.ReferenceIdeal.defs _ _).mono
      (fun _ h c => ⟨?_, (h c Cert.ReferenceIdeal.main_arg0).trans (Cert.ReferenceIdeal.RefValue.kept_arg0 _),
        (h c Cert.ReferenceIdeal.main_arg1).trans (Cert.ReferenceIdeal.RefValue.kept_arg1 _)⟩)
      (Cert.ReferenceIdeal.RefRun.run_after (F := Ideal) m' ρ')
    rw [h c Cert.ReferenceIdeal.main_v198]
    funext I
    refine (Cert.ReferenceIdeal.RefValue.result_at _ I).trans ?_
    show G (m' ((c.tc : Thread Cert.ReferenceIdeal.nD Cert.ReferenceIdeal.τ).loc Cert.ReferenceIdeal.main_arg1)) (I 0).val = _
    rw [(hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
